-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  IdealRules.truncf_extf.Statement Cert.KernelIdeal.S2000x256 .f32 .bf16
  ∧ IdealRules.truncf_extf.Statement Cert.KernelIdeal.S256x256 .f32 .bf16
  ∧ IdealRules.truncf_extf.Statement Cert.KernelIdeal.S400x256 .f32 .bf16
  ∧ IdealRules.truncf_extf.Statement Cert.KernelIdeal.S256x64 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S10000x10000 : Shape := ⟨2, ![10000, 10000]⟩
abbrev S256x256 : Shape := ⟨2, ![256, 256]⟩
abbrev S256 : Shape := ⟨1, ![256]⟩
abbrev S256x64 : Shape := ⟨2, ![256, 64]⟩
abbrev S64 : Shape := ⟨1, ![64]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S256x64 .f32) (main_arg5 : FVec F S64 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x64 .f32 := Host.absf main_arg4
  let main_cst_6 : FVec F S_ .f32 := constant S_ .f32 0x7F800000#32
  let main_v20 : FVec F S256x64 .f32 := broadcastInDim S256x64 ![] bcast_S_S256x64 main_cst_6
  let main_v21 : IVec S256x64 1 := cmpf .olt main_v19 main_v20
  let main_c_7 : IVec S_ 1 := constantI S_ 1 1#1
  let main_v22 : IVec S_ 1 := (fun x v => Host.reduce IntOp.andi x v reducesTo_S256x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S10000x256 .f32) (main_arg1 : FVec F S10000x10000 .f32) (main_arg2 : FVec F S256x256 .f32) (main_arg3 : FVec F S256 .f32) (main_arg4 : FVec F S256x64 .f32) (main_arg5 : FVec F S64 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_v13 main_v16
-- ==== Kernel.lean ====
abbrev S10000x256 : Shape := ⟨2, ![10000, 256]⟩
abbrev S10000x10000 : Shape := ⟨2, ![10000, 10000]⟩
abbrev S256x256 : Shape := ⟨2, ![256, 256]⟩
abbrev S256 : Shape := ⟨1, ![256]⟩
abbrev S256x64 : Shape := ⟨2, ![256, 64]⟩
abbrev S64 : Shape := ⟨1, ![64]⟩
abbrev S1x256 : Shape := ⟨2, ![1, 256]⟩
abbrev S1x64 : Shape := ⟨2, ![1, 64]⟩
abbrev S2000x256 : Shape := ⟨2, ![2000, 256]⟩
abbrev S10000x64 : Shape := ⟨2, ![10000, 64]⟩
abbrev S400x10000 : Shape := ⟨2, ![400, 10000]⟩
abbrev S400x64 : Shape := ⟨2, ![400, 64]⟩
abbrev S400x256 : Shape := ⟨2, ![400, 256]⟩

abbrev nBuf : Space → Nat
  | .hbm => 13
  | .vmem => 22
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S256x256, .f32⟩
  | .hbm, ⟨3, _⟩ => ⟨S256, .f32⟩
  | .hbm, ⟨4, _⟩ => ⟨S256x64, .f32⟩
  | .hbm, ⟨5, _⟩ => ⟨S64, .f32⟩
  | .hbm, ⟨6, _⟩ => ⟨S1x256, .f32⟩
  | .hbm, ⟨7, _⟩ => ⟨S1x64, .f32⟩
  | .hbm, ⟨8, _⟩ => ⟨S10000x256, .bf16⟩
  | .hbm, ⟨9, _⟩ => ⟨S1x256, .f32⟩
  | .hbm, ⟨10, _⟩ => ⟨S10000x64, .bf16⟩
  | .hbm, ⟨11, _⟩ => ⟨S1x64, .f32⟩
  | .hbm, ⟨12, _⟩ => ⟨S10000x64, .f32⟩
  | .local _ .vmem, ⟨0, _⟩ => ⟨S2000x256, .f32⟩
  | .local _ .vmem, ⟨1, _⟩ => ⟨S2000x256, .f32⟩
  | .local _ .vmem, ⟨2, _⟩ => ⟨S256x256, .f32⟩
  | .local _ .vmem, ⟨3, _⟩ => ⟨S1x256, .f32⟩
  | .local _ .vmem, ⟨4, _⟩ => ⟨S2000x256, .bf16⟩
  | .local _ .vmem, ⟨5, _⟩ => ⟨S2000x256, .bf16⟩
  | .local _ .vmem, ⟨6, _⟩ => ⟨S1x256, .f32⟩
  | .local _ .vmem, ⟨7, _⟩ => ⟨S400x10000, .f32⟩
  | .local _ .vmem, ⟨8, _⟩ => ⟨S400x10000, .f32⟩
  | .local _ .vmem, ⟨9, _⟩ => ⟨S10000x256, .bf16⟩
  | .local _ .vmem, ⟨10, _⟩ => ⟨S1x256, .f32⟩
  | .local _ .vmem, ⟨11, _⟩ => ⟨S256x64, .f32⟩
  | .local _ .vmem, ⟨12, _⟩ => ⟨S400x64, .bf16⟩
  | .local _ .vmem, ⟨13, _⟩ => ⟨S400x64, .bf16⟩
  | .local _ .vmem, ⟨14, _⟩ => ⟨S1x64, .f32⟩
  | .local _ .vmem, ⟨15, _⟩ => ⟨S400x10000, .f32⟩
  | .local _ .vmem, ⟨16, _⟩ => ⟨S400x10000, .f32⟩
  | .local _ .vmem, ⟨17, _⟩ => ⟨S10000x64, .bf16⟩
  | .local _ .vmem, ⟨18, _⟩ => ⟨S1x64, .f32⟩
  | .local _ .vmem, ⟨19, _⟩ => ⟨S1x64, .f32⟩
  | .local _ .vmem, ⟨20, _⟩ => ⟨S400x64, .f32⟩
  | .local _ .vmem, ⟨21, _⟩ => ⟨S400x64, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v3_0 : Ref sig .tc := ⟨.hbm, 10, rfl⟩
abbrev main_v3_1 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg4_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem4_1 : DmaSem sig := 13
abbrev cc1_sem5_0 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem3_0 : DmaSem sig := 19
abbrev cc2_sem4_0 : DmaSem sig := 20
abbrev cc2_sem4_1 : DmaSem sig := 21

abbrev nD : Nat := 1
abbrev τ : Topo := Topo.v7x

variable {F : FTy → Type} [FloatOps F]

abbrev grid0 : Pipeline.Grid := ⟨1, ![5], ![false]⟩

def k0_cond1 (i : grid0.Coords) : BitVec 1 :=
  let arg0 : BitVec 32 := BitVec.ofNat 32 (i 0).val
  let c0_i32 : BitVec 32 := 0#32
  let v21 : BitVec 1 := Scalar.cmpi .eq arg0 c0_i32
  let v22 : BitVec 32 := Scalar.extui v21
  let c0_i32_9 : BitVec 32 := 0#32
  let v23 : BitVec 1 := Scalar.cmpi .ne v22 c0_i32_9
  v23

def k0_cond2 (i : grid0.Coords) : BitVec 1 :=
  let arg0 : BitVec 32 := BitVec.ofNat 32 (i 0).val
  let c0_i32_10 : BitVec 32 := 0#32
  let v24 : BitVec 1 := Scalar.cmpi .sgt arg0 c0_i32_10
  let v25 : BitVec 32 := Scalar.extui v24
  let c0_i32_11 : BitVec 32 := 0#32
  let v26 : BitVec 1 := Scalar.cmpi .ne v25 c0_i32_11
  v26

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨1, ![25], ![false]⟩

def k1_cond1 (i : grid1.Coords) : BitVec 1 :=
  let arg0 : BitVec 32 := BitVec.ofNat 32 (i 0).val
  let c0_i32 : BitVec 32 := 0#32
  let v31 : BitVec 1 := Scalar.cmpi .eq arg0 c0_i32
  let v32 : BitVec 32 := Scalar.extui v31
  let c0_i32_15 : BitVec 32 := 0#32
  let v33 : BitVec 1 := Scalar.cmpi .ne v32 c0_i32_15
  v33

def k1_cond2 (i : grid1.Coords) : BitVec 1 :=
  let arg0 : BitVec 32 := BitVec.ofNat 32 (i 0).val
  let c0_i32_16 : BitVec 32 := 0#32
  let v34 : BitVec 1 := Scalar.cmpi .sgt arg0 c0_i32_16
  let v35 : BitVec 32 := Scalar.extui v34
  let c0_i32_17 : BitVec 32 := 0#32
  let v36 : BitVec 1 := Scalar.cmpi .ne v35 c0_i32_17
  v36

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S400x64 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x64 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S400x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  shapeCasts_S256_S1x256 : S256.ShapeCasts S1x256
  shapeCasts_S64_S1x64 : S64.ShapeCasts S1x64
  inb_S2000x256_S2000x256_0_0 : ∀ a, (![0, 0] : Fin 2 → Nat) a + S2000x256.size a ≤ S2000x256.size a
  h_S2000x256 : 0 < S2000x256.numel
  inb_S256x256_S256x256_0_0 : ∀ a, (![0, 0] : Fin 2 → Nat) a + S256x256.size a ≤ S256x256.size a
  h_S256x256 : 0 < S256x256.numel
  bitsLt_bf16_f32 : FTy.bits .bf16 < FTy.bits .f32
  packedbf16_S2000x256_S2000x256_0_0 : (Rect.unit (s := S2000x256) ![0, 0] S2000x256.size inb_S2000x256_S2000x256_0_0).PackedRows (EltTy.packing .bf16)
  reduces_S2000x256_S256 : S2000x256.Reduces [0] S256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S400x10000_S400x10000_0_0 : ∀ a, (![0, 0] : Fin 2 → Nat) a + S400x10000.size a ≤ S400x10000.size a
  h_S400x10000 : 0 < S400x10000.numel
  inb_S10000x256_S10000x256_0_0 : ∀ a, (![0, 0] : Fin 2 → Nat) a + S10000x256.size a ≤ S10000x256.size a
  h_S10000x256 : 0 < S10000x256.numel
  shapeCasts_S10000x256_S10000x256 : S10000x256.ShapeCasts S10000x256
  broadcasts_S1x256_S400x256 : S1x256.Broadcasts S400x256
  inb_S256x64_S256x64_0_0 : ∀ a, (![0, 0] : Fin 2 → Nat) a + S256x64.size a ≤ S256x64.size a
  h_S256x64 : 0 < S256x64.numel
  inb_S400x64_S400x64_0_0 : ∀ a, (![0, 0] : Fin 2 → Nat) a + S400x64.size a ≤ S400x64.size a
  h_S400x64 : 0 < S400x64.numel
  packedbf16_S400x64_S400x64_0_0 : (Rect.unit (s := S400x64) ![0, 0] S400x64.size inb_S400x64_S400x64_0_0).PackedRows (EltTy.packing .bf16)
  reduces_S400x64_S64 : S400x64.Reduces [0] S64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  broadcasts_S1x64_S400x64 : S1x64.Broadcasts S400x64
  dot_S2000x256_S256x256_S2000x256_1_0_0_1_n_n_wf : DotDims.WF S2000x256 S256x256 S2000x256 [1] [0] [0] [1] [] []
  dot_S400x10000_S10000x256_S400x256_1_0_0_1_n_n_wf : DotDims.WF S400x10000 S10000x256 S400x256 [1] [0] [0] [1] [] []
  dot_S400x256_S256x64_S400x64_1_0_0_1_n_n_wf : DotDims.WF S400x256 S256x64 S400x64 [1] [0] [0] [1] [] []
  dot_S400x10000_S10000x64_S400x64_1_0_0_1_n_n_wf : DotDims.WF S400x10000 S10000x64 S400x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S10000x256.size a
  hwx0_0 : ∀ i : grid0.Coords, EltTy.bits .f32 = 32 ∨ (Rect.block (s := S10000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x256.size a ≤ S10000x256.size a
  hwx0_3 : ∀ i : grid0.Coords, EltTy.bits .bf16 = 32 ∨ (Rect.block (s := S10000x256) S2000x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x256.size a ≤ S10000x256.size a
  hwx1_1 : ∀ i : grid1.Coords, EltTy.bits .bf16 = 32 ∨ (Rect.block (s := S10000x256) S10000x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x64.size a ≤ S256x64.size a
  hwx1_3 : ∀ i : grid1.Coords, EltTy.bits .f32 = 32 ∨ (Rect.block (s := S256x64) S256x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S400x64.size a ≤ S10000x64.size a
  hwx1_4 : ∀ i : grid1.Coords, EltTy.bits .bf16 = 32 ∨ (Rect.block (s := S10000x64) S400x64.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x10000.size a ≤ S10000x10000.size a
  hwx2_0 : ∀ i : grid2.Coords, EltTy.bits .f32 = 32 ∨ (Rect.block (s := S10000x10000) S400x10000.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S10000x64.size a
  hwx2_1 : ∀ i : grid2.Coords, EltTy.bits .bf16 = 32 ∨ (Rect.block (s := S10000x64) S10000x64.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S400x64.size a ≤ S10000x64.size a
  hwx2_4 : ∀ i : grid2.Coords, EltTy.bits .f32 = 32 ∨ (Rect.block (s := S10000x64) S400x64.size (cc2_transform_4 i) (hinb2_4 i)).WholeWords (EltTy.packing .f32)

variable [Facts₀]

def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S400x10000_S10000x256_S400x256_1_0_0_1_n_n : DotDims S400x10000 S10000x256 S400x256 where
  lhsContracting := [1]
  rhsContracting := [0]
  lhsNonContracting := [0]
  rhsNonContracting := [1]
  lhsBatch := []
  rhsBatch := []
  wf := dot_S400x10000_S10000x256_S400x256_1_0_0_1_n_n_wf
def dot_S400x256_S256x64_S400x64_1_0_0_1_n_n : DotDims S400x256 S256x64 S400x64 where
  lhsContracting := [1]
  rhsContracting := [0]
  lhsNonContracting := [0]
  rhsNonContracting := [1]
  lhsBatch := []
  rhsBatch := []
  wf := dot_S400x256_S256x64_S400x64_1_0_0_1_n_n_wf
def dot_S400x10000_S10000x64_S400x64_1_0_0_1_n_n : DotDims S400x10000 S10000x64 S400x64 where
  lhsContracting := [1]
  rhsContracting := [0]
  lhsNonContracting := [0]
  rhsNonContracting := [1]
  lhsBatch := []
  rhsBatch := []
  wf := dot_S400x10000_S10000x64_S400x64_1_0_0_1_n_n_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2_0) S2000x256.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_1) S1x256.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond1 i == 1#1) && !(k0_cond2 i == 1#1) | ⟨_ + 5, h⟩ => absurd h (Nat.not_lt.2 (Nat.le_add_left _ _))

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2_0) S10000x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2_1) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S256x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3_0) S400x64.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v3_1) S1x64.size cc1_transform_5 reads1_5 true true 1 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond1 i == 1#1) && !(k1_cond2 i == 1#1) | ⟨_ + 6, h⟩ => absurd h (Nat.not_lt.2 (Nat.le_add_left _ _))

abbrev win2_0 : Pipeline.Window sig grid2 :=
  Pipeline.Window.ofSpec (Memref.whole main_arg1) S400x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3_0) S10000x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v3_1) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v1) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v4) S400x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S10000x256 : Shape := ⟨2, ![10000, 256]⟩
abbrev S10000x10000 : Shape := ⟨2, ![10000, 10000]⟩
abbrev S256x256 : Shape := ⟨2, ![256, 256]⟩
abbrev S256 : Shape := ⟨1, ![256]⟩
abbrev S256x64 : Shape := ⟨2, ![256, 64]⟩
abbrev S64 : Shape := ⟨1, ![64]⟩
abbrev S1x256 : Shape := ⟨2, ![1, 256]⟩
abbrev S_ : Shape := ⟨0, ![]⟩
abbrev S10000x64 : Shape := ⟨2, ![10000, 64]⟩
abbrev S1x64 : Shape := ⟨2, ![1, 64]⟩

abbrev nBuf : Space → Nat
  | .hbm => 27
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S256x256, .f32⟩
  | .hbm, ⟨3, _⟩ => ⟨S256, .f32⟩
  | .hbm, ⟨4, _⟩ => ⟨S256x64, .f32⟩
  | .hbm, ⟨5, _⟩ => ⟨S64, .f32⟩
  | .hbm, ⟨6, _⟩ => ⟨S10000x256, .f32⟩
  | .hbm, ⟨7, _⟩ => ⟨S10000x256, .f32⟩
  | .hbm, ⟨8, _⟩ => ⟨S1x256, .f32⟩
  | .hbm, ⟨9, _⟩ => ⟨S10000x256, .f32⟩
  | .hbm, ⟨10, _⟩ => ⟨S10000x256, .f32⟩
  | .hbm, ⟨11, _⟩ => ⟨S_, .f32⟩
  | .hbm, ⟨12, _⟩ => ⟨S10000x256, .f32⟩
  | .hbm, ⟨13, _⟩ => ⟨S10000x256, .f32⟩
  | .hbm, ⟨14, _⟩ => ⟨S10000x64, .f32⟩
  | .hbm, ⟨15, _⟩ => ⟨S10000x64, .f32⟩
  | .hbm, ⟨16, _⟩ => ⟨S1x64, .f32⟩
  | .hbm, ⟨17, _⟩ => ⟨S10000x64, .f32⟩
  | .hbm, ⟨18, _⟩ => ⟨S10000x64, .f32⟩
  | .hbm, ⟨19, _⟩ => ⟨S10000x64, .f32⟩
  | .hbm, ⟨20, _⟩ => ⟨S10000x64, .f32⟩
  | .hbm, ⟨21, _⟩ => ⟨S_, .f32⟩
  | .hbm, ⟨22, _⟩ => ⟨S10000x64, .f32⟩
  | .hbm, ⟨23, _⟩ => ⟨S10000x64, .f32⟩
  | .hbm, ⟨24, _⟩ => ⟨S_, .f32⟩
  | .hbm, ⟨25, _⟩ => ⟨S10000x64, .f32⟩
  | .hbm, ⟨26, _⟩ => ⟨S10000x64, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  bcast_S_S10000x256 : S_.BroadcastsInDim S10000x256 (![] : Fin 0 → Fin S10000x256.rank)
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  bcast_S_S10000x64 : S_.BroadcastsInDim S10000x64 (![] : Fin 0 → Fin S10000x64.rank)
  dot_S10000x256_S256x256_S10000x256_1_0_0_1_n_n_wf : DotDims.WF S10000x256 S256x256 S10000x256 [1] [0] [0] [1] [] []
  dot_S10000x10000_S10000x256_S10000x256_1_0_0_1_n_n_wf : DotDims.WF S10000x10000 S10000x256 S10000x256 [1] [0] [0] [1] [] []
  dot_S10000x256_S256x64_S10000x64_1_0_0_1_n_n_wf : DotDims.WF S10000x256 S256x64 S10000x64 [1] [0] [0] [1] [] []
  dot_S10000x10000_S10000x64_S10000x64_1_0_0_1_n_n_wf : DotDims.WF S10000x10000 S10000x64 S10000x64 [1] [0] [0] [1] [] []

variable [Facts₀]

def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def dot_S10000x10000_S10000x256_S10000x256_1_0_0_1_n_n : DotDims S10000x10000 S10000x256 S10000x256 where
  lhsContracting := [1]
  rhsContracting := [0]
  lhsNonContracting := [0]
  rhsNonContracting := [1]
  lhsBatch := []
  rhsBatch := []
  wf := dot_S10000x10000_S10000x256_S10000x256_1_0_0_1_n_n_wf
def dot_S10000x256_S256x64_S10000x64_1_0_0_1_n_n : DotDims S10000x256 S256x64 S10000x64 where
  lhsContracting := [1]
  rhsContracting := [0]
  lhsNonContracting := [0]
  rhsNonContracting := [1]
  lhsBatch := []
  rhsBatch := []
  wf := dot_S10000x256_S256x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf

class Facts : Prop extends Facts₀ where

variable [Facts]
-- ==== Proof.KFrameR0.lean ====
/-
  (This module is about the program as printed, word level; its idealized twin has the same text under its own name.)
  The first call of the program: for each block of 2000 rows of the features, the block times the first weight
  matrix (taken as three products), stored as a block of the result; and half of that block's column sums, added
  into one 256-entry row that stays in its buffer from point to point and is written back after the last.

  At the first point the row is set to the half column sums plus the bias row; at every later point the half
  column sums are added to what the point before left. So the row's buffer after point `n` is defined by
  recursion on `n` (`acc0`). Here: what the two outputs' staging buffers hold after the body in each of the two
  cases, the body's run in each case on any whole staging buffers, the call's proof data at the buffers' contents
  `V` on entry, and the obligation the launch asks of the body at every grid point.
-/
import proofs.«173031_g128849019522_cont_9to1_m_876_7_alg».proof.Proof.Gen.Kernel.Launch
import proofs.«173031_g128849019522_cont_9to1_m_876_7_alg».proof.Proof.Gen.Kernel.Skeleton
import proofs.«173031_g128849019522_cont_9to1_m_876_7_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the body is handed -/

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## Which case a point is in -/

/-- The first branch (set the row) is taken at the first point only. -/
theorem hc1_0 : ∀ t : Fin cfg0.N, k0_cond1 (grid0.coords t) = 1#1 ↔ t.val = 0 :=
  (by decide +kernel : ∀ t : Fin grid0.N, k0_cond1 (grid0.coords t) = 1#1 ↔ t.val = 0)
/-- The second branch (add to the row) is taken at every later point. -/
theorem hc2_0 : ∀ t : Fin cfg0.N, k0_cond2 (grid0.coords t) = 1#1 ↔ t.val ≠ 0 :=
  (by decide +kernel : ∀ t : Fin grid0.N, k0_cond2 (grid0.coords t) = 1#1 ↔ t.val ≠ 0)
/-- One of the two is taken at every point: the row's window is idle nowhere. -/
theorem live0_4 : ∀ i : grid0.Coords, cfg0.idle 4 i = false := by decide +kernel

/-! ## The body's accesses: every load and store takes a whole buffer -/

abbrev rX0 : Rect S2000x256 := Rect.unit (s := S2000x256) ![0, 0] S2000x256.size Facts₀.inb_S2000x256_S2000x256_0_0
abbrev rW0 : Rect S256x256 := Rect.unit (s := S256x256) ![0, 0] S256x256.size Facts₀.inb_S256x256_S256x256_0_0
abbrev rRow0 : Rect S1x256 := Rect.unit (s := S1x256) ![0, 0] S1x256.size Facts₀.inb_S1x256_S1x256_0_0

/-- The product block's staging buffer after the body, from the staged features block and weight. -/
def out0_s (x0 : Vec F S2000x256 .f32) (x1 : Vec F S256x256 .f32) : Vec F S2000x256 .bf16 :=
  View.canon [⟨rX0, k0_pay2 (View.ld x0 rX0) (View.ld x1 rW0)⟩]
/-- The row's staging buffer after the body at the first point: half column sums plus the bias row. -/
def out0_cA (x0 : Vec F S2000x256 .f32) (x1 : Vec F S256x256 .f32) (x2 : Vec F S1x256 .f32) : Vec F S1x256 .f32 :=
  View.canon [⟨rRow0, k0_pay4 (View.ld x0 rX0) (View.ld x1 rW0) (View.ld x2 rRow0)⟩]
/-- The row's staging buffer after the body at a later point, over what it held (`xo`): that plus half column sums. -/
def out0_cB (x0 : Vec F S2000x256 .f32) (x1 : Vec F S256x256 .f32) (xo : Vec F S1x256 .f32) : Vec F S1x256 .f32 :=
  View.canon [⟨rRow0, k0_pay5 (View.ld x0 rX0) (View.ld x1 rW0) (View.ld xo rRow0)⟩]

theorem cover0_s (p0 : Vec F S2000x256 .bf16) (y : S2000x256.Idx) :
    ∃ pc ∈ ([⟨rX0, p0⟩] : List (View.Piece (Elt F) S2000x256 .bf16)), y ∈ pc.1.set :=
  View.cover_of_tiled [⟨rX0, p0⟩] S2000x256.size (by rfl) y
theorem cover0_c (p0 : Vec F S1x256 .f32) (y : S1x256.Idx) :
    ∃ pc ∈ ([⟨rRow0, p0⟩] : List (View.Piece (Elt F) S1x256 .f32)), y ∈ pc.1.set :=
  View.cover_of_tiled [⟨rRow0, p0⟩] S1x256.size (by rfl) y

set_option maxHeartbeats 1000000 in
/-- The body at the first point, on whole staging buffers — the inputs' at `x0 x1 x2`, the outputs' at anything. -/
theorem sound_kernel0A (c : Dev nD) (E : Set ℕ) (i : grid0.Coords) (hc1 : k0_cond1 i = 1#1) (hc2 : ¬ k0_cond2 i = 1#1)
    (a1 : Memref sig .tc .vmem S2000x256 .f32) (h1 : a1.IsWhole) (a2 : Memref sig .tc .vmem S256x256 .f32) (h2 : a2.IsWhole)
    (a3 : Memref sig .tc .vmem S1x256 .f32) (h3 : a3.IsWhole) (a4 : Memref sig .tc .vmem S2000x256 .bf16) (h4 : a4.IsWhole)
    (a5 : Memref sig .tc .vmem S1x256 .f32) (h5 : a5.IsWhole)
    (x0 : Vec F S2000x256 .f32) (x1 : Vec F S256x256 .f32) (x2 : Vec F S1x256 .f32) (K : PUnit → sProp 𝕄) :
    iprop(owns (c : Thread nD τ) a1 fullShare x0 ∗ owns (c : Thread nD τ) a2 fullShare x1 ∗ owns (c : Thread nD τ) a3 fullShare x2
        ∗ (∃ d, owns (c : Thread nD τ) a4 fullShare d) ∗ (∃ d, owns (c : Thread nD τ) a5 fullShare d)
        ∗ (iprop(owns (c : Thread nD τ) a1 fullShare x0 ∗ owns (c : Thread nD τ) a2 fullShare x1 ∗ owns (c : Thread nD τ) a3 fullShare x2
            ∗ owns (c : Thread nD τ) a4 fullShare (out0_s x0 x1) ∗ owns (c : Thread nD τ) a5 fullShare (out0_cA x0 x1 x2)) -∗ K ⟨⟩))
      ⊢ wp frame (wpE (defs₀ (F := F)) Variants.none c none) E (cc0__support_body i a1 h1 a2 h2 a3 h3 a4 h4 a5 h5) K := by
  simp only [cc0__support_body_eq_skeleton]; unfold cc0__support_body_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_s _)
  iexists _; isplitr
  swap; · iexact H4
  ipureintro
  exact View.read_writes_eq_canon _ _ _ (cover0_c _)

set_option maxHeartbeats 1000000 in
/-- The body at a later point, the row's buffer at `xo`. The bias row's buffer is held and not read. -/
theorem sound_kernel0B (c : Dev nD) (E : Set ℕ) (i : grid0.Coords) (hc1 : ¬ k0_cond1 i = 1#1) (hc2 : k0_cond2 i = 1#1)
    (a1 : Memref sig .tc .vmem S2000x256 .f32) (h1 : a1.IsWhole) (a2 : Memref sig .tc .vmem S256x256 .f32) (h2 : a2.IsWhole)
    (a3 : Memref sig .tc .vmem S1x256 .f32) (h3 : a3.IsWhole) (a4 : Memref sig .tc .vmem S2000x256 .bf16) (h4 : a4.IsWhole)
    (a5 : Memref sig .tc .vmem S1x256 .f32) (h5 : a5.IsWhole)
    (x0 : Vec F S2000x256 .f32) (x1 : Vec F S256x256 .f32) (x2 : Vec F S1x256 .f32) (xo : Vec F S1x256 .f32) (K : PUnit → sProp 𝕄) :
    iprop(owns (c : Thread nD τ) a1 fullShare x0 ∗ owns (c : Thread nD τ) a2 fullShare x1 ∗ owns (c : Thread nD τ) a3 fullShare x2
        ∗ (∃ d, owns (c : Thread nD τ) a4 fullShare d) ∗ owns (c : Thread nD τ) a5 fullShare xo
        ∗ (iprop(owns (c : Thread nD τ) a1 fullShare x0 ∗ owns (c : Thread nD τ) a2 fullShare x1 ∗ owns (c : Thread nD τ) a3 fullShare x2
            ∗ owns (c : Thread nD τ) a4 fullShare (out0_s x0 x1) ∗ owns (c : Thread nD τ) a5 fullShare (out0_cB x0 x1 xo)) -∗ K ⟨⟩))
      ⊢ wp frame (wpE (defs₀ (F := F)) Variants.none c none) E (cc0__support_body i a1 h1 a2 h2 a3 h3 a4 h4 a5 h5) K := by
  simp only [cc0__support_body_eq_skeleton]; unfold cc0__support_body_skel
  unfold owns
  iintro ⟨⟨%f0, %hf0, H0⟩, ⟨%f1, %hf1, H1⟩, H2, ⟨%d3, %f3, -, H3⟩, ⟨%f4, %hf4, H4⟩, Hk⟩
  subst hf0; subst hf1; subst hf4
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]; · iexact H2
  isplitl [H3]
  · iexists _; isplitr
    swap; · iexact H3
    ipureintro
    exact View.read_writes_eq_canon _ _ _ (cover0_s _)
  iexists _; isplitr
  swap; · iexact H4
  ipureintro
  exact View.read_writes_eq_canon _ _ _ (cover0_c _)

/-! ## An input's staging buffer holds its block at every point, fetched there or not -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The row's buffer after each point -/

/-- THE ACCUMULATION: what the row's staging buffer holds after the body at position `n` — at the first point the
    first case's contents, at a later one the second case's over what the point before left (the buffer is not
    written back between). -/
def acc0 (c : Dev nD) : (n : ℕ) → n < cfg0.N → Vec F S1x256 .f32
  | 0, hn => out0_cA (iblk0 V c 0 ⟨0, hn⟩) (iblk0 V c 1 ⟨0, hn⟩) (iblk0 V c 2 ⟨0, hn⟩)
  | n + 1, hn => out0_cB (iblk0 V c 0 ⟨n + 1, hn⟩) (iblk0 V c 1 ⟨n + 1, hn⟩) (acc0 c n (Nat.lt_of_succ_lt hn))

theorem acc0_first (c : Dev nD) (t : Fin cfg0.N) (h0 : t.val = 0) :
    acc0 V c t.val t.isLt = out0_cA (iblk0 V c 0 t) (iblk0 V c 1 t) (iblk0 V c 2 t) := by
  obtain ⟨n, hn⟩ := t
  cases n with
  | zero => rfl
  | succ n => exact absurd h0 (Nat.succ_ne_zero n)

theorem acc0_later (c : Dev nD) (t : Fin cfg0.N) (h0 : t.val ≠ 0) :
    acc0 V c t.val t.isLt = out0_cB (iblk0 V c 0 t) (iblk0 V c 1 t) (acc0 V c (t.val - 1) (Nat.lt_of_le_of_lt (Nat.sub_le _ _) t.isLt)) := by
  obtain ⟨n, hn⟩ := t
  cases n with
  | zero => exact absurd rfl h0
  | succ n => rfl

/-! ## The call's proof data -/

/-- The arrays as the call finds them; after the body at point `t` each input's buffer at its block, the product
    block's at `out0_s` of the blocks and the row's at `acc0`; the invariant is the scoped buffers no window stages
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_s (iblk0 V c 0 t) (iblk0 V c 1 t)
    | ⟨4, _⟩ => acc0 V c t.val t.isLt
  Φ _ := Pipeline.ΦA spec0 c
  q _ := fullShare
  owed _ := 0

theorem A_eq0 (c : Dev nD) (w : Fin cfg0.W) : (dat0 V c).A w = V c (Pipeline.arrRef spec0 w) := by dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_s (iblk0 V c 0 t) (iblk0 V c 1 t) := by dsimp only [dat0]
theorem after0_4 (c : Dev nD) (t : Fin cfg0.N) : (dat0 V c).after 4 t = acc0 V c t.val t.isLt := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- At a later point the row's staging buffer holds what the body left at the point before: the buffer is written
    back after the last point only, and the window is idle nowhere. -/
theorem before0_4_later (c : Dev nD) (t : Fin cfg0.N) (h0 : t.val ≠ 0) (d) :
    (dat0 V c).before 4 t d = acc0 V c (t.val - 1) (Nat.lt_of_le_of_lt (Nat.sub_le _ _) t.isLt) := by
  have hN : t.val < 5 := lt_of_lt_of_eq t.isLt (show cfg0.N = 5 from N_0)
  rw [Dat.before_out_kept _ 4 rfl t h0 (Bool.eq_false_iff.mpr fun h => by have := (flush0_4 _).mp h; dsimp only at this; omega)
    live0_4 (fun _ _ => rfl)]
  dsimp only [dat0]

/-! ## The obligation at a grid point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ (match cfg0.idle 4 (cfg0.grid.coords t) with
        | true =>
          match (cfg0.win 4).flush t with
          | false => iprop(∃ d, owns (c : Thread nD τ) (st0_4 t) fullShare ((dat0 V c).before 4 t d))
          | true => owns (c : Thread nD τ) (st0_4 t) fullShare ((dat0 V c).after 4 t)
        | false => owns (c : Thread nD τ) (st0_4 t) fullShare ((dat0 V c).after 4 t)))

set_option maxHeartbeats 800000 in
/-- At any point the inputs' buffers hold their blocks; the point is the first or a later one, and at a later one
    the row's buffer holds what the point before left; so that case's run applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0
  rw [show cfg0.idle 4 (cfg0.grid.coords t) = false from live0_4 _]
  dsimp only
  unfold bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  by_cases h0 : t.val = 0
  · rw [acc0_first V c t h0]
    iintro ⟨HΦ, Ho, ⟨%d0, H0⟩, ⟨%d1, H1⟩, ⟨%d2, H2⟩, ⟨%d3, H3⟩, ⟨%d4, H4⟩⟩
    iapply (sound_kernel0A c Set.univ (grid0.coords t) ((hc1_0 t).mpr h0) (fun h => ((hc2_0 t).mp h) h0)
      _ _ _ _ _ _ _ _ _ _ (iblk0 V c 0 t) (iblk0 V c 1 t) (iblk0 V c 2 t) _)
    isplitl [H0]; · iexact H0
    isplitl [H1]; · iexact H1
    isplitl [H2]; · iexact H2
    isplitl [H3]; · iexists _; iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · rw [acc0_later V c t h0]
    simp only [before0_4_later V c t h0]
    iintro ⟨HΦ, Ho, ⟨%d0, H0⟩, ⟨%d1, H1⟩, ⟨%d2, H2⟩, ⟨%d3, H3⟩, ⟨%d4, H4⟩⟩
    iapply (sound_kernel0B c Set.univ (grid0.coords t) (fun h => h0 ((hc1_0 t).mp h)) ((hc2_0 t).mpr h0)
      _ _ _ _ _ _ _ _ _ _ (iblk0 V c 0 t) (iblk0 V c 1 t) (iblk0 V c 2 t) _ _)
    isplitl [H0]; · iexact H0
    isplitl [H1]; · iexact H1
    isplitl [H2]; · iexact H2
    isplitl [H3]; · iexists _; iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

/-- The obligation the launch asks of the body, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KFrameR1.lean ====
/-
  (This module is about the program as printed, word level; its idealized twin has the same text under its own name.)
  The second call of the program: for each block of 400 rows of the adjacency, the centred block times the first
  layer's product plus the correction row, rectified, times the second weight matrix (as three products), stored as
  a block of the result; and that block's column sums, added into one 64-entry row that stays in its buffer from
  point to point and is written back after the last.

  At the first point the row is set to the block's column sums; at every later point they are added to what the
  point before left. So the row's buffer after point `n` is defined by recursion on `n` (`acc1`). Here: what the
  two outputs' staging buffers hold after the body in each of the two cases, the body's run in each case on any
  whole staging buffers, the call's proof data at the buffers' contents `V` on entry, and the obligation the launch
  asks of the body at every grid point.
-/
import proofs.«173031_g128849019522_cont_9to1_m_876_7_alg».proof.Proof.Gen.Kernel.Launch
import proofs.«173031_g128849019522_cont_9to1_m_876_7_alg».proof.Proof.Gen.Kernel.Skeleton
import proofs.«173031_g128849019522_cont_9to1_m_876_7_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the body is handed -/

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## Which case a point is in -/

/-- The first branch (set the row) is taken at the first point only. -/
theorem hc1_1 : ∀ t : Fin cfg1.N, k1_cond1 (grid1.coords t) = 1#1 ↔ t.val = 0 :=
  (by decide +kernel : ∀ t : Fin grid1.N, k1_cond1 (grid1.coords t) = 1#1 ↔ t.val = 0)
/-- The second branch (add to the row) is taken at every later point. -/
theorem hc2_1 : ∀ t : Fin cfg1.N, k1_cond2 (grid1.coords t) = 1#1 ↔ t.val ≠ 0 :=
  (by decide +kernel : ∀ t : Fin grid1.N, k1_cond2 (grid1.coords t) = 1#1 ↔ t.val ≠ 0)
/-- One of the two is taken at every point: the row's window is idle nowhere. -/
theorem live1_5 : ∀ i : grid1.Coords, cfg1.idle 5 i = false := by decide +kernel

/-! ## The body's accesses: every load and store takes a whole buffer -/

abbrev rAdj1 : Rect S400x10000 := Rect.unit (s := S400x10000) ![0, 0] S400x10000.size Facts₀.inb_S400x10000_S400x10000_0_0
abbrev rS1 : Rect S10000x256 := Rect.unit (s := S10000x256) ![0, 0] S10000x256.size Facts₀.inb_S10000x256_S10000x256_0_0
abbrev rCorr1 : Rect S1x256 := Rect.unit (s := S1x256) ![0, 0] S1x256.size Facts₀.inb_S1x256_S1x256_0_0
abbrev rW1 : Rect S256x64 := Rect.unit (s := S256x64) ![0, 0] S256x64.size Facts₀.inb_S256x64_S256x64_0_0
abbrev rG1 : Rect S400x64 := Rect.unit (s := S400x64) ![0, 0] S400x64.size Facts₀.inb_S400x64_S400x64_0_0
abbrev rRow1 : Rect S1x64 := Rect.unit (s := S1x64) ![0, 0] S1x64.size Facts₀.inb_S1x64_S1x64_0_0

/-- The product block's staging buffer after the body, from the four staged blocks. -/
def out1_g (x0 : Vec F S400x10000 .f32) (x1 : Vec F S10000x256 .bf16) (x2 : Vec F S1x256 .f32) (x3 : Vec F S256x64 .f32) : Vec F S400x64 .bf16 :=
  View.canon [⟨rG1, k1_pay3 (View.ld x0 rAdj1) (View.ld x1 rS1) (View.ld x2 rCorr1) (View.ld x3 rW1)⟩]
/-- The row's staging buffer after the body at the first point: the block's column sums. -/
def out1_cA (x0 : Vec F S400x10000 .f32) (x1 : Vec F S10000x256 .bf16) (x2 : Vec F S1x256 .f32) (x3 : Vec F S256x64 .f32) : Vec F S1x64 .f32 :=
  View.canon [⟨rRow1, k1_pay4 (View.ld x0 rAdj1) (View.ld x1 rS1) (View.ld x2 rCorr1) (View.ld x3 rW1)⟩]
/-- The row's staging buffer after the body at a later point, over what it held (`xo`): that plus the column sums. -/
def out1_cB (x0 : Vec F S400x10000 .f32) (x1 : Vec F S10000x256 .bf16) (x2 : Vec F S1x256 .f32) (x3 : Vec F S256x64 .f32) (xo : Vec F S1x64 .f32) : Vec F S1x64 .f32 :=
  View.canon [⟨rRow1, k1_pay1 (k1_pay4 (View.ld x0 rAdj1) (View.ld x1 rS1) (View.ld x2 rCorr1) (View.ld x3 rW1)) (View.ld xo rRow1)⟩]

theorem cover1_g (p0 : Vec F S400x64 .bf16) (y : S400x64.Idx) :
    ∃ pc ∈ ([⟨rG1, p0⟩] : List (View.Piece (Elt F) S400x64 .bf16)), y ∈ pc.1.set :=
  View.cover_of_tiled [⟨rG1, p0⟩] S400x64.size (by rfl) y
theorem cover1_c (p0 : Vec F S1x64 .f32) (y : S1x64.Idx) :
    ∃ pc ∈ ([⟨rRow1, p0⟩] : List (View.Piece (Elt F) S1x64 .f32)), y ∈ pc.1.set :=
  View.cover_of_tiled [⟨rRow1, p0⟩] S1x64.size (by rfl) y

set_option maxHeartbeats 1000000 in
/-- The body at the first point, on whole staging buffers — the inputs' at `x0 … x3`, the outputs' at anything. -/
theorem sound_kernel1A (c : Dev nD) (E : Set ℕ) (i : grid1.Coords) (hc1 : k1_cond1 i = 1#1) (hc2 : ¬ k1_cond2 i = 1#1)
    (a1 : Memref sig .tc .vmem S400x10000 .f32) (h1 : a1.IsWhole) (a2 : Memref sig .tc .vmem S10000x256 .bf16) (h2 : a2.IsWhole)
    (a3 : Memref sig .tc .vmem S1x256 .f32) (h3 : a3.IsWhole) (a4 : Memref sig .tc .vmem S256x64 .f32) (h4 : a4.IsWhole)
    (a5 : Memref sig .tc .vmem S400x64 .bf16) (h5 : a5.IsWhole) (a6 : Memref sig .tc .vmem S1x64 .f32) (h6 : a6.IsWhole)
    (x0 : Vec F S400x10000 .f32) (x1 : Vec F S10000x256 .bf16) (x2 : Vec F S1x256 .f32) (x3 : Vec F S256x64 .f32) (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ (∃ d, owns (c : Thread nD τ) a5 fullShare d) ∗ (∃ d, owns (c : Thread nD τ) a6 fullShare d)
        ∗ (iprop(owns (c : Thread nD τ) a1 fullShare x0 ∗ owns (c : Thread nD τ) a2 fullShare x1 ∗ owns (c : Thread nD τ) a3 fullShare x2
            ∗ owns (c : Thread nD τ) a4 fullShare x3 ∗ owns (c : Thread nD τ) a5 fullShare (out1_g x0 x1 x2 x3)
            ∗ owns (c : Thread nD τ) a6 fullShare (out1_cA x0 x1 x2 x3)) -∗ K ⟨⟩))
      ⊢ wp frame (wpE (defs₀ (F := F)) Variants.none c none) E (cc1__layer1_body i a1 h1 a2 h2 a3 h3 a4 h4 a5 h5 a6 h6) K := by
  simp only [cc1__layer1_body_eq_skeleton]; unfold cc1__layer1_body_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0; subst hf1; subst hf2; subst hf3
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover1_g _)
  iexists _; isplitr
  swap; · iexact H5
  ipureintro
  exact View.read_writes_eq_canon _ _ _ (cover1_c _)

set_option maxHeartbeats 1000000 in
/-- The body at a later point, the row's buffer at `xo`. -/
theorem sound_kernel1B (c : Dev nD) (E : Set ℕ) (i : grid1.Coords) (hc1 : ¬ k1_cond1 i = 1#1) (hc2 : k1_cond2 i = 1#1)
    (a1 : Memref sig .tc .vmem S400x10000 .f32) (h1 : a1.IsWhole) (a2 : Memref sig .tc .vmem S10000x256 .bf16) (h2 : a2.IsWhole)
    (a3 : Memref sig .tc .vmem S1x256 .f32) (h3 : a3.IsWhole) (a4 : Memref sig .tc .vmem S256x64 .f32) (h4 : a4.IsWhole)
    (a5 : Memref sig .tc .vmem S400x64 .bf16) (h5 : a5.IsWhole) (a6 : Memref sig .tc .vmem S1x64 .f32) (h6 : a6.IsWhole)
    (x0 : Vec F S400x10000 .f32) (x1 : Vec F S10000x256 .bf16) (x2 : Vec F S1x256 .f32) (x3 : Vec F S256x64 .f32) (xo : Vec F S1x64 .f32) (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ (∃ d, owns (c : Thread nD τ) a5 fullShare d) ∗ owns (c : Thread nD τ) a6 fullShare xo
        ∗ (iprop(owns (c : Thread nD τ) a1 fullShare x0 ∗ owns (c : Thread nD τ) a2 fullShare x1 ∗ owns (c : Thread nD τ) a3 fullShare x2
            ∗ owns (c : Thread nD τ) a4 fullShare x3 ∗ owns (c : Thread nD τ) a5 fullShare (out1_g x0 x1 x2 x3)
            ∗ owns (c : Thread nD τ) a6 fullShare (out1_cB x0 x1 x2 x3 xo)) -∗ K ⟨⟩))
      ⊢ wp frame (wpE (defs₀ (F := F)) Variants.none c none) E (cc1__layer1_body i a1 h1 a2 h2 a3 h3 a4 h4 a5 h5 a6 h6) K := by
  simp only [cc1__layer1_body_eq_skeleton]; unfold cc1__layer1_body_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
  subst hf0; subst hf1; subst hf2; subst hf3; subst hf5
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover1_g _)
  iexists _; isplitr
  swap; · iexact H5
  ipureintro
  exact View.read_writes_eq_canon _ _ _ (cover1_c _)

/-! ## An input's staging buffer holds its block at every point, fetched there or not -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The row's buffer after each point -/

/-- THE ACCUMULATION: what the row's staging buffer holds after the body at position `n` — at the first point the
    first case's contents, at a later one the second case's over what the point before left (the buffer is not
    written back between). -/
def acc1 (c : Dev nD) : (n : ℕ) → n < cfg1.N → Vec F S1x64 .f32
  | 0, hn => out1_cA (iblk1 V c 0 ⟨0, hn⟩) (iblk1 V c 1 ⟨0, hn⟩) (iblk1 V c 2 ⟨0, hn⟩) (iblk1 V c 3 ⟨0, hn⟩)
  | n + 1, hn => out1_cB (iblk1 V c 0 ⟨n + 1, hn⟩) (iblk1 V c 1 ⟨n + 1, hn⟩) (iblk1 V c 2 ⟨n + 1, hn⟩) (iblk1 V c 3 ⟨n + 1, hn⟩)
      (acc1 c n (Nat.lt_of_succ_lt hn))

theorem acc1_first (c : Dev nD) (t : Fin cfg1.N) (h0 : t.val = 0) :
    acc1 V c t.val t.isLt = out1_cA (iblk1 V c 0 t) (iblk1 V c 1 t) (iblk1 V c 2 t) (iblk1 V c 3 t) := by
  obtain ⟨n, hn⟩ := t
  cases n with
  | zero => rfl
  | succ n => exact absurd h0 (Nat.succ_ne_zero n)

theorem acc1_later (c : Dev nD) (t : Fin cfg1.N) (h0 : t.val ≠ 0) :
    acc1 V c t.val t.isLt = out1_cB (iblk1 V c 0 t) (iblk1 V c 1 t) (iblk1 V c 2 t) (iblk1 V c 3 t)
      (acc1 V c (t.val - 1) (Nat.lt_of_le_of_lt (Nat.sub_le _ _) t.isLt)) := by
  obtain ⟨n, hn⟩ := t
  cases n with
  | zero => exact absurd rfl h0
  | succ n => rfl

/-! ## The call's proof data -/

/-- The arrays as the call finds them; after the body at point `t` each input's buffer at its block, the product
    block's at `out1_g` of the blocks and the row's at `acc1`; the invariant is the scoped buffers no window stages
    and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_g (iblk1 V c 0 t) (iblk1 V c 1 t) (iblk1 V c 2 t) (iblk1 V c 3 t)
    | ⟨5, _⟩ => acc1 V c t.val t.isLt
  Φ _ := Pipeline.ΦA spec1 c
  q _ := fullShare
  owed _ := 0

theorem A_eq1 (c : Dev nD) (w : Fin cfg1.W) : (dat1 V c).A w = V c (Pipeline.arrRef spec1 w) := by dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_g (iblk1 V c 0 t) (iblk1 V c 1 t) (iblk1 V c 2 t) (iblk1 V c 3 t) := by dsimp only [dat1]
theorem after1_5 (c : Dev nD) (t : Fin cfg1.N) : (dat1 V c).after 5 t = acc1 V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- At a later point the row's staging buffer holds what the body left at the point before: the buffer is written
    back after the last point only, and the window is idle nowhere. -/
theorem before1_5_later (c : Dev nD) (t : Fin cfg1.N) (h0 : t.val ≠ 0) (d) :
    (dat1 V c).before 5 t d = acc1 V c (t.val - 1) (Nat.lt_of_le_of_lt (Nat.sub_le _ _) t.isLt) := by
  have hN : t.val < 25 := lt_of_lt_of_eq t.isLt (show cfg1.N = 25 from N_1)
  rw [Dat.before_out_kept _ 5 rfl t h0 (Bool.eq_false_iff.mpr fun h => by have := (flush1_5 _).mp h; dsimp only at this; omega)
    live1_5 (fun _ _ => rfl)]
  dsimp only [dat1]

/-! ## The obligation at a grid point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ (match cfg1.idle 5 (cfg1.grid.coords t) with
        | true =>
          match (cfg1.win 5).flush t with
          | false => iprop(∃ d, owns (c : Thread nD τ) (st1_5 t) fullShare ((dat1 V c).before 5 t d))
          | true => owns (c : Thread nD τ) (st1_5 t) fullShare ((dat1 V c).after 5 t)
        | false => owns (c : Thread nD τ) (st1_5 t) fullShare ((dat1 V c).after 5 t)))

set_option maxHeartbeats 800000 in
/-- At any point the inputs' buffers hold their blocks; the point is the first or a later one, and at a later one
    the row's buffer holds what the point before left; so that case's run applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1
  rw [show cfg1.idle 5 (cfg1.grid.coords t) = false from live1_5 _]
  dsimp only
  unfold bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4, after1_5]
  by_cases h0 : t.val = 0
  · rw [acc1_first V c t h0]
    iintro ⟨HΦ, Ho, ⟨%d0, H0⟩, ⟨%d1, H1⟩, ⟨%d2, H2⟩, ⟨%d3, H3⟩, ⟨%d4, H4⟩, ⟨%d5, H5⟩⟩
    iapply (sound_kernel1A c Set.univ (grid1.coords t) ((hc1_1 t).mpr h0) (fun h => ((hc2_1 t).mp h) h0)
      _ _ _ _ _ _ _ _ _ _ _ _ (iblk1 V c 0 t) (iblk1 V c 1 t) (iblk1 V c 2 t) (iblk1 V c 3 t) _)
    isplitl [H0]; · iexact H0
    isplitl [H1]; · iexact H1
    isplitl [H2]; · iexact H2
    isplitl [H3]; · iexact H3
    isplitl [H4]; · iexists _; iexact H4
    isplitl [H5]; · iexists _; iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5
  · rw [acc1_later V c t h0]
    simp only [before1_5_later V c t h0]
    iintro ⟨HΦ, Ho, ⟨%d0, H0⟩, ⟨%d1, H1⟩, ⟨%d2, H2⟩, ⟨%d3, H3⟩, ⟨%d4, H4⟩, ⟨%d5, H5⟩⟩
    iapply (sound_kernel1B c Set.univ (grid1.coords t) (fun h => h0 ((hc1_1 t).mp h)) ((hc2_1 t).mpr h0)
      _ _ _ _ _ _ _ _ _ _ _ _ (iblk1 V c 0 t) (iblk1 V c 1 t) (iblk1 V c 2 t) (iblk1 V c 3 t) _ _)
    isplitl [H0]; · iexact H0
    isplitl [H1]; · iexact H1
    isplitl [H2]; · iexact H2
    isplitl [H3]; · iexact H3
    isplitl [H4]; · iexists _; iexact H4
    isplitl [H5]; · iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5

/-- The obligation the launch asks of the body, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KFrameR2.lean ====
/-
  (This module is about the program as printed, word level; its idealized twin has the same text under its own name.)
  The third call of the program: for each block of 400 rows of the adjacency, the centred block times the
  second layer's product, plus half its column sums, plus the bias, through the logistic function.

  The call has four inputs (the adjacency's block, the whole 10000 × 64 product, its column sums, the bias row)
  and one output block, written whole by one store at every point: nothing is carried from point to point.
  Here: what the output's staging buffer holds after the body as a function of the four staged blocks, the
  body's run on any whole staging buffers, the call's proof data at the buffers' contents `V` on entry, and
  the obligation the launch asks of the body at every grid point.
-/
import proofs.«173031_g128849019522_cont_9to1_m_876_7_alg».proof.Proof.Gen.Kernel.Launch
import proofs.«173031_g128849019522_cont_9to1_m_876_7_alg».proof.Proof.Gen.Kernel.Skeleton
import proofs.«173031_g128849019522_cont_9to1_m_876_7_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the body is handed -/

/-- Window `w`'s block at point `t`, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The body's accesses: every load and the one store take a whole buffer -/

abbrev rAdj2 : Rect S400x10000 := Rect.unit (s := S400x10000) ![0, 0] S400x10000.size Facts₀.inb_S400x10000_S400x10000_0_0
abbrev rG2 : Rect S10000x64 := Rect.unit (s := S10000x64) ![0, 0] S10000x64.size Facts₀.inb_S10000x64_S10000x64_0_0
abbrev rRow2 : Rect S1x64 := Rect.unit (s := S1x64) ![0, 0] S1x64.size Facts₀.inb_S1x64_S1x64_0_0
abbrev rOut2 : Rect S400x64 := Rect.unit (s := S400x64) ![0, 0] S400x64.size Facts₀.inb_S400x64_S400x64_0_0

/-- What the output's staging buffer holds after the body, from the four staged blocks. -/
def out2 (x0 : Vec F S400x10000 .f32) (x1 : Vec F S10000x64 .bf16) (x2 x3 : Vec F S1x64 .f32) : Vec F S400x64 .f32 :=
  View.canon [⟨rOut2, k2_pay1 (View.ld x0 rAdj2) (View.ld x1 rG2) (View.ld x2 rRow2) (View.ld x3 rRow2)⟩]

/-- The one store covers the buffer. -/
theorem cover2 (p0 : Vec F S400x64 .f32) (y : S400x64.Idx) :
    ∃ pc ∈ ([⟨rOut2, p0⟩] : List (View.Piece (Elt F) S400x64 .f32)), y ∈ pc.1.set :=
  View.cover_of_tiled [⟨rOut2, p0⟩] S400x64.size (by rfl) y

set_option maxHeartbeats 1000000 in
/-- The body on whole staging buffers — the inputs' at `x0 … x3`, the output's at anything — runs to its return
    with the inputs' as they were and the output's at `out2` of them. -/
theorem sound_kernel2 (c : Dev nD) (E : Set ℕ) (i : grid2.Coords)
    (a1 : Memref sig .tc .vmem S400x10000 .f32) (h1 : a1.IsWhole) (a2 : Memref sig .tc .vmem S10000x64 .bf16) (h2 : a2.IsWhole)
    (a3 : Memref sig .tc .vmem S1x64 .f32) (h3 : a3.IsWhole) (a4 : Memref sig .tc .vmem S1x64 .f32) (h4 : a4.IsWhole)
    (a5 : Memref sig .tc .vmem S400x64 .f32) (h5 : a5.IsWhole)
    (x0 : Vec F S400x10000 .f32) (x1 : Vec F S10000x64 .bf16) (x2 x3 : Vec F S1x64 .f32) (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ (∃ d, owns (c : Thread nD τ) a5 fullShare d)
        ∗ (iprop(owns (c : Thread nD τ) a1 fullShare x0 ∗ owns (c : Thread nD τ) a2 fullShare x1 ∗ owns (c : Thread nD τ) a3 fullShare x2
            ∗ owns (c : Thread nD τ) a4 fullShare x3 ∗ owns (c : Thread nD τ) a5 fullShare (out2 x0 x1 x2 x3)) -∗ K ⟨⟩))
      ⊢ wp frame (wpE (defs₀ (F := F)) Variants.none c none) E (cc2__layer2_body i a1 h1 a2 h2 a3 h3 a4 h4 a5 h5) K := by
  simp only [cc2__layer2_body_eq_skeleton]; unfold cc2__layer2_body_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2 _)

/-! ## An input's staging buffer holds its block at every point, fetched there or not -/

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The call's proof data -/

/-- The arrays as the call finds them; after the body at point `t` each input's buffer at its block and the
    output's at `out2` of the four blocks; the invariant is the scoped buffers no window stages and the generator
    register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) :
    (dat2 V c).after 4 t = out2 (iblk2 V c 0 t) (iblk2 V c 1 t) (iblk2 V c 2 t) (iblk2 V c 3 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The obligation at a grid point -/

/-- What the body is called with at point `t`: the invariant, the core's dues, each window's current staging
    buffer at what it holds there. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- What it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- At any point the inputs' buffers hold their blocks, so the body's run applies; the invariant and the dues pass
    through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The obligation the launch asks of the body, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KRun.lean ====
/-
  (This module is about the program as printed, word level; its idealized twin has the same text under its own name.)
  The whole program's run: a stretch of two host reshapes (the two bias vectors as one-row arrays), then the three
  calls in order, each reading what the one before wrote.

  The contents of every buffer outside the calls' scratch space are followed from the launch through the four
  items: after the host stretch, then after each call its output arrays at what its write-backs leave and every
  other buffer unchanged. Each call is entered from the thread state "every such buffer at the boundary's contents,
  the generator register at some state, nothing owed" and left at the next boundary's. One launch of the four
  items then says: every fair execution terminates, faults nowhere, and ends with every such buffer at the last
  boundary's contents. From that both the frame (no argument array changes: no host operation and no call writes
  one) and the result array's final contents are read off.
-/
import proofs.«173031_g128849019522_cont_9to1_m_876_7_alg».proof.Proof.KFrameR0
import proofs.«173031_g128849019522_cont_9to1_m_876_7_alg».proof.Proof.KFrameR1
import proofs.«173031_g128849019522_cont_9to1_m_876_7_alg».proof.Proof.KFrameR2
import proofs.«173031_g128849019522_cont_9to1_m_876_7_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c => Gen.V0 m c
/-- After the host stretch (the first call's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b

/-- After call 0: its arrays at what the write-backs leave, every other buffer as before it. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the references. -/
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After call 1: its arrays at what the write-backs leave, every other buffer as before it. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
/-- The same read at the references. -/
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- After call 2: its arrays at what the write-backs leave, every other buffer as before it. -/
def W4 (c : Dev nD) : Valuation τ sig (Elt F) :=
  Pipeline.withArrays spec2 c (W3 m c) fun w => (dat2 (V3 m) c).arrAt w cfg2.N
theorem W4_arr (c : Dev nD) (w : Fin cfg2.W) :
    W4 m c (Proc.devRef .tc (Pipeline.arrRef spec2 w)) = (dat2 (V3 m) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m c (Proc.devRef .tc b) = W3 m c (Proc.devRef .tc b) := by
  unfold W4; exact Pipeline.withArrays_of_ne spec2 c _ _ b hb
/-- The same read at the references. -/
abbrev V4 : (c : Dev nD) → (b : Ref sig .tc) → Buf (Elt F) ((c : Thread nD τ).loc b) := fun c b => W4 m c b
theorem hF2 (c : Dev nD) (w : Fin cfg2.W) : (dat2 (V3 m) c).arrAt w cfg2.N = V4 m c (Pipeline.arrRef spec2 w) :=
  (W4_arr m c w).symm
theorem hrest2 (c : Dev nD) : ∀ b, b ∉ Finset.univ.image (Pipeline.arrRef spec2) → V4 m c b = V3 m c b :=
  fun b hb => W4_of_ne m c b fun w e => hb (Finset.mem_image.mpr ⟨w, Finset.mem_univ _, e⟩)

/-! ## The arguments end as launched -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := W3_of_ne m c main_arg0 (by decide)
    _ = W1 m c (Proc.devRef .tc main_arg0) := (W2_arr m c 0).trans (((dat0 (V1 m) c).arrAt_in 0 rfl _).trans (A_eq0 (V1 m) c 0))
    _ = m ((c : Thread nD τ).loc main_arg0) := Gen.V1_of m c main_arg0 (by decide)

theorem W4_main_arg1 (c : Dev nD) : W4 m c (Proc.devRef .tc main_arg1) = m ((c : Thread nD τ).loc main_arg1) :=
  calc W4 m c (Proc.devRef .tc main_arg1)
    _ = W3 m c (Proc.devRef .tc main_arg1) := (W4_arr m c 0).trans (((dat2 (V3 m) c).arrAt_in 0 rfl _).trans (A_eq2 (V3 m) c 0))
    _ = W2 m c (Proc.devRef .tc main_arg1) := (W3_arr m c 0).trans (((dat1 (V2 m) c).arrAt_in 0 rfl _).trans (A_eq1 (V2 m) c 0))
    _ = W1 m c (Proc.devRef .tc main_arg1) := W2_of_ne m c main_arg1 (by decide)
    _ = m ((c : Thread nD τ).loc main_arg1) := Gen.V1_of m c main_arg1 (by decide)

theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := W3_of_ne m c main_arg2 (by decide)
    _ = W1 m c (Proc.devRef .tc main_arg2) := (W2_arr m c 1).trans (((dat0 (V1 m) c).arrAt_in 1 rfl _).trans (A_eq0 (V1 m) c 1))
    _ = m ((c : Thread nD τ).loc main_arg2) := Gen.V1_of m c main_arg2 (by decide)

theorem W4_main_arg3 (c : Dev nD) : W4 m c (Proc.devRef .tc main_arg3) = m ((c : Thread nD τ).loc main_arg3) :=
  calc W4 m c (Proc.devRef .tc main_arg3)
    _ = W3 m c (Proc.devRef .tc main_arg3) := W4_of_ne m c main_arg3 (by decide)
    _ = W2 m c (Proc.devRef .tc main_arg3) := W3_of_ne m c main_arg3 (by decide)
    _ = W1 m c (Proc.devRef .tc main_arg3) := W2_of_ne m c main_arg3 (by decide)
    _ = m ((c : Thread nD τ).loc main_arg3) := Gen.V1_of m c main_arg3 (by decide)

theorem W4_main_arg4 (c : Dev nD) : W4 m c (Proc.devRef .tc main_arg4) = m ((c : Thread nD τ).loc main_arg4) :=
  calc W4 m c (Proc.devRef .tc main_arg4)
    _ = W3 m c (Proc.devRef .tc main_arg4) := W4_of_ne m c main_arg4 (by decide)
    _ = W2 m c (Proc.devRef .tc main_arg4) := (W3_arr m c 3).trans (((dat1 (V2 m) c).arrAt_in 3 rfl _).trans (A_eq1 (V2 m) c 3))
    _ = W1 m c (Proc.devRef .tc main_arg4) := W2_of_ne m c main_arg4 (by decide)
    _ = m ((c : Thread nD τ).loc main_arg4) := Gen.V1_of m c main_arg4 (by decide)

theorem W4_main_arg5 (c : Dev nD) : W4 m c (Proc.devRef .tc main_arg5) = m ((c : Thread nD τ).loc main_arg5) :=
  calc W4 m c (Proc.devRef .tc main_arg5)
    _ = W3 m c (Proc.devRef .tc main_arg5) := W4_of_ne m c main_arg5 (by decide)
    _ = W2 m c (Proc.devRef .tc main_arg5) := W3_of_ne m c main_arg5 (by decide)
    _ = W1 m c (Proc.devRef .tc main_arg5) := W2_of_ne m c main_arg5 (by decide)
    _ = m ((c : Thread nD τ).loc main_arg5) := Gen.V1_of m c main_arg5 (by decide)

/-! ## The proof data family and the thread state -/

/-- No call has a prefetched table. -/
abbrev adm : (p : Fin 3) → (pcfgs (F := F) p).Adm := fun p => (cfgs p).toPCfg_adm
/-- Every call's proof data, each at its entry contents. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
  | ⟨2, _⟩ => fun c => dat2 (V3 m) c
abbrev 𝒱₀ : Variants := Variants.none
/-- No core owes another anything. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- The host stretch as an item, from the launch contents. -/
abbrev hseg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp Gen.hostOps0_fresh) op h) (W0 m) R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (W4 m c) ∗ ∃ r, prngReg c r)

/-! ## The calls as items -/

set_option backward.isDefEq.respectTransparency.types false in
/-- Call 0 over the thread state: entered from every unscoped buffer at `W1`, left at `W2`. Its arrays are split
    out of the unscoped buffers and put back at what the write-backs leave; the generator register goes into the
    call's invariant and comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 over the thread state: entered from every unscoped buffer at `W2`, left at `W3`. Its arrays are split
    out of the unscoped buffers and put back at what the write-backs leave; the generator register goes into the
    call's invariant and comes out; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 2 over the thread state: entered from every unscoped buffer at `W3`, left at `W4`. Its arrays are split
    out of the unscoped buffers and put back at what the write-backs leave; the generator register goes into the
    call's invariant and comes out; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m) c).loose
  hwaits := Pipeline.hwaits_of_owed_zero _ _ _ _ L lv 2 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V3 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V3 m c) (V4 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The launch -/

abbrev segs : List (Pipeline.Seg (pcfgs (F := F)) adm (pdats m) () defs₀ 𝒱₀ L lv) :=
  [ .host (hseg0 m), .region (reg0 m), .region (reg1 m), .region (reg2 m) ]
theorem main_run (c : Dev nD) : main (F := F) c = Pipeline.Seg.run (segs m) := (main_chain c).trans (by chain_rfl)

set_option backward.isDefEq.respectTransparency.types false in
/-- THE RUN: from any memory with zero counters every fair execution of the program terminates, nothing faulting,
    and ends with every buffer outside the calls' scratch space at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (W4_main_arg0 m c), (h c _ (mem_uc main_arg1 (by decide))).trans (W4_main_arg1 m c),
     (h c _ (mem_uc main_arg2 (by decide))).trans (W4_main_arg2 m c), (h c _ (mem_uc main_arg3 (by decide))).trans (W4_main_arg3 m c),
     (h c _ (mem_uc main_arg4 (by decide))).trans (W4_main_arg4 m c), (h c _ (mem_uc main_arg5 (by decide))).trans (W4_main_arg5 m c)⟩)
    (run_all m ρ)

end Cert.Kernel.Hand

end
-- ==== Proof.FrameR0.lean ====
/-
  The first call of the program: for each block of 2000 rows of the features, the block times the first weight
  matrix (taken as three products), stored as a block of the result; and half of that block's column sums, added
  into one 256-entry row that stays in its buffer from point to point and is written back after the last.

  At the first point the row is set to the half column sums plus the bias row; at every later point the half
  column sums are added to what the point before left. So the row's buffer after point `n` is defined by
  recursion on `n` (`acc0`). Here: what the two outputs' staging buffers hold after the body in each of the two
  cases, the body's run in each case on any whole staging buffers, the call's proof data at the buffers' contents
  `V` on entry, and the obligation the launch asks of the body at every grid point.
-/
import proofs.«173031_g128849019522_cont_9to1_m_876_7_alg».proof.Proof.Gen.KernelIdeal.Launch
import proofs.«173031_g128849019522_cont_9to1_m_876_7_alg».proof.Proof.Gen.KernelIdeal.Skeleton
import proofs.«173031_g128849019522_cont_9to1_m_876_7_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the body is handed -/

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## Which case a point is in -/

/-- The first branch (set the row) is taken at the first point only. -/
theorem hc1_0 : ∀ t : Fin cfg0.N, k0_cond1 (grid0.coords t) = 1#1 ↔ t.val = 0 :=
  (by decide +kernel : ∀ t : Fin grid0.N, k0_cond1 (grid0.coords t) = 1#1 ↔ t.val = 0)
/-- The second branch (add to the row) is taken at every later point. -/
theorem hc2_0 : ∀ t : Fin cfg0.N, k0_cond2 (grid0.coords t) = 1#1 ↔ t.val ≠ 0 :=
  (by decide +kernel : ∀ t : Fin grid0.N, k0_cond2 (grid0.coords t) = 1#1 ↔ t.val ≠ 0)
/-- One of the two is taken at every point: the row's window is idle nowhere. -/
theorem live0_4 : ∀ i : grid0.Coords, cfg0.idle 4 i = false := by decide +kernel

/-! ## The body's accesses: every load and store takes a whole buffer -/

abbrev rX0 : Rect S2000x256 := Rect.unit (s := S2000x256) ![0, 0] S2000x256.size Facts₀.inb_S2000x256_S2000x256_0_0
abbrev rW0 : Rect S256x256 := Rect.unit (s := S256x256) ![0, 0] S256x256.size Facts₀.inb_S256x256_S256x256_0_0
abbrev rRow0 : Rect S1x256 := Rect.unit (s := S1x256) ![0, 0] S1x256.size Facts₀.inb_S1x256_S1x256_0_0

/-- The product block's staging buffer after the body, from the staged features block and weight. -/
def out0_s (x0 : Vec F S2000x256 .f32) (x1 : Vec F S256x256 .f32) : Vec F S2000x256 .bf16 :=
  View.canon [⟨rX0, k0_pay2 (View.ld x0 rX0) (View.ld x1 rW0)⟩]
/-- The row's staging buffer after the body at the first point: half column sums plus the bias row. -/
def out0_cA (x0 : Vec F S2000x256 .f32) (x1 : Vec F S256x256 .f32) (x2 : Vec F S1x256 .f32) : Vec F S1x256 .f32 :=
  View.canon [⟨rRow0, k0_pay4 (View.ld x0 rX0) (View.ld x1 rW0) (View.ld x2 rRow0)⟩]
/-- The row's staging buffer after the body at a later point, over what it held (`xo`): that plus half column sums. -/
def out0_cB (x0 : Vec F S2000x256 .f32) (x1 : Vec F S256x256 .f32) (xo : Vec F S1x256 .f32) : Vec F S1x256 .f32 :=
  View.canon [⟨rRow0, k0_pay5 (View.ld x0 rX0) (View.ld x1 rW0) (View.ld xo rRow0)⟩]

theorem cover0_s (p0 : Vec F S2000x256 .bf16) (y : S2000x256.Idx) :
    ∃ pc ∈ ([⟨rX0, p0⟩] : List (View.Piece (Elt F) S2000x256 .bf16)), y ∈ pc.1.set :=
  View.cover_of_tiled [⟨rX0, p0⟩] S2000x256.size (by rfl) y
theorem cover0_c (p0 : Vec F S1x256 .f32) (y : S1x256.Idx) :
    ∃ pc ∈ ([⟨rRow0, p0⟩] : List (View.Piece (Elt F) S1x256 .f32)), y ∈ pc.1.set :=
  View.cover_of_tiled [⟨rRow0, p0⟩] S1x256.size (by rfl) y

set_option maxHeartbeats 1000000 in
/-- The body at the first point, on whole staging buffers — the inputs' at `x0 x1 x2`, the outputs' at anything. -/
theorem sound_kernel0A (c : Dev nD) (E : Set ℕ) (i : grid0.Coords) (hc1 : k0_cond1 i = 1#1) (hc2 : ¬ k0_cond2 i = 1#1)
    (a1 : Memref sig .tc .vmem S2000x256 .f32) (h1 : a1.IsWhole) (a2 : Memref sig .tc .vmem S256x256 .f32) (h2 : a2.IsWhole)
    (a3 : Memref sig .tc .vmem S1x256 .f32) (h3 : a3.IsWhole) (a4 : Memref sig .tc .vmem S2000x256 .bf16) (h4 : a4.IsWhole)
    (a5 : Memref sig .tc .vmem S1x256 .f32) (h5 : a5.IsWhole)
    (x0 : Vec F S2000x256 .f32) (x1 : Vec F S256x256 .f32) (x2 : Vec F S1x256 .f32) (K : PUnit → sProp 𝕄) :
    iprop(owns (c : Thread nD τ) a1 fullShare x0 ∗ owns (c : Thread nD τ) a2 fullShare x1 ∗ owns (c : Thread nD τ) a3 fullShare x2
        ∗ (∃ d, owns (c : Thread nD τ) a4 fullShare d) ∗ (∃ d, owns (c : Thread nD τ) a5 fullShare d)
        ∗ (iprop(owns (c : Thread nD τ) a1 fullShare x0 ∗ owns (c : Thread nD τ) a2 fullShare x1 ∗ owns (c : Thread nD τ) a3 fullShare x2
            ∗ owns (c : Thread nD τ) a4 fullShare (out0_s x0 x1) ∗ owns (c : Thread nD τ) a5 fullShare (out0_cA x0 x1 x2)) -∗ K ⟨⟩))
      ⊢ wp frame (wpE (defs₀ (F := F)) Variants.none c none) E (cc0__support_body i a1 h1 a2 h2 a3 h3 a4 h4 a5 h5) K := by
  simp only [cc0__support_body_eq_skeleton]; unfold cc0__support_body_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_s _)
  iexists _; isplitr
  swap; · iexact H4
  ipureintro
  exact View.read_writes_eq_canon _ _ _ (cover0_c _)

set_option maxHeartbeats 1000000 in
/-- The body at a later point, the row's buffer at `xo`. The bias row's buffer is held and not read. -/
theorem sound_kernel0B (c : Dev nD) (E : Set ℕ) (i : grid0.Coords) (hc1 : ¬ k0_cond1 i = 1#1) (hc2 : k0_cond2 i = 1#1)
    (a1 : Memref sig .tc .vmem S2000x256 .f32) (h1 : a1.IsWhole) (a2 : Memref sig .tc .vmem S256x256 .f32) (h2 : a2.IsWhole)
    (a3 : Memref sig .tc .vmem S1x256 .f32) (h3 : a3.IsWhole) (a4 : Memref sig .tc .vmem S2000x256 .bf16) (h4 : a4.IsWhole)
    (a5 : Memref sig .tc .vmem S1x256 .f32) (h5 : a5.IsWhole)
    (x0 : Vec F S2000x256 .f32) (x1 : Vec F S256x256 .f32) (x2 : Vec F S1x256 .f32) (xo : Vec F S1x256 .f32) (K : PUnit → sProp 𝕄) :
    iprop(owns (c : Thread nD τ) a1 fullShare x0 ∗ owns (c : Thread nD τ) a2 fullShare x1 ∗ owns (c : Thread nD τ) a3 fullShare x2
        ∗ (∃ d, owns (c : Thread nD τ) a4 fullShare d) ∗ owns (c : Thread nD τ) a5 fullShare xo
        ∗ (iprop(owns (c : Thread nD τ) a1 fullShare x0 ∗ owns (c : Thread nD τ) a2 fullShare x1 ∗ owns (c : Thread nD τ) a3 fullShare x2
            ∗ owns (c : Thread nD τ) a4 fullShare (out0_s x0 x1) ∗ owns (c : Thread nD τ) a5 fullShare (out0_cB x0 x1 xo)) -∗ K ⟨⟩))
      ⊢ wp frame (wpE (defs₀ (F := F)) Variants.none c none) E (cc0__support_body i a1 h1 a2 h2 a3 h3 a4 h4 a5 h5) K := by
  simp only [cc0__support_body_eq_skeleton]; unfold cc0__support_body_skel
  unfold owns
  iintro ⟨⟨%f0, %hf0, H0⟩, ⟨%f1, %hf1, H1⟩, H2, ⟨%d3, %f3, -, H3⟩, ⟨%f4, %hf4, H4⟩, Hk⟩
  subst hf0; subst hf1; subst hf4
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]; · iexact H2
  isplitl [H3]
  · iexists _; isplitr
    swap; · iexact H3
    ipureintro
    exact View.read_writes_eq_canon _ _ _ (cover0_s _)
  iexists _; isplitr
  swap; · iexact H4
  ipureintro
  exact View.read_writes_eq_canon _ _ _ (cover0_c _)

/-! ## An input's staging buffer holds its block at every point, fetched there or not -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The row's buffer after each point -/

/-- THE ACCUMULATION: what the row's staging buffer holds after the body at position `n` — at the first point the
    first case's contents, at a later one the second case's over what the point before left (the buffer is not
    written back between). -/
def acc0 (c : Dev nD) : (n : ℕ) → n < cfg0.N → Vec F S1x256 .f32
  | 0, hn => out0_cA (iblk0 V c 0 ⟨0, hn⟩) (iblk0 V c 1 ⟨0, hn⟩) (iblk0 V c 2 ⟨0, hn⟩)
  | n + 1, hn => out0_cB (iblk0 V c 0 ⟨n + 1, hn⟩) (iblk0 V c 1 ⟨n + 1, hn⟩) (acc0 c n (Nat.lt_of_succ_lt hn))

theorem acc0_first (c : Dev nD) (t : Fin cfg0.N) (h0 : t.val = 0) :
    acc0 V c t.val t.isLt = out0_cA (iblk0 V c 0 t) (iblk0 V c 1 t) (iblk0 V c 2 t) := by
  obtain ⟨n, hn⟩ := t
  cases n with
  | zero => rfl
  | succ n => exact absurd h0 (Nat.succ_ne_zero n)

theorem acc0_later (c : Dev nD) (t : Fin cfg0.N) (h0 : t.val ≠ 0) :
    acc0 V c t.val t.isLt = out0_cB (iblk0 V c 0 t) (iblk0 V c 1 t) (acc0 V c (t.val - 1) (Nat.lt_of_le_of_lt (Nat.sub_le _ _) t.isLt)) := by
  obtain ⟨n, hn⟩ := t
  cases n with
  | zero => exact absurd rfl h0
  | succ n => rfl

/-! ## The call's proof data -/

/-- The arrays as the call finds them; after the body at point `t` each input's buffer at its block, the product
    block's at `out0_s` of the blocks and the row's at `acc0`; the invariant is the scoped buffers no window stages
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_s (iblk0 V c 0 t) (iblk0 V c 1 t)
    | ⟨4, _⟩ => acc0 V c t.val t.isLt
  Φ _ := Pipeline.ΦA spec0 c
  q _ := fullShare
  owed _ := 0

theorem A_eq0 (c : Dev nD) (w : Fin cfg0.W) : (dat0 V c).A w = V c (Pipeline.arrRef spec0 w) := by dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_s (iblk0 V c 0 t) (iblk0 V c 1 t) := by dsimp only [dat0]
theorem after0_4 (c : Dev nD) (t : Fin cfg0.N) : (dat0 V c).after 4 t = acc0 V c t.val t.isLt := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- At a later point the row's staging buffer holds what the body left at the point before: the buffer is written
    back after the last point only, and the window is idle nowhere. -/
theorem before0_4_later (c : Dev nD) (t : Fin cfg0.N) (h0 : t.val ≠ 0) (d) :
    (dat0 V c).before 4 t d = acc0 V c (t.val - 1) (Nat.lt_of_le_of_lt (Nat.sub_le _ _) t.isLt) := by
  have hN : t.val < 5 := lt_of_lt_of_eq t.isLt (show cfg0.N = 5 from N_0)
  rw [Dat.before_out_kept _ 4 rfl t h0 (Bool.eq_false_iff.mpr fun h => by have := (flush0_4 _).mp h; dsimp only at this; omega)
    live0_4 (fun _ _ => rfl)]
  dsimp only [dat0]

/-! ## The obligation at a grid point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ (match cfg0.idle 4 (cfg0.grid.coords t) with
        | true =>
          match (cfg0.win 4).flush t with
          | false => iprop(∃ d, owns (c : Thread nD τ) (st0_4 t) fullShare ((dat0 V c).before 4 t d))
          | true => owns (c : Thread nD τ) (st0_4 t) fullShare ((dat0 V c).after 4 t)
        | false => owns (c : Thread nD τ) (st0_4 t) fullShare ((dat0 V c).after 4 t)))

set_option maxHeartbeats 800000 in
/-- At any point the inputs' buffers hold their blocks; the point is the first or a later one, and at a later one
    the row's buffer holds what the point before left; so that case's run applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0
  rw [show cfg0.idle 4 (cfg0.grid.coords t) = false from live0_4 _]
  dsimp only
  unfold bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  by_cases h0 : t.val = 0
  · rw [acc0_first V c t h0]
    iintro ⟨HΦ, Ho, ⟨%d0, H0⟩, ⟨%d1, H1⟩, ⟨%d2, H2⟩, ⟨%d3, H3⟩, ⟨%d4, H4⟩⟩
    iapply (sound_kernel0A c Set.univ (grid0.coords t) ((hc1_0 t).mpr h0) (fun h => ((hc2_0 t).mp h) h0)
      _ _ _ _ _ _ _ _ _ _ (iblk0 V c 0 t) (iblk0 V c 1 t) (iblk0 V c 2 t) _)
    isplitl [H0]; · iexact H0
    isplitl [H1]; · iexact H1
    isplitl [H2]; · iexact H2
    isplitl [H3]; · iexists _; iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · rw [acc0_later V c t h0]
    simp only [before0_4_later V c t h0]
    iintro ⟨HΦ, Ho, ⟨%d0, H0⟩, ⟨%d1, H1⟩, ⟨%d2, H2⟩, ⟨%d3, H3⟩, ⟨%d4, H4⟩⟩
    iapply (sound_kernel0B c Set.univ (grid0.coords t) (fun h => h0 ((hc1_0 t).mp h)) ((hc2_0 t).mpr h0)
      _ _ _ _ _ _ _ _ _ _ (iblk0 V c 0 t) (iblk0 V c 1 t) (iblk0 V c 2 t) _ _)
    isplitl [H0]; · iexact H0
    isplitl [H1]; · iexact H1
    isplitl [H2]; · iexact H2
    isplitl [H3]; · iexists _; iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

/-- The obligation the launch asks of the body, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.FrameR1.lean ====
/-
  The second call of the program: for each block of 400 rows of the adjacency, the centred block times the first
  layer's product plus the correction row, rectified, times the second weight matrix (as three products), stored as
  a block of the result; and that block's column sums, added into one 64-entry row that stays in its buffer from
  point to point and is written back after the last.

  At the first point the row is set to the block's column sums; at every later point they are added to what the
  point before left. So the row's buffer after point `n` is defined by recursion on `n` (`acc1`). Here: what the
  two outputs' staging buffers hold after the body in each of the two cases, the body's run in each case on any
  whole staging buffers, the call's proof data at the buffers' contents `V` on entry, and the obligation the launch
  asks of the body at every grid point.
-/
import proofs.«173031_g128849019522_cont_9to1_m_876_7_alg».proof.Proof.Gen.KernelIdeal.Launch
import proofs.«173031_g128849019522_cont_9to1_m_876_7_alg».proof.Proof.Gen.KernelIdeal.Skeleton
import proofs.«173031_g128849019522_cont_9to1_m_876_7_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the body is handed -/

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## Which case a point is in -/

/-- The first branch (set the row) is taken at the first point only. -/
theorem hc1_1 : ∀ t : Fin cfg1.N, k1_cond1 (grid1.coords t) = 1#1 ↔ t.val = 0 :=
  (by decide +kernel : ∀ t : Fin grid1.N, k1_cond1 (grid1.coords t) = 1#1 ↔ t.val = 0)
/-- The second branch (add to the row) is taken at every later point. -/
theorem hc2_1 : ∀ t : Fin cfg1.N, k1_cond2 (grid1.coords t) = 1#1 ↔ t.val ≠ 0 :=
  (by decide +kernel : ∀ t : Fin grid1.N, k1_cond2 (grid1.coords t) = 1#1 ↔ t.val ≠ 0)
/-- One of the two is taken at every point: the row's window is idle nowhere. -/
theorem live1_5 : ∀ i : grid1.Coords, cfg1.idle 5 i = false := by decide +kernel

/-! ## The body's accesses: every load and store takes a whole buffer -/

abbrev rAdj1 : Rect S400x10000 := Rect.unit (s := S400x10000) ![0, 0] S400x10000.size Facts₀.inb_S400x10000_S400x10000_0_0
abbrev rS1 : Rect S10000x256 := Rect.unit (s := S10000x256) ![0, 0] S10000x256.size Facts₀.inb_S10000x256_S10000x256_0_0
abbrev rCorr1 : Rect S1x256 := Rect.unit (s := S1x256) ![0, 0] S1x256.size Facts₀.inb_S1x256_S1x256_0_0
abbrev rW1 : Rect S256x64 := Rect.unit (s := S256x64) ![0, 0] S256x64.size Facts₀.inb_S256x64_S256x64_0_0
abbrev rG1 : Rect S400x64 := Rect.unit (s := S400x64) ![0, 0] S400x64.size Facts₀.inb_S400x64_S400x64_0_0
abbrev rRow1 : Rect S1x64 := Rect.unit (s := S1x64) ![0, 0] S1x64.size Facts₀.inb_S1x64_S1x64_0_0

/-- The product block's staging buffer after the body, from the four staged blocks. -/
def out1_g (x0 : Vec F S400x10000 .f32) (x1 : Vec F S10000x256 .bf16) (x2 : Vec F S1x256 .f32) (x3 : Vec F S256x64 .f32) : Vec F S400x64 .bf16 :=
  View.canon [⟨rG1, k1_pay3 (View.ld x0 rAdj1) (View.ld x1 rS1) (View.ld x2 rCorr1) (View.ld x3 rW1)⟩]
/-- The row's staging buffer after the body at the first point: the block's column sums. -/
def out1_cA (x0 : Vec F S400x10000 .f32) (x1 : Vec F S10000x256 .bf16) (x2 : Vec F S1x256 .f32) (x3 : Vec F S256x64 .f32) : Vec F S1x64 .f32 :=
  View.canon [⟨rRow1, k1_pay4 (View.ld x0 rAdj1) (View.ld x1 rS1) (View.ld x2 rCorr1) (View.ld x3 rW1)⟩]
/-- The row's staging buffer after the body at a later point, over what it held (`xo`): that plus the column sums. -/
def out1_cB (x0 : Vec F S400x10000 .f32) (x1 : Vec F S10000x256 .bf16) (x2 : Vec F S1x256 .f32) (x3 : Vec F S256x64 .f32) (xo : Vec F S1x64 .f32) : Vec F S1x64 .f32 :=
  View.canon [⟨rRow1, k1_pay1 (k1_pay4 (View.ld x0 rAdj1) (View.ld x1 rS1) (View.ld x2 rCorr1) (View.ld x3 rW1)) (View.ld xo rRow1)⟩]

theorem cover1_g (p0 : Vec F S400x64 .bf16) (y : S400x64.Idx) :
    ∃ pc ∈ ([⟨rG1, p0⟩] : List (View.Piece (Elt F) S400x64 .bf16)), y ∈ pc.1.set :=
  View.cover_of_tiled [⟨rG1, p0⟩] S400x64.size (by rfl) y
theorem cover1_c (p0 : Vec F S1x64 .f32) (y : S1x64.Idx) :
    ∃ pc ∈ ([⟨rRow1, p0⟩] : List (View.Piece (Elt F) S1x64 .f32)), y ∈ pc.1.set :=
  View.cover_of_tiled [⟨rRow1, p0⟩] S1x64.size (by rfl) y

set_option maxHeartbeats 1000000 in
/-- The body at the first point, on whole staging buffers — the inputs' at `x0 … x3`, the outputs' at anything. -/
theorem sound_kernel1A (c : Dev nD) (E : Set ℕ) (i : grid1.Coords) (hc1 : k1_cond1 i = 1#1) (hc2 : ¬ k1_cond2 i = 1#1)
    (a1 : Memref sig .tc .vmem S400x10000 .f32) (h1 : a1.IsWhole) (a2 : Memref sig .tc .vmem S10000x256 .bf16) (h2 : a2.IsWhole)
    (a3 : Memref sig .tc .vmem S1x256 .f32) (h3 : a3.IsWhole) (a4 : Memref sig .tc .vmem S256x64 .f32) (h4 : a4.IsWhole)
    (a5 : Memref sig .tc .vmem S400x64 .bf16) (h5 : a5.IsWhole) (a6 : Memref sig .tc .vmem S1x64 .f32) (h6 : a6.IsWhole)
    (x0 : Vec F S400x10000 .f32) (x1 : Vec F S10000x256 .bf16) (x2 : Vec F S1x256 .f32) (x3 : Vec F S256x64 .f32) (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ (∃ d, owns (c : Thread nD τ) a5 fullShare d) ∗ (∃ d, owns (c : Thread nD τ) a6 fullShare d)
        ∗ (iprop(owns (c : Thread nD τ) a1 fullShare x0 ∗ owns (c : Thread nD τ) a2 fullShare x1 ∗ owns (c : Thread nD τ) a3 fullShare x2
            ∗ owns (c : Thread nD τ) a4 fullShare x3 ∗ owns (c : Thread nD τ) a5 fullShare (out1_g x0 x1 x2 x3)
            ∗ owns (c : Thread nD τ) a6 fullShare (out1_cA x0 x1 x2 x3)) -∗ K ⟨⟩))
      ⊢ wp frame (wpE (defs₀ (F := F)) Variants.none c none) E (cc1__layer1_body i a1 h1 a2 h2 a3 h3 a4 h4 a5 h5 a6 h6) K := by
  simp only [cc1__layer1_body_eq_skeleton]; unfold cc1__layer1_body_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0; subst hf1; subst hf2; subst hf3
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover1_g _)
  iexists _; isplitr
  swap; · iexact H5
  ipureintro
  exact View.read_writes_eq_canon _ _ _ (cover1_c _)

set_option maxHeartbeats 1000000 in
/-- The body at a later point, the row's buffer at `xo`. -/
theorem sound_kernel1B (c : Dev nD) (E : Set ℕ) (i : grid1.Coords) (hc1 : ¬ k1_cond1 i = 1#1) (hc2 : k1_cond2 i = 1#1)
    (a1 : Memref sig .tc .vmem S400x10000 .f32) (h1 : a1.IsWhole) (a2 : Memref sig .tc .vmem S10000x256 .bf16) (h2 : a2.IsWhole)
    (a3 : Memref sig .tc .vmem S1x256 .f32) (h3 : a3.IsWhole) (a4 : Memref sig .tc .vmem S256x64 .f32) (h4 : a4.IsWhole)
    (a5 : Memref sig .tc .vmem S400x64 .bf16) (h5 : a5.IsWhole) (a6 : Memref sig .tc .vmem S1x64 .f32) (h6 : a6.IsWhole)
    (x0 : Vec F S400x10000 .f32) (x1 : Vec F S10000x256 .bf16) (x2 : Vec F S1x256 .f32) (x3 : Vec F S256x64 .f32) (xo : Vec F S1x64 .f32) (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ (∃ d, owns (c : Thread nD τ) a5 fullShare d) ∗ owns (c : Thread nD τ) a6 fullShare xo
        ∗ (iprop(owns (c : Thread nD τ) a1 fullShare x0 ∗ owns (c : Thread nD τ) a2 fullShare x1 ∗ owns (c : Thread nD τ) a3 fullShare x2
            ∗ owns (c : Thread nD τ) a4 fullShare x3 ∗ owns (c : Thread nD τ) a5 fullShare (out1_g x0 x1 x2 x3)
            ∗ owns (c : Thread nD τ) a6 fullShare (out1_cB x0 x1 x2 x3 xo)) -∗ K ⟨⟩))
      ⊢ wp frame (wpE (defs₀ (F := F)) Variants.none c none) E (cc1__layer1_body i a1 h1 a2 h2 a3 h3 a4 h4 a5 h5 a6 h6) K := by
  simp only [cc1__layer1_body_eq_skeleton]; unfold cc1__layer1_body_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
  subst hf0; subst hf1; subst hf2; subst hf3; subst hf5
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover1_g _)
  iexists _; isplitr
  swap; · iexact H5
  ipureintro
  exact View.read_writes_eq_canon _ _ _ (cover1_c _)

/-! ## An input's staging buffer holds its block at every point, fetched there or not -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The row's buffer after each point -/

/-- THE ACCUMULATION: what the row's staging buffer holds after the body at position `n` — at the first point the
    first case's contents, at a later one the second case's over what the point before left (the buffer is not
    written back between). -/
def acc1 (c : Dev nD) : (n : ℕ) → n < cfg1.N → Vec F S1x64 .f32
  | 0, hn => out1_cA (iblk1 V c 0 ⟨0, hn⟩) (iblk1 V c 1 ⟨0, hn⟩) (iblk1 V c 2 ⟨0, hn⟩) (iblk1 V c 3 ⟨0, hn⟩)
  | n + 1, hn => out1_cB (iblk1 V c 0 ⟨n + 1, hn⟩) (iblk1 V c 1 ⟨n + 1, hn⟩) (iblk1 V c 2 ⟨n + 1, hn⟩) (iblk1 V c 3 ⟨n + 1, hn⟩)
      (acc1 c n (Nat.lt_of_succ_lt hn))

theorem acc1_first (c : Dev nD) (t : Fin cfg1.N) (h0 : t.val = 0) :
    acc1 V c t.val t.isLt = out1_cA (iblk1 V c 0 t) (iblk1 V c 1 t) (iblk1 V c 2 t) (iblk1 V c 3 t) := by
  obtain ⟨n, hn⟩ := t
  cases n with
  | zero => rfl
  | succ n => exact absurd h0 (Nat.succ_ne_zero n)

theorem acc1_later (c : Dev nD) (t : Fin cfg1.N) (h0 : t.val ≠ 0) :
    acc1 V c t.val t.isLt = out1_cB (iblk1 V c 0 t) (iblk1 V c 1 t) (iblk1 V c 2 t) (iblk1 V c 3 t)
      (acc1 V c (t.val - 1) (Nat.lt_of_le_of_lt (Nat.sub_le _ _) t.isLt)) := by
  obtain ⟨n, hn⟩ := t
  cases n with
  | zero => exact absurd rfl h0
  | succ n => rfl

/-! ## The call's proof data -/

/-- The arrays as the call finds them; after the body at point `t` each input's buffer at its block, the product
    block's at `out1_g` of the blocks and the row's at `acc1`; the invariant is the scoped buffers no window stages
    and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_g (iblk1 V c 0 t) (iblk1 V c 1 t) (iblk1 V c 2 t) (iblk1 V c 3 t)
    | ⟨5, _⟩ => acc1 V c t.val t.isLt
  Φ _ := Pipeline.ΦA spec1 c
  q _ := fullShare
  owed _ := 0

theorem A_eq1 (c : Dev nD) (w : Fin cfg1.W) : (dat1 V c).A w = V c (Pipeline.arrRef spec1 w) := by dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_g (iblk1 V c 0 t) (iblk1 V c 1 t) (iblk1 V c 2 t) (iblk1 V c 3 t) := by dsimp only [dat1]
theorem after1_5 (c : Dev nD) (t : Fin cfg1.N) : (dat1 V c).after 5 t = acc1 V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- At a later point the row's staging buffer holds what the body left at the point before: the buffer is written
    back after the last point only, and the window is idle nowhere. -/
theorem before1_5_later (c : Dev nD) (t : Fin cfg1.N) (h0 : t.val ≠ 0) (d) :
    (dat1 V c).before 5 t d = acc1 V c (t.val - 1) (Nat.lt_of_le_of_lt (Nat.sub_le _ _) t.isLt) := by
  have hN : t.val < 25 := lt_of_lt_of_eq t.isLt (show cfg1.N = 25 from N_1)
  rw [Dat.before_out_kept _ 5 rfl t h0 (Bool.eq_false_iff.mpr fun h => by have := (flush1_5 _).mp h; dsimp only at this; omega)
    live1_5 (fun _ _ => rfl)]
  dsimp only [dat1]

/-! ## The obligation at a grid point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ (match cfg1.idle 5 (cfg1.grid.coords t) with
        | true =>
          match (cfg1.win 5).flush t with
          | false => iprop(∃ d, owns (c : Thread nD τ) (st1_5 t) fullShare ((dat1 V c).before 5 t d))
          | true => owns (c : Thread nD τ) (st1_5 t) fullShare ((dat1 V c).after 5 t)
        | false => owns (c : Thread nD τ) (st1_5 t) fullShare ((dat1 V c).after 5 t)))

set_option maxHeartbeats 800000 in
/-- At any point the inputs' buffers hold their blocks; the point is the first or a later one, and at a later one
    the row's buffer holds what the point before left; so that case's run applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1
  rw [show cfg1.idle 5 (cfg1.grid.coords t) = false from live1_5 _]
  dsimp only
  unfold bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4, after1_5]
  by_cases h0 : t.val = 0
  · rw [acc1_first V c t h0]
    iintro ⟨HΦ, Ho, ⟨%d0, H0⟩, ⟨%d1, H1⟩, ⟨%d2, H2⟩, ⟨%d3, H3⟩, ⟨%d4, H4⟩, ⟨%d5, H5⟩⟩
    iapply (sound_kernel1A c Set.univ (grid1.coords t) ((hc1_1 t).mpr h0) (fun h => ((hc2_1 t).mp h) h0)
      _ _ _ _ _ _ _ _ _ _ _ _ (iblk1 V c 0 t) (iblk1 V c 1 t) (iblk1 V c 2 t) (iblk1 V c 3 t) _)
    isplitl [H0]; · iexact H0
    isplitl [H1]; · iexact H1
    isplitl [H2]; · iexact H2
    isplitl [H3]; · iexact H3
    isplitl [H4]; · iexists _; iexact H4
    isplitl [H5]; · iexists _; iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5
  · rw [acc1_later V c t h0]
    simp only [before1_5_later V c t h0]
    iintro ⟨HΦ, Ho, ⟨%d0, H0⟩, ⟨%d1, H1⟩, ⟨%d2, H2⟩, ⟨%d3, H3⟩, ⟨%d4, H4⟩, ⟨%d5, H5⟩⟩
    iapply (sound_kernel1B c Set.univ (grid1.coords t) (fun h => h0 ((hc1_1 t).mp h)) ((hc2_1 t).mpr h0)
      _ _ _ _ _ _ _ _ _ _ _ _ (iblk1 V c 0 t) (iblk1 V c 1 t) (iblk1 V c 2 t) (iblk1 V c 3 t) _ _)
    isplitl [H0]; · iexact H0
    isplitl [H1]; · iexact H1
    isplitl [H2]; · iexact H2
    isplitl [H3]; · iexact H3
    isplitl [H4]; · iexists _; iexact H4
    isplitl [H5]; · iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5

/-- The obligation the launch asks of the body, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.FrameR2.lean ====
/-
  The third call of the program: for each block of 400 rows of the adjacency, the centred block times the
  second layer's product, plus half its column sums, plus the bias, through the logistic function.

  The call has four inputs (the adjacency's block, the whole 10000 × 64 product, its column sums, the bias row)
  and one output block, written whole by one store at every point: nothing is carried from point to point.
  Here: what the output's staging buffer holds after the body as a function of the four staged blocks, the
  body's run on any whole staging buffers, the call's proof data at the buffers' contents `V` on entry, and
  the obligation the launch asks of the body at every grid point.
-/
import proofs.«173031_g128849019522_cont_9to1_m_876_7_alg».proof.Proof.Gen.KernelIdeal.Launch
import proofs.«173031_g128849019522_cont_9to1_m_876_7_alg».proof.Proof.Gen.KernelIdeal.Skeleton
import proofs.«173031_g128849019522_cont_9to1_m_876_7_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the body is handed -/

/-- Window `w`'s block at point `t`, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The body's accesses: every load and the one store take a whole buffer -/

abbrev rAdj2 : Rect S400x10000 := Rect.unit (s := S400x10000) ![0, 0] S400x10000.size Facts₀.inb_S400x10000_S400x10000_0_0
abbrev rG2 : Rect S10000x64 := Rect.unit (s := S10000x64) ![0, 0] S10000x64.size Facts₀.inb_S10000x64_S10000x64_0_0
abbrev rRow2 : Rect S1x64 := Rect.unit (s := S1x64) ![0, 0] S1x64.size Facts₀.inb_S1x64_S1x64_0_0
abbrev rOut2 : Rect S400x64 := Rect.unit (s := S400x64) ![0, 0] S400x64.size Facts₀.inb_S400x64_S400x64_0_0

/-- What the output's staging buffer holds after the body, from the four staged blocks. -/
def out2 (x0 : Vec F S400x10000 .f32) (x1 : Vec F S10000x64 .bf16) (x2 x3 : Vec F S1x64 .f32) : Vec F S400x64 .f32 :=
  View.canon [⟨rOut2, k2_pay1 (View.ld x0 rAdj2) (View.ld x1 rG2) (View.ld x2 rRow2) (View.ld x3 rRow2)⟩]

/-- The one store covers the buffer. -/
theorem cover2 (p0 : Vec F S400x64 .f32) (y : S400x64.Idx) :
    ∃ pc ∈ ([⟨rOut2, p0⟩] : List (View.Piece (Elt F) S400x64 .f32)), y ∈ pc.1.set :=
  View.cover_of_tiled [⟨rOut2, p0⟩] S400x64.size (by rfl) y

set_option maxHeartbeats 1000000 in
/-- The body on whole staging buffers — the inputs' at `x0 … x3`, the output's at anything — runs to its return
    with the inputs' as they were and the output's at `out2` of them. -/
theorem sound_kernel2 (c : Dev nD) (E : Set ℕ) (i : grid2.Coords)
    (a1 : Memref sig .tc .vmem S400x10000 .f32) (h1 : a1.IsWhole) (a2 : Memref sig .tc .vmem S10000x64 .bf16) (h2 : a2.IsWhole)
    (a3 : Memref sig .tc .vmem S1x64 .f32) (h3 : a3.IsWhole) (a4 : Memref sig .tc .vmem S1x64 .f32) (h4 : a4.IsWhole)
    (a5 : Memref sig .tc .vmem S400x64 .f32) (h5 : a5.IsWhole)
    (x0 : Vec F S400x10000 .f32) (x1 : Vec F S10000x64 .bf16) (x2 x3 : Vec F S1x64 .f32) (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ (∃ d, owns (c : Thread nD τ) a5 fullShare d)
        ∗ (iprop(owns (c : Thread nD τ) a1 fullShare x0 ∗ owns (c : Thread nD τ) a2 fullShare x1 ∗ owns (c : Thread nD τ) a3 fullShare x2
            ∗ owns (c : Thread nD τ) a4 fullShare x3 ∗ owns (c : Thread nD τ) a5 fullShare (out2 x0 x1 x2 x3)) -∗ K ⟨⟩))
      ⊢ wp frame (wpE (defs₀ (F := F)) Variants.none c none) E (cc2__layer2_body i a1 h1 a2 h2 a3 h3 a4 h4 a5 h5) K := by
  simp only [cc2__layer2_body_eq_skeleton]; unfold cc2__layer2_body_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2 _)

/-! ## An input's staging buffer holds its block at every point, fetched there or not -/

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The call's proof data -/

/-- The arrays as the call finds them; after the body at point `t` each input's buffer at its block and the
    output's at `out2` of the four blocks; the invariant is the scoped buffers no window stages and the generator
    register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) :
    (dat2 V c).after 4 t = out2 (iblk2 V c 0 t) (iblk2 V c 1 t) (iblk2 V c 2 t) (iblk2 V c 3 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The obligation at a grid point -/

/-- What the body is called with at point `t`: the invariant, the core's dues, each window's current staging
    buffer at what it holds there. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- What it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- At any point the inputs' buffers hold their blocks, so the body's run applies; the invariant and the dues pass
    through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The obligation the launch asks of the body, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.Run.lean ====
/-
  The whole program's run: a stretch of two host reshapes (the two bias vectors as one-row arrays), then the three
  calls in order, each reading what the one before wrote.

  The contents of every buffer outside the calls' scratch space are followed from the launch through the four
  items: after the host stretch, then after each call its output arrays at what its write-backs leave and every
  other buffer unchanged. Each call is entered from the thread state "every such buffer at the boundary's contents,
  the generator register at some state, nothing owed" and left at the next boundary's. One launch of the four
  items then says: every fair execution terminates, faults nowhere, and ends with every such buffer at the last
  boundary's contents. From that both the frame (no argument array changes: no host operation and no call writes
  one) and the result array's final contents are read off.
-/
import proofs.«173031_g128849019522_cont_9to1_m_876_7_alg».proof.Proof.FrameR0
import proofs.«173031_g128849019522_cont_9to1_m_876_7_alg».proof.Proof.FrameR1
import proofs.«173031_g128849019522_cont_9to1_m_876_7_alg».proof.Proof.FrameR2
import proofs.«173031_g128849019522_cont_9to1_m_876_7_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c => Gen.V0 m c
/-- After the host stretch (the first call's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b

/-- After call 0: its arrays at what the write-backs leave, every other buffer as before it. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the references. -/
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After call 1: its arrays at what the write-backs leave, every other buffer as before it. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
/-- The same read at the references. -/
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- After call 2: its arrays at what the write-backs leave, every other buffer as before it. -/
def W4 (c : Dev nD) : Valuation τ sig (Elt F) :=
  Pipeline.withArrays spec2 c (W3 m c) fun w => (dat2 (V3 m) c).arrAt w cfg2.N
theorem W4_arr (c : Dev nD) (w : Fin cfg2.W) :
    W4 m c (Proc.devRef .tc (Pipeline.arrRef spec2 w)) = (dat2 (V3 m) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m c (Proc.devRef .tc b) = W3 m c (Proc.devRef .tc b) := by
  unfold W4; exact Pipeline.withArrays_of_ne spec2 c _ _ b hb
/-- The same read at the references. -/
abbrev V4 : (c : Dev nD) → (b : Ref sig .tc) → Buf (Elt F) ((c : Thread nD τ).loc b) := fun c b => W4 m c b
theorem hF2 (c : Dev nD) (w : Fin cfg2.W) : (dat2 (V3 m) c).arrAt w cfg2.N = V4 m c (Pipeline.arrRef spec2 w) :=
  (W4_arr m c w).symm
theorem hrest2 (c : Dev nD) : ∀ b, b ∉ Finset.univ.image (Pipeline.arrRef spec2) → V4 m c b = V3 m c b :=
  fun b hb => W4_of_ne m c b fun w e => hb (Finset.mem_image.mpr ⟨w, Finset.mem_univ _, e⟩)

/-! ## The arguments end as launched -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := W3_of_ne m c main_arg0 (by decide)
    _ = W1 m c (Proc.devRef .tc main_arg0) := (W2_arr m c 0).trans (((dat0 (V1 m) c).arrAt_in 0 rfl _).trans (A_eq0 (V1 m) c 0))
    _ = m ((c : Thread nD τ).loc main_arg0) := Gen.V1_of m c main_arg0 (by decide)

theorem W4_main_arg1 (c : Dev nD) : W4 m c (Proc.devRef .tc main_arg1) = m ((c : Thread nD τ).loc main_arg1) :=
  calc W4 m c (Proc.devRef .tc main_arg1)
    _ = W3 m c (Proc.devRef .tc main_arg1) := (W4_arr m c 0).trans (((dat2 (V3 m) c).arrAt_in 0 rfl _).trans (A_eq2 (V3 m) c 0))
    _ = W2 m c (Proc.devRef .tc main_arg1) := (W3_arr m c 0).trans (((dat1 (V2 m) c).arrAt_in 0 rfl _).trans (A_eq1 (V2 m) c 0))
    _ = W1 m c (Proc.devRef .tc main_arg1) := W2_of_ne m c main_arg1 (by decide)
    _ = m ((c : Thread nD τ).loc main_arg1) := Gen.V1_of m c main_arg1 (by decide)

theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := W3_of_ne m c main_arg2 (by decide)
    _ = W1 m c (Proc.devRef .tc main_arg2) := (W2_arr m c 1).trans (((dat0 (V1 m) c).arrAt_in 1 rfl _).trans (A_eq0 (V1 m) c 1))
    _ = m ((c : Thread nD τ).loc main_arg2) := Gen.V1_of m c main_arg2 (by decide)

theorem W4_main_arg3 (c : Dev nD) : W4 m c (Proc.devRef .tc main_arg3) = m ((c : Thread nD τ).loc main_arg3) :=
  calc W4 m c (Proc.devRef .tc main_arg3)
    _ = W3 m c (Proc.devRef .tc main_arg3) := W4_of_ne m c main_arg3 (by decide)
    _ = W2 m c (Proc.devRef .tc main_arg3) := W3_of_ne m c main_arg3 (by decide)
    _ = W1 m c (Proc.devRef .tc main_arg3) := W2_of_ne m c main_arg3 (by decide)
    _ = m ((c : Thread nD τ).loc main_arg3) := Gen.V1_of m c main_arg3 (by decide)

theorem W4_main_arg4 (c : Dev nD) : W4 m c (Proc.devRef .tc main_arg4) = m ((c : Thread nD τ).loc main_arg4) :=
  calc W4 m c (Proc.devRef .tc main_arg4)
    _ = W3 m c (Proc.devRef .tc main_arg4) := W4_of_ne m c main_arg4 (by decide)
    _ = W2 m c (Proc.devRef .tc main_arg4) := (W3_arr m c 3).trans (((dat1 (V2 m) c).arrAt_in 3 rfl _).trans (A_eq1 (V2 m) c 3))
    _ = W1 m c (Proc.devRef .tc main_arg4) := W2_of_ne m c main_arg4 (by decide)
    _ = m ((c : Thread nD τ).loc main_arg4) := Gen.V1_of m c main_arg4 (by decide)

theorem W4_main_arg5 (c : Dev nD) : W4 m c (Proc.devRef .tc main_arg5) = m ((c : Thread nD τ).loc main_arg5) :=
  calc W4 m c (Proc.devRef .tc main_arg5)
    _ = W3 m c (Proc.devRef .tc main_arg5) := W4_of_ne m c main_arg5 (by decide)
    _ = W2 m c (Proc.devRef .tc main_arg5) := W3_of_ne m c main_arg5 (by decide)
    _ = W1 m c (Proc.devRef .tc main_arg5) := W2_of_ne m c main_arg5 (by decide)
    _ = m ((c : Thread nD τ).loc main_arg5) := Gen.V1_of m c main_arg5 (by decide)

/-! ## The proof data family and the thread state -/

/-- No call has a prefetched table. -/
abbrev adm : (p : Fin 3) → (pcfgs (F := F) p).Adm := fun p => (cfgs p).toPCfg_adm
/-- Every call's proof data, each at its entry contents. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
  | ⟨2, _⟩ => fun c => dat2 (V3 m) c
abbrev 𝒱₀ : Variants := Variants.none
/-- No core owes another anything. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- The host stretch as an item, from the launch contents. -/
abbrev hseg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp Gen.hostOps0_fresh) op h) (W0 m) R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (W4 m c) ∗ ∃ r, prngReg c r)

/-! ## The calls as items -/

set_option backward.isDefEq.respectTransparency.types false in
/-- Call 0 over the thread state: entered from every unscoped buffer at `W1`, left at `W2`. Its arrays are split
    out of the unscoped buffers and put back at what the write-backs leave; the generator register goes into the
    call's invariant and comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 over the thread state: entered from every unscoped buffer at `W2`, left at `W3`. Its arrays are split
    out of the unscoped buffers and put back at what the write-backs leave; the generator register goes into the
    call's invariant and comes out; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 2 over the thread state: entered from every unscoped buffer at `W3`, left at `W4`. Its arrays are split
    out of the unscoped buffers and put back at what the write-backs leave; the generator register goes into the
    call's invariant and comes out; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m) c).loose
  hwaits := Pipeline.hwaits_of_owed_zero _ _ _ _ L lv 2 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V3 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V3 m c) (V4 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The launch -/

abbrev segs : List (Pipeline.Seg (pcfgs (F := F)) adm (pdats m) () defs₀ 𝒱₀ L lv) :=
  [ .host (hseg0 m), .region (reg0 m), .region (reg1 m), .region (reg2 m) ]
theorem main_run (c : Dev nD) : main (F := F) c = Pipeline.Seg.run (segs m) := (main_chain c).trans (by chain_rfl)

set_option backward.isDefEq.respectTransparency.types false in
/-- THE RUN: from any memory with zero counters every fair execution of the program terminates, nothing faulting,
    and ends with every buffer outside the calls' scratch space at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (W4_main_arg0 m c), (h c _ (mem_uc main_arg1 (by decide))).trans (W4_main_arg1 m c),
     (h c _ (mem_uc main_arg2 (by decide))).trans (W4_main_arg2 m c), (h c _ (mem_uc main_arg3 (by decide))).trans (W4_main_arg3 m c),
     (h c _ (mem_uc main_arg4 (by decide))).trans (W4_main_arg4 m c), (h c _ (mem_uc main_arg5 (by decide))).trans (W4_main_arg5 m c)⟩)
    (run_all m ρ)

end Cert.KernelIdeal.Hand

end
-- ==== Proof.Spec.lean ====
/-
  The two-layer graph convolution, as two functions of the six argument arrays.

  With X the node features (10000 × 256), A the dense adjacency (10000 × 10000), W1, B1 the first layer's weight
  (256 × 256) and bias, W2, B2 the second layer's (256 × 64) and bias, the network is
      out = logistic (A · (relu (A · (X · W1) + B1) · W2) + B2)
  row by row. `refOut` is that formula as written.

  `kOut` is the same network in the arrangement the blocked computation uses:
  * every small product U · V is taken as three products U·V + (U − U)·V + U·(V − V) (`split3`): the second and
    third vanish when the entries are real numbers, since then U − U = 0;
  * the adjacency is centred, A · S = (A − ½) · S + ½ · colsum S, the column sums accumulated block of rows by
    block of rows (five blocks of 2000 rows for the first layer, 25 blocks of 400 for the second), the first
    layer's bias folded into the first block's partial sum;
  * the second layer adds ½ · colsum G and then the bias.
  Over the extended reals the two agree when every entry of the six arrays is a real number.
-/
import Idealize.ShloMosaic.PureOps.Ideal
import Idealize.ShloMosaic.Lib.ValueIdx

noncomputable section

open scoped BigOperators

namespace Cert.Gcn

open Idealize.ShloMosaic Idealize.ShloMosaic.ValueIdx

/-- One half, as an extended real. -/
def hlf : EReal := ((1 / 2 : ℝ) : EReal)

/-- A rank-two array as a function of its row and its column. -/
def cur2 {M N : ℕ} (v : (⟨2, ![M, N]⟩ : Shape).Idx → EReal) : Fin M → Fin N → EReal := fun p q => v (ix2 p q)
/-- A rank-one array as a function of its position. -/
def cur1 {N : ℕ} (v : (⟨1, ![N]⟩ : Shape).Idx → EReal) : Fin N → EReal := fun q => v (ix1 q)
/-- A one-row array as a function of its column. -/
def row1 {N : ℕ} (v : (⟨2, ![1, N]⟩ : Shape).Idx → EReal) : Fin N → EReal := fun q => v (ix2 (0 : Fin 1) q)

/-- A product of two matrices taken as three: U·V + (U − U)·V + U·(V − V), at entry (p, q). -/
def split3 {M K N : ℕ} (a : Fin M → Fin K → EReal) (b : Fin K → Fin N → EReal) (p : Fin M) (q : Fin N) : EReal :=
  ((∑ k : Fin K, a p k * b k q) + (∑ k : Fin K, (a p k - a p k) * b k q)) + (∑ k : Fin K, a p k * (b k q - b k q))

/-- Row `p` of the `t`-th block of `B` consecutive rows of a 10000-row array. -/
def blockRow (B : ℕ) (t : ℕ) (p : Fin B) : Fin 10000 := ⟨(B * t + p.val) % 10000, Nat.mod_lt _ (by norm_num)⟩

section

variable (X : Fin 10000 → Fin 256 → EReal) (A : Fin 10000 → Fin 10000 → EReal) (W1 : Fin 256 → Fin 256 → EReal)
  (B1 : Fin 256 → EReal) (W2 : Fin 256 → Fin 64 → EReal) (B2 : Fin 64 → EReal)

/-! ## The network as written -/

/-- X · W1. -/
def refS (n : Fin 10000) (c : Fin 256) : EReal := ∑ f : Fin 256, X n f * W1 f c
/-- relu (A · (X · W1) + B1). -/
def refH (n : Fin 10000) (c : Fin 256) : EReal := max ((∑ k : Fin 10000, A n k * refS X W1 k c) + B1 c) 0
/-- relu (…) · W2. -/
def refG (n : Fin 10000) (j : Fin 64) : EReal := ∑ l : Fin 256, refH X A W1 B1 n l * W2 l j
/-- logistic (A · (…) + B2). -/
def refOut (n : Fin 10000) (j : Fin 64) : EReal :=
  Ideal.logistic ((∑ k : Fin 10000, A n k * refG X A W1 B1 W2 k j) + B2 j)

/-! ## The blocked arrangement -/

/-- X · W1 as three products. -/
def kS (n : Fin 10000) (c : Fin 256) : EReal := split3 X W1 n c
/-- Half the column sums of block `t` (2000 rows) of X · W1. -/
def kPsum (t : ℕ) (c : Fin 256) : EReal := hlf * ∑ p : Fin 2000, kS X W1 (blockRow 2000 t p) c
/-- The correction row after blocks 0 … t: the first block's half column sums plus the bias, then each later
    block's half column sums added on the right. -/
def kCorrAt : ℕ → Fin 256 → EReal
  | 0, c => kPsum X W1 0 c + B1 c
  | t + 1, c => kCorrAt t c + kPsum X W1 (t + 1) c
/-- The correction row after all five blocks: ½ · colsum (X · W1) + B1. -/
def kCorr (c : Fin 256) : EReal := kCorrAt X W1 B1 4 c
/-- relu ((A − ½) · (X · W1) + correction). -/
def kH (n : Fin 10000) (l : Fin 256) : EReal :=
  max ((∑ k : Fin 10000, (A n k - hlf) * kS X W1 k l) + kCorr X W1 B1 l) 0
/-- relu (…) · W2 as three products. -/
def kG (n : Fin 10000) (j : Fin 64) : EReal := split3 (kH X A W1 B1) W2 n j
/-- The column sums of block `t` (400 rows) of that. -/
def kGps (t : ℕ) (j : Fin 64) : EReal := ∑ p : Fin 400, kG X A W1 B1 W2 (blockRow 400 t p) j
/-- The column sums accumulated over blocks 0 … t. -/
def kGsAt : ℕ → Fin 64 → EReal
  | 0, j => kGps X A W1 B1 W2 0 j
  | t + 1, j => kGsAt t j + kGps X A W1 B1 W2 (t + 1) j
/-- The column sums over all 25 blocks. -/
def kGsum (j : Fin 64) : EReal := kGsAt X A W1 B1 W2 24 j
/-- logistic ((A − ½) · (…) + ½ · colsum + B2). -/
def kOut (n : Fin 10000) (j : Fin 64) : EReal :=
  Ideal.logistic (((∑ k : Fin 10000, (A n k - hlf) * kG X A W1 B1 W2 k j) + hlf * kGsum X A W1 B1 W2 j) + B2 j)

end

end Cert.Gcn

end
-- ==== Proof.Spec2.lean ====
/-
  The blocked arrangement, call by call.

  The second call computes, from the adjacency A, a product array S, a correction row `corr` and the second weight
  matrix, the rectified hidden rows, their product with the weights (as three products) and its column sums
  accumulated over 25 blocks of 400 rows; the third computes the logistic output from A, that product G, its
  column sums and the bias row. Here each is a function of the arrays the call is handed, so that it can be stated
  for one call alone; with the first call's results for S and `corr` they are the blocked network of the
  specification, by unfolding.
-/
import proofs.«173031_g128849019522_cont_9to1_m_876_7_alg».proof.Proof.Spec

noncomputable section

open scoped BigOperators

namespace Cert.Gcn

open Idealize.ShloMosaic

section

variable (A : Fin 10000 → Fin 10000 → EReal) (S : Fin 10000 → Fin 256 → EReal) (corr : Fin 256 → EReal)
  (W2 : Fin 256 → Fin 64 → EReal)

/-- relu ((A − ½) · S + corr). -/
def gH (n : Fin 10000) (l : Fin 256) : EReal := max ((∑ k : Fin 10000, (A n k - hlf) * S k l) + corr l) 0
/-- relu (…) · W2 as three products. -/
def gG (n : Fin 10000) (j : Fin 64) : EReal := split3 (gH A S corr) W2 n j
/-- The column sums of block `t` (400 rows) of that. -/
def gGps (t : ℕ) (j : Fin 64) : EReal := ∑ p : Fin 400, gG A S corr W2 (blockRow 400 t p) j
/-- The column sums accumulated over blocks 0 … t. -/
def gGsAt : ℕ → Fin 64 → EReal
  | 0, j => gGps A S corr W2 0 j
  | t + 1, j => gGsAt t j + gGps A S corr W2 (t + 1) j
/-- The column sums over all 25 blocks. -/
def gGsum (j : Fin 64) : EReal := gGsAt A S corr W2 24 j

end

/-- logistic ((A − ½) · G + ½ · gs + b). -/
def gOut (A : Fin 10000 → Fin 10000 → EReal) (G : Fin 10000 → Fin 64 → EReal) (gs b : Fin 64 → EReal)
    (n : Fin 10000) (j : Fin 64) : EReal :=
  Ideal.logistic (((∑ k : Fin 10000, (A n k - hlf) * G k j) + hlf * gs j) + b j)

section

variable (X : Fin 10000 → Fin 256 → EReal) (A : Fin 10000 → Fin 10000 → EReal) (W1 : Fin 256 → Fin 256 → EReal)
  (B1 : Fin 256 → EReal) (W2 : Fin 256 → Fin 64 → EReal) (B2 : Fin 64 → EReal)

theorem kH_eq_g : kH X A W1 B1 = gH A (kS X W1) (kCorr X W1 B1) := rfl
theorem kG_eq_g : kG X A W1 B1 W2 = gG A (kS X W1) (kCorr X W1 B1) W2 := rfl
theorem kGps_eq_g : kGps X A W1 B1 W2 = gGps A (kS X W1) (kCorr X W1 B1) W2 := rfl
theorem kGsAt_eq_g (t : ℕ) : kGsAt X A W1 B1 W2 t = gGsAt A (kS X W1) (kCorr X W1 B1) W2 t := by
  induction t with
  | zero => rfl
  | succ t ih => funext j; show kGsAt X A W1 B1 W2 t j + _ = gGsAt _ _ _ _ t j + _; rw [ih]; rfl
theorem kGsum_eq_g : kGsum X A W1 B1 W2 = gGsum A (kS X W1) (kCorr X W1 B1) W2 := kGsAt_eq_g X A W1 B1 W2 24
theorem kOut_eq_g : kOut X A W1 B1 W2 B2
    = gOut A (gG A (kS X W1) (kCorr X W1 B1) W2) (gGsum A (kS X W1) (kCorr X W1 B1) W2) B2 := by
  funext n j
  show Ideal.logistic (((∑ k : Fin 10000, (A n k - hlf) * kG X A W1 B1 W2 k j) + hlf * kGsum X A W1 B1 W2 j) + B2 j) = _
  rw [kGsum_eq_g]; rfl

end

end Cert.Gcn

end
-- ==== Proof.Boundary.lean ====
/-
  Reading buffers back through the program's boundaries, at the exact values.

  What each call is handed is what an earlier item left: an argument array is never written, so every call finds
  it as launched; the two one-row bias arrays are the host's reshapes of the two bias vectors; the second call
  finds the first call's two results, the third the second's. These are the equations that chain the three calls'
  values into one function of the six argument arrays.
-/
import proofs.«173031_g128849019522_cont_9to1_m_876_7_alg».proof.Proof.Run
import proofs.«173031_g128849019522_cont_9to1_m_876_7_alg».proof.Proof.Spec2
import Idealize.ShloMosaic.Lib.Pipeline.Value
import Idealize.ShloMosaic.Lib.ValueLayout
import Idealize.ShloMosaic.Lib.StableHlo.Run

set_option maxRecDepth 16384

noncomputable section

open scoped BigOperators

namespace Cert.KernelIdeal.HandValue

open Cert.KernelIdeal Cert.KernelIdeal.Gen Cert.KernelIdeal.Hand Cert.Gcn
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-! ## Curried readings of arrays given by their entries -/

theorem cur2_mk {M N : ℕ} (f : Fin M → Fin N → EReal) : cur2 (fun i : (⟨2, ![M, N]⟩ : Shape).Idx => f (i 0) (i 1)) = f := rfl
theorem row1_mk {N : ℕ} (g : Fin N → EReal) : row1 (fun i : (⟨2, ![1, N]⟩ : Shape).Idx => g (i 1)) = g := rfl

/-! ## After the host stretch -/

theorem V1_arg0 (c : Dev nD) : Hand.V1 m c main_arg0 = m ((c : Thread nD τ).loc main_arg0) := Gen.V1_of m c main_arg0 (by decide)
theorem V1_arg1 (c : Dev nD) : Hand.V1 m c main_arg1 = m ((c : Thread nD τ).loc main_arg1) := Gen.V1_of m c main_arg1 (by decide)
theorem V1_arg2 (c : Dev nD) : Hand.V1 m c main_arg2 = m ((c : Thread nD τ).loc main_arg2) := Gen.V1_of m c main_arg2 (by decide)
theorem V1_arg4 (c : Dev nD) : Hand.V1 m c main_arg4 = m ((c : Thread nD τ).loc main_arg4) := Gen.V1_of m c main_arg4 (by decide)

/-- The first bias vector as a one-row array. -/
theorem V1_v0 (c : Dev nD) : (Hand.V1 m c main_v0 : S1x256.Idx → EReal)
    = shapeCast S1x256 (m ((c : Thread nD τ).loc main_arg3)) Facts₀.shapeCasts_S256_S1x256 := by
  dsimp only [Hand.V1, Hand.W1, Hand.W0, Gen.V0, hostOps0]; after_results; rfl
/-- The second bias vector as a one-row array. -/
theorem V1_v1 (c : Dev nD) : (Hand.V1 m c main_v1 : S1x64.Idx → EReal)
    = shapeCast S1x64 (m ((c : Thread nD τ).loc main_arg5)) Facts₀.shapeCasts_S64_S1x64 := by
  dsimp only [Hand.V1, Hand.W1, Hand.W0, Gen.V0, hostOps0]; after_results; rfl

/-- A vector viewed as a one-row array reads, at column q, the vector at q. -/
theorem row1_shapeCast {N : ℕ} (b : (⟨1, ![N]⟩ : Shape).Idx → EReal) (hc : (⟨1, ![N]⟩ : Shape).ShapeCasts ⟨2, ![1, N]⟩) :
    row1 (shapeCast ⟨2, ![1, N]⟩ b hc) = cur1 b := by
  funext q
  show shapeCast ⟨2, ![1, N]⟩ b hc (ix2 (0 : Fin 1) q) = b (ix1 q)
  refine (shapeCast_addUnit_apply ![N] b hc (ix2 (0 : Fin 1) q)).trans (congrArg b ?_)
  funext a
  match a with
  | ⟨0, _⟩ => rfl

theorem row1_V1_v0 (c : Dev nD) : row1 (N := 256) (Hand.V1 m c main_v0) = cur1 (N := 256) (m ((c : Thread nD τ).loc main_arg3)) := by
  rw [V1_v0]; exact row1_shapeCast _ _
theorem row1_V1_v1 (c : Dev nD) : row1 (N := 64) (Hand.V1 m c main_v1) = cur1 (N := 64) (m ((c : Thread nD τ).loc main_arg5)) := by
  rw [V1_v1]; exact row1_shapeCast _ _

/-! ## After the first call -/

theorem V2_arg1 (c : Dev nD) : Hand.V2 m c main_arg1 = m ((c : Thread nD τ).loc main_arg1) :=
  (W2_of_ne m c main_arg1 (by decide)).trans (V1_arg1 m c)
theorem V2_arg4 (c : Dev nD) : Hand.V2 m c main_arg4 = m ((c : Thread nD τ).loc main_arg4) :=
  (W2_of_ne m c main_arg4 (by decide)).trans (V1_arg4 m c)
theorem V2_v1 (c : Dev nD) : Hand.V2 m c main_v1 = Hand.V1 m c main_v1 := W2_of_ne m c main_v1 (by decide)
theorem V2_v2_0 (c : Dev nD) : Hand.V2 m c main_v2_0 = (dat0 (Hand.V1 m) c).arrAt 3 cfg0.N := W2_arr m c 3
theorem V2_v2_1 (c : Dev nD) : Hand.V2 m c main_v2_1 = (dat0 (Hand.V1 m) c).arrAt 4 cfg0.N := W2_arr m c 4

/-! ## After the second call -/

theorem V3_arg1 (c : Dev nD) : Hand.V3 m c main_arg1 = m ((c : Thread nD τ).loc main_arg1) :=
  ((W3_arr m c 0).trans (((dat1 (Hand.V2 m) c).arrAt_in 0 rfl _).trans (A_eq1 (Hand.V2 m) c 0))).trans (V2_arg1 m c)
theorem V3_v1 (c : Dev nD) : Hand.V3 m c main_v1 = Hand.V1 m c main_v1 := (W3_of_ne m c main_v1 (by decide)).trans (V2_v1 m c)
theorem V3_v3_0 (c : Dev nD) : Hand.V3 m c main_v3_0 = (dat1 (Hand.V2 m) c).arrAt 4 cfg1.N := W3_arr m c 4
theorem V3_v3_1 (c : Dev nD) : Hand.V3 m c main_v3_1 = (dat1 (Hand.V2 m) c).arrAt 5 cfg1.N := W3_arr m c 5

/-! ## After the third call -/

theorem W4_v4 (c : Dev nD) : W4 m c (Proc.devRef .tc main_v4) = (dat2 (Hand.V3 m) c).arrAt 4 cfg2.N := W4_arr m c 4

end Cert.KernelIdeal.HandValue

end
-- ==== Proof.LibPlainDot.lean ====
/-
  A plain matrix product read at one entry.

  For the dimension numbers of an `M × K` by `K × N` product (the left operand contracted on its columns, the
  right on its rows, no batch axis) the entry at row `p`, column `q` of a `tpu.matmul` into the zero
  accumulator, and of the host's `dot_general`, is at the ideal values the sum over `k` of the left operand at
  `(p, k)` times the right operand at `(k, q)`. The contraction index of the dimension numbers is re-indexed by
  its one coordinate, so the sum runs over the literal `Fin K`.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable {M K N : Nat}

/-- The left operand's index at output entry `(p, q)` and contraction position `k` is `(p, k)`. -/
theorem lhsIdx_plain (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl (ix2 p q) _).trans hk

/-- The right operand's index at output entry `(p, q)` and contraction position `k` is `(k, q)`. -/
theorem rhsIdx_plain (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single rfl (ix2 p q) _).trans hk
  | ⟨1, _⟩ => rfl

/-- A `tpu.matmul` into the zero accumulator, at entry `(p, q)`. -/
theorem matmul_zero_apply {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  exact Finset.sum_congr rfl fun k _ => by rw [lhsIdx_plain, rhsIdx_plain]

/-- The host's `dot_general`, at entry `(p, q)`. -/
theorem dotGeneral_apply {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) := by
  rw [Ideal.dotGeneral_apply, ← Equiv.sum_comp (contrEquiv1 (DotDims.plain M K N) K rfl rfl).symm]
  exact Finset.sum_congr rfl fun k _ => by rw [lhsIdx_plain, rhsIdx_plain]

end Cert.Lib.PlainDot

end
-- ==== Proof.Payloads.lean ====
/-
  The arithmetic of the three kernel bodies, read entry by entry at the exact (extended-real) values.

  Each body computes a short chain of vector operations. At the exact values a change of float format is the
  identity, a matrix product into a zero accumulator is a finite sum of products, a reduction over the rows is a
  finite sum, a row broadcast reads the one row, and a cast that only adds a unit axis reads the same entry. So
  each chain, at one entry, is a closed formula in the entries of the arrays it read: the three-product form of
  a small matrix product, half a column sum, a centred adjacency product plus a correction row and a rectifier,
  or a logistic.
-/
import proofs.«173031_g128849019522_cont_9to1_m_876_7_alg».proof.Proof.Spec
import proofs.«173031_g128849019522_cont_9to1_m_876_7_alg».proof.Proof.LibPlainDot
import proofs.«173031_g128849019522_cont_9to1_m_876_7_alg».proof.Proof.Gen.KernelIdeal.Skeleton
import Idealize.ShloMosaic.Lib.ValueLayout
import Idealize.ShloMosaic.Lib.Pipeline.Value

noncomputable section

open scoped BigOperators

namespace Cert.Gcn.Payloads

open Cert.Gcn Cert.KernelIdeal Cert.KernelIdeal.Gen Idealize.ShloMosaic Idealize.ShloMosaic.ValueIdx

/-! ## The two literals -/

/-- The word of one half denotes one half. -/
theorem half : (Scalar.ofBits .f32 0x3F000000#32 : Ideal .f32) = hlf := by
  show Ideal.ofBits .f32 0x3F000000#32 = hlf
  unfold hlf
  simp [Ideal.ofBits, Ideal.ieee, -EReal.coe_mul]; norm_num

/-- The zero word denotes zero. -/
theorem zero : (Scalar.ofBits .f32 0x00000000#32 : Ideal .f32) = 0 := Ideal.ofBits_zero_f32

/-! ## The first body: the feature product and its half column sums -/

/-- The feature block times the weight, taken as three products, at one entry. -/
theorem pay1 (v0 : Vec Ideal S2000x256 .f32) (v1 : Vec Ideal S256x256 .f32) (p : Fin 2000) (c : Fin 256) :
    k0_pay1 (F := Ideal) v0 v1 (ix2 p c) = split3 (cur2 v0) (cur2 v1) p c := by
  unfold k0_pay1
  show (FloatOps.matmul (F := Ideal) (DotDims.plain 2000 256 256) none _ _ (constant ⟨2, ![2000, 256]⟩ .f32 0x00000000#32) (ix2 p c)
      + FloatOps.matmul (F := Ideal) (DotDims.plain 2000 256 256) none _ _ (constant ⟨2, ![2000, 256]⟩ .f32 0x00000000#32) (ix2 p c))
      + FloatOps.matmul (F := Ideal) (DotDims.plain 2000 256 256) none _ _ (constant ⟨2, ![2000, 256]⟩ .f32 0x00000000#32) (ix2 p c) = _
  rw [Cert.Lib.PlainDot.matmul_zero_apply, Cert.Lib.PlainDot.matmul_zero_apply, Cert.Lib.PlainDot.matmul_zero_apply]
  rfl

/-- The stored copy of the product is the product: a change of format is the identity at the exact values. -/
theorem pay2 (v0 : Vec Ideal S2000x256 .f32) (v1 : Vec Ideal S256x256 .f32) (i : S2000x256.Idx) :
    k0_pay2 (F := Ideal) v0 v1 i = k0_pay1 (F := Ideal) v0 v1 i := rfl

/-- Half the column sums of the product block: the sum over the 2000 rows, read through the cast that adds a
    unit axis, times one half. -/
theorem pay3 (v0 : Vec Ideal S2000x256 .f32) (v1 : Vec Ideal S256x256 .f32) (c : Fin 256) :
    k0_pay3 (F := Ideal) v0 v1 (ix2 (0 : Fin 1) c) = hlf * ∑ p : Fin 2000, k0_pay1 (F := Ideal) v0 v1 (ix2 p c) := by
  unfold k0_pay3
  show Scalar.ofBits .f32 0x3F000000#32 * shapeCast ⟨2, ![1, 256]⟩ _ _ (ix2 (0 : Fin 1) c) = _
  rw [half, shapeCast_a_1a_apply]
  refine congrArg (hlf * ·) ?_
  refine (Ideal.multiReduction_add_single (k0_pay1 (F := Ideal) v0 v1) 0x00000000#32 reduces_S2000x256_S256 (.inl rfl) rfl (ix1 c)).trans ?_
  refine Finset.sum_congr rfl fun k _ => congrArg (k0_pay1 (F := Ideal) v0 v1) ?_
  funext a
  apply Fin.ext
  match a with
  | ⟨0, _⟩ => rfl
  | ⟨1, _⟩ => rfl

/-- The first block's correction row: its half column sums plus the row already there (the bias). -/
theorem pay4 (v0 : Vec Ideal S2000x256 .f32) (v1 : Vec Ideal S256x256 .f32) (v27 : Vec Ideal S1x256 .f32) (c : Fin 256) :
    k0_pay4 (F := Ideal) v0 v1 v27 (ix2 (0 : Fin 1) c)
      = k0_pay3 (F := Ideal) v0 v1 (ix2 (0 : Fin 1) c) + v27 (ix2 (0 : Fin 1) c) := by
  unfold k0_pay4
  rw [shapeCast_self]
  rfl

/-- A later block's correction row: the row accumulated so far plus this block's half column sums. -/
theorem pay5 (v0 : Vec Ideal S2000x256 .f32) (v1 : Vec Ideal S256x256 .f32) (v27 : Vec Ideal S1x256 .f32) (c : Fin 256) :
    k0_pay5 (F := Ideal) v0 v1 v27 (ix2 (0 : Fin 1) c)
      = v27 (ix2 (0 : Fin 1) c) + k0_pay3 (F := Ideal) v0 v1 (ix2 (0 : Fin 1) c) := by
  unfold k0_pay5
  rw [shapeCast_self]
  rfl

/-! ## The first layer's body -/

/-- The rectified hidden block: the centred adjacency block times the stored product, plus the correction row
    broadcast down the rows, cut off below at zero. -/
def hidden (v0 : FVec Ideal S400x10000 .f32) (v4 : FVec Ideal S10000x256 .bf16) (v7 : FVec Ideal S1x256 .f32) :
    FVec Ideal S400x256 .f32 :=
  maximumf
    (addf
      (FloatOps.matmul (F := Ideal) (DotDims.plain 400 10000 256) none
        (truncf .bf16 (subf v0 (broadcast S400x10000 (Scalar.ofBits .f32 0x3F000000#32))) bitsLt_bf16_f32)
        (shapeCast S10000x256 v4 shapeCasts_S10000x256_S10000x256) (constant S400x256 .f32 0x00000000#32))
      (broadcastTo S400x256 (shapeCast S1x256 v7 shapeCasts_S1x256_S1x256) broadcasts_S1x256_S400x256))
    (broadcast S400x256 (Scalar.ofBits .f32 0x00000000#32))

/-- The hidden block at one entry. -/
theorem hidden_apply (v0 : FVec Ideal S400x10000 .f32) (v4 : FVec Ideal S10000x256 .bf16) (v7 : FVec Ideal S1x256 .f32)
    (p : Fin 400) (l : Fin 256) :
    hidden v0 v4 v7 (ix2 p l)
      = max ((∑ k : Fin 10000, (v0 (ix2 p k) - hlf) * v4 (ix2 k l)) + v7 (ix2 (0 : Fin 1) l)) 0 := by
  unfold hidden
  simp only [shapeCast_self]
  show max (FloatOps.matmul (F := Ideal) (DotDims.plain 400 10000 256) none _ _ (constant ⟨2, ![400, 256]⟩ .f32 0x00000000#32) (ix2 p l)
      + broadcastTo ⟨2, ![400, 256]⟩ _ _ (ix2 p l)) (Scalar.ofBits .f32 0x00000000#32) = _
  rw [Cert.Lib.PlainDot.matmul_zero_apply, broadcastTo_1b_ab_apply, zero]
  simp only [truncf_apply, subf_apply, broadcast_apply, half]

/-- The body's product block is the three-product form of the hidden block times the second weight. -/
theorem k1pay2_eq (v0 : Vec Ideal S400x10000 .f32) (v4 : Vec Ideal S10000x256 .bf16) (v7 : Vec Ideal S1x256 .f32)
    (v13 : Vec Ideal S256x64 .f32) :
    k1_pay2 (F := Ideal) v0 v4 v7 v13
      = addf (addf
          (FloatOps.matmul (F := Ideal) (DotDims.plain 400 256 64) none
            (truncf .bf16 (hidden v0 v4 v7) bitsLt_bf16_f32) (truncf .bf16 (v13 : FVec Ideal S256x64 .f32) bitsLt_bf16_f32) (constant S400x64 .f32 0x00000000#32))
          (FloatOps.matmul (F := Ideal) (DotDims.plain 400 256 64) none
            (truncf .bf16 (subf (hidden v0 v4 v7) (hidden v0 v4 v7)) bitsLt_bf16_f32) (truncf .bf16 (v13 : FVec Ideal S256x64 .f32) bitsLt_bf16_f32) (constant S400x64 .f32 0x00000000#32)))
          (FloatOps.matmul (F := Ideal) (DotDims.plain 400 256 64) none
            (truncf .bf16 (hidden v0 v4 v7) bitsLt_bf16_f32) (truncf .bf16 (subf (v13 : FVec Ideal S256x64 .f32) v13) bitsLt_bf16_f32) (constant S400x64 .f32 0x00000000#32)) := rfl

/-- The first layer's product block at one entry. -/
theorem k1pay2 (v0 : Vec Ideal S400x10000 .f32) (v4 : Vec Ideal S10000x256 .bf16) (v7 : Vec Ideal S1x256 .f32)
    (v13 : Vec Ideal S256x64 .f32) (p : Fin 400) (j : Fin 64) :
    k1_pay2 (F := Ideal) v0 v4 v7 v13 (ix2 p j)
      = split3 (fun (p : Fin 400) (l : Fin 256) =>
          max ((∑ k : Fin 10000, (v0 (ix2 p k) - hlf) * v4 (ix2 k l)) + v7 (ix2 (0 : Fin 1) l)) 0) (cur2 v13) p j := by
  rw [k1pay2_eq]
  show (FloatOps.matmul (F := Ideal) (DotDims.plain 400 256 64) none _ _ (constant ⟨2, ![400, 64]⟩ .f32 0x00000000#32) (ix2 p j)
      + FloatOps.matmul (F := Ideal) (DotDims.plain 400 256 64) none _ _ (constant ⟨2, ![400, 64]⟩ .f32 0x00000000#32) (ix2 p j))
      + FloatOps.matmul (F := Ideal) (DotDims.plain 400 256 64) none _ _ (constant ⟨2, ![400, 64]⟩ .f32 0x00000000#32) (ix2 p j) = _
  rw [Cert.Lib.PlainDot.matmul_zero_apply, Cert.Lib.PlainDot.matmul_zero_apply, Cert.Lib.PlainDot.matmul_zero_apply]
  simp only [truncf_apply, subf_apply, hidden_apply]
  rfl

/-- The stored copy of the product block is the product block. -/
theorem k1pay3 (v0 : Vec Ideal S400x10000 .f32) (v4 : Vec Ideal S10000x256 .bf16) (v7 : Vec Ideal S1x256 .f32)
    (v13 : Vec Ideal S256x64 .f32) (i : S400x64.Idx) :
    k1_pay3 (F := Ideal) v0 v4 v7 v13 i = k1_pay2 (F := Ideal) v0 v4 v7 v13 i := rfl

/-- The column sums of the product block: the sum over its 400 rows. -/
theorem k1pay4 (v0 : Vec Ideal S400x10000 .f32) (v4 : Vec Ideal S10000x256 .bf16) (v7 : Vec Ideal S1x256 .f32)
    (v13 : Vec Ideal S256x64 .f32) (j : Fin 64) :
    k1_pay4 (F := Ideal) v0 v4 v7 v13 (ix2 (0 : Fin 1) j) = ∑ p : Fin 400, k1_pay2 (F := Ideal) v0 v4 v7 v13 (ix2 p j) := by
  unfold k1_pay4
  show shapeCast ⟨2, ![1, 64]⟩ _ _ (ix2 (0 : Fin 1) j) = _
  rw [shapeCast_a_1a_apply]
  refine (Ideal.multiReduction_add_single (k1_pay2 (F := Ideal) v0 v4 v7 v13) 0x00000000#32 reduces_S400x64_S64 (.inl rfl) rfl (ix1 j)).trans ?_
  refine Finset.sum_congr rfl fun k _ => congrArg (k1_pay2 (F := Ideal) v0 v4 v7 v13) ?_
  funext a
  apply Fin.ext
  match a with
  | ⟨0, _⟩ => rfl
  | ⟨1, _⟩ => rfl

/-- A later block's accumulated column sums: the row accumulated so far plus this block's column sums. -/
theorem k1pay1 (v30 : FVec Ideal S1x64 .f32) (v37 : Vec Ideal S1x64 .f32) (j : Fin 64) :
    k1_pay1 (F := Ideal) v30 v37 (ix2 (0 : Fin 1) j) = v37 (ix2 (0 : Fin 1) j) + v30 (ix2 (0 : Fin 1) j) := by
  unfold k1_pay1
  rw [shapeCast_self]
  rfl

/-! ## The second layer's body -/

/-- The second layer's body at one entry: the logistic of the centred adjacency row times the column, plus half
    the column-sum row, plus the bias row. -/
theorem k2pay1 (v0 : Vec Ideal S400x10000 .f32) (v4 : Vec Ideal S10000x64 .bf16) (v7 v13 : Vec Ideal S1x64 .f32)
    (p : Fin 400) (j : Fin 64) :
    k2_pay1 (F := Ideal) v0 v4 v7 v13 (ix2 p j)
      = Ideal.logistic (((∑ k : Fin 10000, (v0 (ix2 p k) - hlf) * v4 (ix2 k j)) + hlf * v7 (ix2 (0 : Fin 1) j))
          + v13 (ix2 (0 : Fin 1) j)) := by
  unfold k2_pay1
  simp only [shapeCast_self]
  show Ideal.logistic ((FloatOps.matmul (F := Ideal) (DotDims.plain 400 10000 64) none _ _ (constant ⟨2, ![400, 64]⟩ .f32 0x00000000#32) (ix2 p j)
      + broadcastTo ⟨2, ![400, 64]⟩ _ _ (ix2 p j)) + broadcastTo ⟨2, ![400, 64]⟩ _ _ (ix2 p j)) = _
  rw [Cert.Lib.PlainDot.matmul_zero_apply, broadcastTo_1b_ab_apply, broadcastTo_1b_ab_apply]
  simp only [truncf_apply, subf_apply, broadcast_apply, mulf_apply, half]

end Cert.Gcn.Payloads

end
-- ==== Proof.ValueR0.lean ====
/-
  The first call, read as mathematics: at the exact (extended-real) values, the product array it leaves is the
  three-product form of the features times the first weight matrix, row by row, and the one-row array it leaves
  is half the column sums of that product, accumulated block of rows by block of rows, plus the bias row.
-/
import proofs.«173031_g128849019522_cont_9to1_m_876_7_alg».proof.Proof.Spec
import proofs.«173031_g128849019522_cont_9to1_m_876_7_alg».proof.Proof.Spec2
import proofs.«173031_g128849019522_cont_9to1_m_876_7_alg».proof.Proof.Payloads
import proofs.«173031_g128849019522_cont_9to1_m_876_7_alg».proof.Proof.FrameR0
import Idealize.ShloMosaic.Lib.Pipeline.Value

set_option maxRecDepth 16384

noncomputable section

open scoped BigOperators

namespace Cert.KernelIdeal.HandValue.R0

open Cert.KernelIdeal Cert.KernelIdeal.Gen Cert.KernelIdeal.Hand Cert.Gcn Cert.Gcn.Payloads
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The product block's staging buffer is the payload of the staged blocks. -/
theorem out0_s_eq (x0 : Vec Ideal S2000x256 .f32) (x1 : Vec Ideal S256x256 .f32) :
    out0_s (F := Ideal) x0 x1 = k0_pay2 (F := Ideal) x0 x1 := by
  unfold out0_s
  rw [View.canon_unit_zero hz]
  simp only [View.ld_unit_zero (S := S2000x256) hz, View.ld_unit_zero (S := S256x256) hz]

theorem out0_cA_eq (x0 : Vec Ideal S2000x256 .f32) (x1 : Vec Ideal S256x256 .f32) (x2 : Vec Ideal S1x256 .f32) :
    out0_cA (F := Ideal) x0 x1 x2 = k0_pay4 (F := Ideal) x0 x1 x2 := by
  unfold out0_cA
  rw [View.canon_unit_zero hz]
  simp only [View.ld_unit_zero (S := S2000x256) hz, View.ld_unit_zero (S := S256x256) hz, View.ld_unit_zero (S := S1x256) hz]

theorem out0_cB_eq (x0 : Vec Ideal S2000x256 .f32) (x1 : Vec Ideal S256x256 .f32) (xo : Vec Ideal S1x256 .f32) :
    out0_cB (F := Ideal) x0 x1 xo = k0_pay5 (F := Ideal) x0 x1 xo := by
  unfold out0_cB
  rw [View.canon_unit_zero hz]
  simp only [View.ld_unit_zero (S := S2000x256) hz, View.ld_unit_zero (S := S256x256) hz, View.ld_unit_zero (S := S1x256) hz]

/-- The index maps, decided over the five points. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0 :=
  (by decide +kernel : ∀ t : Fin grid0.N, _)

example : Pipeline.arrRef spec0 0 = main_arg0 := rfl
example : Pipeline.arrRef spec0 1 = main_arg2 := rfl
example : Pipeline.arrRef spec0 2 = main_v0 := rfl
example : Pipeline.arrRef spec0 3 = main_v2_0 := rfl
example : Pipeline.arrRef spec0 4 = main_v2_1 := rfl

theorem N5 : cfg0.N = 5 := N_0

/-- A row of block `t` of the 10000 rows, for `t` one of the five points. -/
theorem blockRow_val (t : Fin cfg0.N) (p : Fin 2000) : (blockRow 2000 t.val p).val = t.val * 2000 + p.val := by
  have ht : t.val < 5 := lt_of_lt_of_eq t.isLt N5
  have hp : p.val < 2000 := p.isLt
  show (2000 * t.val + p.val) % 10000 = _
  rw [Nat.mod_eq_of_lt (by omega)]; omega

/-- The features block at point `t`, row `p`: row `p` of block `t` of the features. -/
theorem iblk0_0_cur (c : Dev nD) (t : Fin cfg0.N) (p : Fin 2000) (k : Fin 256) :
    cur2 (iblk0 (F := Ideal) V c 0 t : Vec Ideal S2000x256 .f32) p k = cur2 (V c main_arg0) (blockRow 2000 t.val p) k := by
  obtain ⟨e00, e01, -⟩ := idx_facts t
  have hb := blockRow_val t p
  show V c main_arg0 (((cfg0.win 0).blk t).view.emb (ix2 p k)) = V c main_arg0 (ix2 (blockRow 2000 t.val p) k)
  refine congrArg (V c main_arg0) ?_
  funext a; apply Fin.ext
  match a with
  | ⟨0, _⟩ => show win0_0.index t (0 : Fin 2) * 2000 + 1 * p.val = (blockRow 2000 t.val p).val; omega
  | ⟨1, _⟩ => show win0_0.index t (1 : Fin 2) * 256 + 1 * k.val = k.val; omega

/-- The weight block at any point is the whole weight matrix. -/
theorem iblk0_1_cur (c : Dev nD) (t : Fin cfg0.N) (p : Fin 256) (k : Fin 256) :
    cur2 (iblk0 (F := Ideal) V c 1 t : Vec Ideal S256x256 .f32) p k = cur2 (V c main_arg2) p k := by
  obtain ⟨-, -, e10, e11, -⟩ := idx_facts t
  show V c main_arg2 (((cfg0.win 1).blk t).view.emb (ix2 p k)) = V c main_arg2 (ix2 p k)
  refine congrArg (V c main_arg2) ?_
  funext a; apply Fin.ext
  match a with
  | ⟨0, _⟩ => show win0_1.index t (0 : Fin 2) * 256 + 1 * p.val = p.val; omega
  | ⟨1, _⟩ => show win0_1.index t (1 : Fin 2) * 256 + 1 * k.val = k.val; omega

/-- The bias block at any point is the whole bias row. -/
theorem iblk0_2_row (c : Dev nD) (t : Fin cfg0.N) (k : Fin 256) :
    (iblk0 (F := Ideal) V c 2 t : Vec Ideal S1x256 .f32) (ix2 (0 : Fin 1) k) = row1 (V c main_v0) k := by
  obtain ⟨-, -, -, -, e20, e21, -⟩ := idx_facts t
  show V c main_v0 (((cfg0.win 2).blk t).view.emb (ix2 (0 : Fin 1) k)) = V c main_v0 (ix2 (0 : Fin 1) k)
  refine congrArg (V c main_v0) ?_
  funext a; apply Fin.ext
  match a with
  | ⟨0, _⟩ => show win0_2.index t (0 : Fin 2) * 1 + 1 * 0 = 0; omega
  | ⟨1, _⟩ => show win0_2.index t (1 : Fin 2) * 256 + 1 * k.val = k.val; omega

/-- The three-product form reads only row `p` of its left matrix. -/
theorem split3_congr_row {M M' K N : ℕ} (a : Fin M → Fin K → EReal) (a' : Fin M' → Fin K → EReal) (b : Fin K → Fin N → EReal)
    (p : Fin M) (p' : Fin M') (q : Fin N) (h : ∀ k, a p k = a' p' k) : split3 a b p q = split3 a' b p' q := by
  unfold split3
  simp only [h]

theorem split3_congr {M K N : ℕ} (a a' : Fin M → Fin K → EReal) (b b' : Fin K → Fin N → EReal)
    (p : Fin M) (q : Fin N) (ha : ∀ k, a p k = a' p k) (hb : ∀ k, b k q = b' k q) : split3 a b p q = split3 a' b' p q := by
  unfold split3
  simp only [ha, hb]

/-- The product block at point `t`, entry (p, q): the product array's entry at row `p` of block `t`. -/
theorem pay1_blk (c : Dev nD) (t : Fin cfg0.N) (p : Fin 2000) (q : Fin 256) :
    k0_pay1 (F := Ideal) (iblk0 (F := Ideal) V c 0 t : Vec Ideal S2000x256 .f32) (iblk0 (F := Ideal) V c 1 t : Vec Ideal S256x256 .f32) (ix2 p q)
      = kS (cur2 (V c main_arg0)) (cur2 (V c main_arg2)) (blockRow 2000 t.val p) q := by
  rw [pay1]
  unfold kS
  refine (split3_congr _ (cur2 (iblk0 (F := Ideal) V c 0 t : Vec Ideal S2000x256 .f32)) _ (cur2 (V c main_arg2)) p q (fun _ => rfl) (fun k => iblk0_1_cur V c t k q)).trans ?_
  exact split3_congr_row _ _ _ p (blockRow 2000 t.val p) q (fun k => iblk0_0_cur V c t p k)

/-- The product array as the call leaves it. -/
abbrev GS (c : Dev nD) : S10000x256.Idx → EReal := fun i => kS (cur2 (V c main_arg0)) (cur2 (V c main_arg2)) (i 0) (i 1)

/-- What point `t` writes back of the product is block `t` of the product array. -/
theorem flushed3_eq (c : Dev nD) (t : Fin cfg0.N) :
    (dat0 (F := Ideal) V c).flushed 3 t = ((cfg0.win 3).blk t).view.read (Elt Ideal) (GS V c) := by
  show (cfg0.win 3).cut (grid0.coords t) ((dat0 (F := Ideal) V c).after 3 t) = _
  rw [after0_3, out0_s_eq]
  obtain ⟨-, -, -, -, -, -, e30, e31, -⟩ := idx_facts t
  have ht : t.val < 5 := lt_of_lt_of_eq t.isLt N5
  funext j
  obtain ⟨p, q, rfl⟩ : ∃ (p : Fin 2000) (q : Fin 256), j = ix2 p q := ⟨j 0, j 1, eq_ix2 j⟩
  have hb := blockRow_val t p
  show k0_pay2 (F := Ideal) (iblk0 (F := Ideal) V c 0 t : Vec Ideal S2000x256 .f32) (iblk0 (F := Ideal) V c 1 t : Vec Ideal S256x256 .f32) (ix2 p q)
    = GS V c (((cfg0.win 3).blk t).view.emb (ix2 p q))
  rw [pay2, pay1_blk]
  show kS _ _ (blockRow 2000 t.val p) q = kS _ _ ((((cfg0.win 3).blk t).view.emb (ix2 p q)) 0) ((((cfg0.win 3).blk t).view.emb (ix2 p q)) 1)
  congr 1
  · apply Fin.ext
    show (blockRow 2000 t.val p).val = win0_3.index t (0 : Fin 2) * 2000 + 1 * p.val
    omega
  · apply Fin.ext
    show q.val = win0_3.index t (1 : Fin 2) * 256 + 1 * q.val
    omega

/-- An index of the product array is in point `t`'s block iff each coordinate is in the block's range. -/
theorem mem_blk3 (t : Fin cfg0.N) (i : S10000x256.Idx) :
    i ∈ ((cfg0.win 3).blk t).view.set ↔ ∀ a : Fin 2, win0_3.index t a * S2000x256.size a ≤ (i a).val ∧ (i a).val < win0_3.index t a * S2000x256.size a + S2000x256.size a := by
  show i ∈ ((View.whole main_v2_0).slice (win0_3.rect t)).set ↔ _
  rw [View.set_slice_whole, Rect.mem_set_unit]
  exact Iff.rfl

/-- Row `r` of the product array is in the block of point `r / 2000`. -/
theorem cover3 (i : S10000x256.Idx) : ∃ t : Fin cfg0.N, (cfg0.win 3).flush t = true ∧ i ∈ ((cfg0.win 3).blk t).view.set := by
  have hi0 : (i 0).val < 10000 := (i 0).isLt
  have hi1 : (i 1).val < 256 := (i 1).isLt
  refine ⟨⟨(i 0).val / 2000, lt_of_lt_of_eq (by omega : (i 0).val / 2000 < 5) N5.symm⟩, flush0_3 _, ?_⟩
  rw [mem_blk3]
  obtain ⟨-, -, -, -, -, -, e30, e31, -⟩ := idx_facts ⟨(i 0).val / 2000, lt_of_lt_of_eq (by omega : (i 0).val / 2000 < 5) N5.symm⟩
  have e30' : win0_3.index ⟨(i 0).val / 2000, lt_of_lt_of_eq (by omega : (i 0).val / 2000 < 5) N5.symm⟩ (0 : Fin 2) = (i 0).val / 2000 := e30
  intro a
  match a with
  | ⟨0, _⟩ =>
    show win0_3.index _ (0 : Fin 2) * 2000 ≤ (i 0).val ∧ (i 0).val < win0_3.index _ (0 : Fin 2) * 2000 + 2000
    rw [e30']; omega
  | ⟨1, _⟩ =>
    show win0_3.index _ (1 : Fin 2) * 256 ≤ (i 1).val ∧ (i 1).val < win0_3.index _ (1 : Fin 2) * 256 + 256
    rw [e31]; omega

/-- THE PRODUCT ARRAY after the call: the three-product form of features times weights, entry by entry. -/
theorem final0_s (c : Dev nD) : (dat0 (F := Ideal) V c).arrAt 3 cfg0.N
    = fun i => kS (cur2 (V c main_arg0)) (cur2 (V c main_arg2)) (i 0) (i 1) :=
  Dat.arrAt_eq_of_cover (dat0 (F := Ideal) V c) 3 (GS V c) (fun t _ => flushed3_eq V c t) cover3

/-- Half the column sums of the product block at point `t`: the specification's half column sums of block `t`. -/
theorem pay3_blk (c : Dev nD) (t : Fin cfg0.N) (q : Fin 256) :
    k0_pay3 (F := Ideal) (iblk0 (F := Ideal) V c 0 t : Vec Ideal S2000x256 .f32) (iblk0 (F := Ideal) V c 1 t : Vec Ideal S256x256 .f32) (ix2 (0 : Fin 1) q)
      = kPsum (cur2 (V c main_arg0)) (cur2 (V c main_arg2)) t.val q := by
  rw [pay3]
  unfold kPsum
  exact congrArg (hlf * ·) (Finset.sum_congr rfl fun p _ => pay1_blk V c t p q)

/-- THE ACCUMULATED ROW after point `n`: the correction row after blocks 0 … n. -/
theorem acc0_eq (c : Dev nD) : ∀ (n : ℕ) (hn : n < cfg0.N) (q : Fin 256),
    acc0 (F := Ideal) V c n hn (ix2 (0 : Fin 1) q)
      = kCorrAt (cur2 (V c main_arg0)) (cur2 (V c main_arg2)) (row1 (V c main_v0)) n q
  | 0, hn, q => by
    show out0_cA (F := Ideal) (iblk0 (F := Ideal) V c 0 ⟨0, hn⟩ : Vec Ideal S2000x256 .f32) (iblk0 (F := Ideal) V c 1 ⟨0, hn⟩ : Vec Ideal S256x256 .f32)
      (iblk0 (F := Ideal) V c 2 ⟨0, hn⟩ : Vec Ideal S1x256 .f32) (ix2 (0 : Fin 1) q) = _
    rw [out0_cA_eq, pay4, pay3_blk, iblk0_2_row]
    rfl
  | n + 1, hn, q => by
    show out0_cB (F := Ideal) (iblk0 (F := Ideal) V c 0 ⟨n + 1, hn⟩ : Vec Ideal S2000x256 .f32) (iblk0 (F := Ideal) V c 1 ⟨n + 1, hn⟩ : Vec Ideal S256x256 .f32)
      (acc0 (F := Ideal) V c n (Nat.lt_of_succ_lt hn)) (ix2 (0 : Fin 1) q) = _
    rw [out0_cB_eq, pay5, pay3_blk, acc0_eq c n (Nat.lt_of_succ_lt hn) q]
    rfl

/-- The correction row as the call leaves it. -/
abbrev GC (c : Dev nD) : S1x256.Idx → EReal :=
  fun i => kCorr (cur2 (V c main_arg0)) (cur2 (V c main_arg2)) (row1 (V c main_v0)) (i 1)

/-- What the last point writes back of the row is the correction row after all five blocks. -/
theorem flushed4_eq (c : Dev nD) (t : Fin cfg0.N) (hf : (cfg0.win 4).flush t = true) :
    (dat0 (F := Ideal) V c).flushed 4 t = ((cfg0.win 4).blk t).view.read (Elt Ideal) (GC V c) := by
  show (cfg0.win 4).cut (grid0.coords t) ((dat0 (F := Ideal) V c).after 4 t) = _
  rw [after0_4]
  obtain ⟨-, -, -, -, -, -, -, -, e40, e41⟩ := idx_facts t
  have ht : t.val < 5 := lt_of_lt_of_eq t.isLt N5
  have h4 : t.val = 4 := by have := (flush0_4 t).mp hf; omega
  funext j
  obtain ⟨p, q, rfl⟩ : ∃ (p : Fin 1) (q : Fin 256), j = ix2 p q := ⟨j 0, j 1, eq_ix2 j⟩
  obtain rfl : p = 0 := Subsingleton.elim _ _
  show acc0 (F := Ideal) V c t.val t.isLt (ix2 (0 : Fin 1) q) = GC V c (((cfg0.win 4).blk t).view.emb (ix2 (0 : Fin 1) q))
  rw [acc0_eq V c t.val t.isLt q, h4]
  show kCorr _ _ _ q = kCorr _ _ _ ((((cfg0.win 4).blk t).view.emb (ix2 (0 : Fin 1) q)) 1)
  congr 1
  apply Fin.ext
  show q.val = win0_4.index t (1 : Fin 2) * 256 + 1 * q.val
  omega

theorem mem_blk4 (t : Fin cfg0.N) (i : S1x256.Idx) :
    i ∈ ((cfg0.win 4).blk t).view.set ↔ ∀ a : Fin 2, win0_4.index t a * S1x256.size a ≤ (i a).val ∧ (i a).val < win0_4.index t a * S1x256.size a + S1x256.size a := by
  show i ∈ ((View.whole main_v2_1).slice (win0_4.rect t)).set ↔ _
  rw [View.set_slice_whole, Rect.mem_set_unit]
  exact Iff.rfl

/-- The last point's block is the whole row. -/
theorem cover4 (i : S1x256.Idx) : ∃ t : Fin cfg0.N, (cfg0.win 4).flush t = true ∧ i ∈ ((cfg0.win 4).blk t).view.set := by
  have hi0 : (i 0).val < 1 := (i 0).isLt
  have hi1 : (i 1).val < 256 := (i 1).isLt
  refine ⟨⟨4, lt_of_lt_of_eq (by omega : 4 < 5) N5.symm⟩, (flush0_4 _).mpr rfl, ?_⟩
  rw [mem_blk4]
  obtain ⟨-, -, -, -, -, -, -, -, e40, e41⟩ := idx_facts ⟨4, lt_of_lt_of_eq (by omega : 4 < 5) N5.symm⟩
  intro a
  match a with
  | ⟨0, _⟩ =>
    show win0_4.index _ (0 : Fin 2) * 1 ≤ (i 0).val ∧ (i 0).val < win0_4.index _ (0 : Fin 2) * 1 + 1
    rw [e40]; omega
  | ⟨1, _⟩ =>
    show win0_4.index _ (1 : Fin 2) * 256 ≤ (i 1).val ∧ (i 1).val < win0_4.index _ (1 : Fin 2) * 256 + 256
    rw [e41]; omega

/-- THE CORRECTION ROW after the call: half the column sums of the product, block by block, plus the bias. -/
theorem final0_c (c : Dev nD) : (dat0 (F := Ideal) V c).arrAt 4 cfg0.N
    = fun i => kCorr (cur2 (V c main_arg0)) (cur2 (V c main_arg2)) (row1 (V c main_v0)) (i 1) :=
  Dat.arrAt_eq_of_cover (dat0 (F := Ideal) V c) 4 (GC V c) (fun t hf => flushed4_eq V c t hf) cover4

end Cert.KernelIdeal.HandValue.R0

end
-- ==== Proof.ValueR1.lean ====
/-
  The second call's two results as functions of the arrays it is handed.

  For each block of 400 rows of the adjacency the call computes the rectified hidden rows (the centred block times
  the product array, plus the correction row), their product with the second weight matrix taken as three products,
  stored as the matching block of 400 rows of the result, and that block's column sums, accumulated in one row over
  the 25 blocks. Here: every staged block read at an entry is the array read at the entry the block's position
  gives; so the block a point stores is that block of one function of the arrays, the 25 blocks tile the result,
  and the accumulated row after point n is the specification's partial column sum over blocks 0 … n.
-/
import proofs.«173031_g128849019522_cont_9to1_m_876_7_alg».proof.Proof.Spec
import proofs.«173031_g128849019522_cont_9to1_m_876_7_alg».proof.Proof.Spec2
import proofs.«173031_g128849019522_cont_9to1_m_876_7_alg».proof.Proof.Payloads
import proofs.«173031_g128849019522_cont_9to1_m_876_7_alg».proof.Proof.FrameR1
import Idealize.ShloMosaic.Lib.Pipeline.Value

set_option maxRecDepth 16384

noncomputable section

open scoped BigOperators

namespace Cert.KernelIdeal.HandValue

open Cert.KernelIdeal Cert.KernelIdeal.Gen Cert.KernelIdeal.Hand Cert.Gcn Cert.Gcn.Payloads Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The zero offset of a whole-buffer access. -/
theorem hz_r1 : (![0, 0] : Fin 2 → Nat) = fun _ => 0 := funext fun a => by fin_cases a <;> rfl

/-! ## The staging buffers after the body are the payloads of the staged blocks -/

theorem out1_g_eq (x0 : Vec Ideal S400x10000 .f32) (x1 : Vec Ideal S10000x256 .bf16) (x2 : Vec Ideal S1x256 .f32)
    (x3 : Vec Ideal S256x64 .f32) : out1_g (F := Ideal) x0 x1 x2 x3 = k1_pay3 (F := Ideal) x0 x1 x2 x3 := by
  unfold out1_g
  rw [View.canon_unit_zero hz_r1]
  simp only [View.ld_unit_zero (S := S400x10000) hz_r1, View.ld_unit_zero (S := S10000x256) hz_r1,
    View.ld_unit_zero (S := S1x256) hz_r1, View.ld_unit_zero (S := S256x64) hz_r1]

theorem out1_cA_eq (x0 : Vec Ideal S400x10000 .f32) (x1 : Vec Ideal S10000x256 .bf16) (x2 : Vec Ideal S1x256 .f32)
    (x3 : Vec Ideal S256x64 .f32) : out1_cA (F := Ideal) x0 x1 x2 x3 = k1_pay4 (F := Ideal) x0 x1 x2 x3 := by
  unfold out1_cA
  rw [View.canon_unit_zero hz_r1]
  simp only [View.ld_unit_zero (S := S400x10000) hz_r1, View.ld_unit_zero (S := S10000x256) hz_r1,
    View.ld_unit_zero (S := S1x256) hz_r1, View.ld_unit_zero (S := S256x64) hz_r1]

theorem out1_cB_eq (x0 : Vec Ideal S400x10000 .f32) (x1 : Vec Ideal S10000x256 .bf16) (x2 : Vec Ideal S1x256 .f32)
    (x3 : Vec Ideal S256x64 .f32) (xo : Vec Ideal S1x64 .f32) :
    out1_cB (F := Ideal) x0 x1 x2 x3 xo = k1_pay1 (F := Ideal) (k1_pay4 (F := Ideal) x0 x1 x2 x3) xo := by
  unfold out1_cB
  rw [View.canon_unit_zero hz_r1]
  simp only [View.ld_unit_zero (S := S400x10000) hz_r1, View.ld_unit_zero (S := S10000x256) hz_r1,
    View.ld_unit_zero (S := S1x256) hz_r1, View.ld_unit_zero (S := S256x64) hz_r1, View.ld_unit_zero (S := S1x64) hz_r1]

/-! ## The index maps, decided over the 25 points -/

theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = 0 ∧ win1_5.index t (1 : Fin 2) = 0 :=
  (by decide +kernel : ∀ t : Fin grid1.N, _)

example : Pipeline.arrRef spec1 0 = main_arg1 := rfl
example : Pipeline.arrRef spec1 1 = main_v2_0 := rfl
example : Pipeline.arrRef spec1 2 = main_v2_1 := rfl
example : Pipeline.arrRef spec1 3 = main_arg4 := rfl
example : Pipeline.arrRef spec1 4 = main_v3_0 := rfl
example : Pipeline.arrRef spec1 5 = main_v3_1 := rfl

/-! ## A staged block read at an entry is the array at the block's position -/

theorem tlt1 (t : Fin cfg1.N) : t.val < 25 := lt_of_lt_of_eq t.isLt N_1

/-- The adjacency block at point `t` is rows 400·t … 400·t + 399 of the adjacency. -/
theorem blk1_0_apply (c : Dev nD) (t : Fin cfg1.N) (p : Fin 400) (k : Fin 10000) :
    iblk1 (F := Ideal) V c 0 t (ix2 p k) = cur2 (V c main_arg1) (blockRow 400 t.val p) k := by
  obtain ⟨e0, e1, -⟩ := idx_facts1 t
  have hN := tlt1 t
  show V c main_arg1 (((cfg1.win 0).blk t).view.emb (ix2 p k)) = V c main_arg1 (ix2 (blockRow 400 t.val p) k)
  congr 1
  funext a; apply Fin.ext
  match a with
  | ⟨0, _⟩ =>
    show win1_0.index t (0 : Fin 2) * 400 + 1 * p.val = (400 * t.val + p.val) % 10000
    have := p.isLt; omega
  | ⟨1, _⟩ => show win1_0.index t (1 : Fin 2) * 10000 + 1 * k.val = k.val; omega

/-- The product array is staged whole. -/
theorem blk1_1_apply (c : Dev nD) (t : Fin cfg1.N) (k : Fin 10000) (l : Fin 256) :
    iblk1 (F := Ideal) V c 1 t (ix2 k l) = cur2 (V c main_v2_0) k l := by
  obtain ⟨-, -, e0, e1, -⟩ := idx_facts1 t
  show V c main_v2_0 (((cfg1.win 1).blk t).view.emb (ix2 k l)) = V c main_v2_0 (ix2 k l)
  congr 1
  funext a; apply Fin.ext
  match a with
  | ⟨0, _⟩ => show win1_1.index t (0 : Fin 2) * 10000 + 1 * k.val = k.val; omega
  | ⟨1, _⟩ => show win1_1.index t (1 : Fin 2) * 256 + 1 * l.val = l.val; omega

/-- The correction row is staged whole. -/
theorem blk1_2_apply (c : Dev nD) (t : Fin cfg1.N) (l : Fin 256) :
    iblk1 (F := Ideal) V c 2 t (ix2 (0 : Fin 1) l) = row1 (V c main_v2_1) l := by
  obtain ⟨-, -, -, -, e0, e1, -⟩ := idx_facts1 t
  show V c main_v2_1 (((cfg1.win 2).blk t).view.emb (ix2 (0 : Fin 1) l)) = V c main_v2_1 (ix2 (0 : Fin 1) l)
  congr 1
  funext a; apply Fin.ext
  match a with
  | ⟨0, _⟩ => show win1_2.index t (0 : Fin 2) * 1 + 1 * 0 = 0; omega
  | ⟨1, _⟩ => show win1_2.index t (1 : Fin 2) * 256 + 1 * l.val = l.val; omega

/-- The second weight matrix is staged whole. -/
theorem blk1_3_apply (c : Dev nD) (t : Fin cfg1.N) (l : Fin 256) (j : Fin 64) :
    iblk1 (F := Ideal) V c 3 t (ix2 l j) = cur2 (V c main_arg4) l j := by
  obtain ⟨-, -, -, -, -, -, e0, e1, -⟩ := idx_facts1 t
  show V c main_arg4 (((cfg1.win 3).blk t).view.emb (ix2 l j)) = V c main_arg4 (ix2 l j)
  congr 1
  funext a; apply Fin.ext
  match a with
  | ⟨0, _⟩ => show win1_3.index t (0 : Fin 2) * 256 + 1 * l.val = l.val; omega
  | ⟨1, _⟩ => show win1_3.index t (1 : Fin 2) * 64 + 1 * j.val = j.val; omega

/-! ## The product block at a point -/

/-- The three-product form reads only one row of its left matrix. -/
theorem split3_congr_row1 {M M' K N : ℕ} (a : Fin M → Fin K → EReal) (a' : Fin M' → Fin K → EReal)
    (b : Fin K → Fin N → EReal) (p : Fin M) (p' : Fin M') (q : Fin N) (h : ∀ k, a p k = a' p' k) :
    split3 a b p q = split3 a' b p' q := by
  unfold split3
  simp only [h]

/-- A hidden row computed from a block whose row `p` is row `n` of the adjacency, from the whole product array
    and the whole correction row, is the hidden row `n`. -/
theorem hidden_row_of1 (A : Fin 10000 → Fin 10000 → EReal) (S : Fin 10000 → Fin 256 → EReal) (corr : Fin 256 → EReal)
    (n : Fin 10000) (v0 : Vec Ideal S400x10000 .f32) (v1 : Vec Ideal S10000x256 .bf16) (v2 : Vec Ideal S1x256 .f32)
    (p : Fin 400) (h0 : ∀ k, v0 (ix2 p k) = A n k) (h1 : ∀ k l, v1 (ix2 k l) = S k l)
    (h2 : ∀ l, v2 (ix2 (0 : Fin 1) l) = corr l) (l : Fin 256) :
    max ((∑ k : Fin 10000, (v0 (ix2 p k) - hlf) * v1 (ix2 k l)) + v2 (ix2 (0 : Fin 1) l)) 0 = gH A S corr n l := by
  unfold gH
  simp only [h0, h1, h2]

/-- An entry of the product block at point `t` is the entry of the whole product in row 400·t + p. -/
theorem pay1_g_apply (c : Dev nD) (t : Fin cfg1.N) (p : Fin 400) (j : Fin 64) :
    k1_pay2 (F := Ideal) (iblk1 (F := Ideal) V c 0 t) (iblk1 (F := Ideal) V c 1 t) (iblk1 (F := Ideal) V c 2 t)
        (iblk1 (F := Ideal) V c 3 t) (ix2 p j)
      = gG (cur2 (V c main_arg1)) (cur2 (V c main_v2_0)) (row1 (V c main_v2_1)) (cur2 (V c main_arg4))
          (blockRow 400 t.val p) j := by
  refine (k1pay2 (iblk1 (F := Ideal) V c 0 t) (iblk1 (F := Ideal) V c 1 t) (iblk1 (F := Ideal) V c 2 t)
    (iblk1 (F := Ideal) V c 3 t) p j).trans ?_
  unfold gG
  have hw : cur2 (iblk1 (F := Ideal) V c 3 t : Vec Ideal S256x64 .f32) = cur2 (V c main_arg4) := by
    funext l j'; exact blk1_3_apply V c t l j'
  rw [hw]
  exact split3_congr_row1 _ _ _ p (blockRow 400 t.val p) j fun l =>
    hidden_row_of1 (cur2 (V c main_arg1)) (cur2 (V c main_v2_0)) (row1 (V c main_v2_1)) (blockRow 400 t.val p)
      (iblk1 (F := Ideal) V c 0 t) (iblk1 (F := Ideal) V c 1 t) (iblk1 (F := Ideal) V c 2 t) p
      (fun k => blk1_0_apply V c t p k) (fun k l => blk1_1_apply V c t k l) (fun l => blk1_2_apply V c t l) l

/-! ## The product array after the call -/

/-- Entry (p, q) of the product block at point `t` sits at row 400·t + p, column q of the product array. -/
theorem emb1_4 (t : Fin cfg1.N) (p : Fin 400) (q : Fin 64) :
    ((cfg1.win 4).blk t).view.emb (ix2 p q) = ix2 (blockRow 400 t.val p) q := by
  obtain ⟨-, -, -, -, -, -, -, -, e0, e1, -⟩ := idx_facts1 t
  have hN := tlt1 t
  funext a; apply Fin.ext
  match a with
  | ⟨0, _⟩ =>
    show win1_4.index t (0 : Fin 2) * 400 + 1 * p.val = (400 * t.val + p.val) % 10000
    have := p.isLt; omega
  | ⟨1, _⟩ => show win1_4.index t (1 : Fin 2) * 64 + 1 * q.val = q.val; omega

/-- What point `t` writes back is block `t` of the whole product. -/
theorem flushed1_4_eq (c : Dev nD) (t : Fin cfg1.N) :
    (dat1 (F := Ideal) V c).flushed 4 t = ((cfg1.win 4).blk t).view.read (Elt Ideal)
      (fun i => gG (cur2 (V c main_arg1)) (cur2 (V c main_v2_0)) (row1 (V c main_v2_1)) (cur2 (V c main_arg4)) (i 0) (i 1)) := by
  show (cfg1.win 4).cut (grid1.coords t) ((dat1 (F := Ideal) V c).after 4 t) = _
  rw [after1_4, out1_g_eq]
  funext j
  obtain ⟨p, q, rfl⟩ : ∃ (p : Fin 400) (q : Fin 64), j = ix2 p q := ⟨j 0, j 1, eq_ix2 j⟩
  show k1_pay2 (F := Ideal) (iblk1 (F := Ideal) V c 0 t) (iblk1 (F := Ideal) V c 1 t) (iblk1 (F := Ideal) V c 2 t)
      (iblk1 (F := Ideal) V c 3 t) (ix2 p q)
    = (fun i : S10000x64.Idx => gG (cur2 (V c main_arg1)) (cur2 (V c main_v2_0)) (row1 (V c main_v2_1)) (cur2 (V c main_arg4)) (i 0) (i 1))
        (((cfg1.win 4).blk t).view.emb (ix2 p q))
  rw [emb1_4 t p q]
  exact pay1_g_apply V c t p q

/-- An entry is in point `t`'s block iff each coordinate is in the block's range. -/
theorem mem_blk1_4 (t : Fin cfg1.N) (i : S10000x64.Idx) :
    i ∈ ((cfg1.win 4).blk t).view.set ↔ ∀ a : Fin 2, win1_4.index t a * S400x64.size a ≤ (i a).val
      ∧ (i a).val < win1_4.index t a * S400x64.size a + S400x64.size a := by
  show i ∈ ((View.whole main_v3_0).slice (win1_4.rect t)).set ↔ _
  rw [View.set_slice_whole, Rect.mem_set_unit]
  exact Iff.rfl

/-- Row r is in the block of point r / 400: the 25 blocks tile the array. -/
theorem cover1_4 (i : S10000x64.Idx) :
    ∃ t : Fin cfg1.N, (cfg1.win 4).flush t = true ∧ i ∈ ((cfg1.win 4).blk t).view.set := by
  have hi0 : (i 0).val < 10000 := (i 0).isLt
  have hi1 : (i 1).val < 64 := (i 1).isLt
  have ht : (i 0).val / 400 < cfg1.N := by rw [show cfg1.N = 25 from N_1]; omega
  obtain ⟨-, -, -, -, -, -, -, -, e0, e1, -⟩ := idx_facts1 ⟨(i 0).val / 400, ht⟩
  refine ⟨⟨(i 0).val / 400, ht⟩, flush1_4 _, ?_⟩
  rw [mem_blk1_4]
  intro a
  match a with
  | ⟨0, _⟩ =>
    show win1_4.index ⟨(i 0).val / 400, ht⟩ (0 : Fin 2) * 400 ≤ (i 0).val
      ∧ (i 0).val < win1_4.index ⟨(i 0).val / 400, ht⟩ (0 : Fin 2) * 400 + 400
    rw [e0]; dsimp only; omega
  | ⟨1, _⟩ =>
    show win1_4.index ⟨(i 0).val / 400, ht⟩ (1 : Fin 2) * 64 ≤ (i 1).val
      ∧ (i 1).val < win1_4.index ⟨(i 0).val / 400, ht⟩ (1 : Fin 2) * 64 + 64
    rw [e1]; omega

/-- THE PRODUCT ARRAY after the call: the three-product form of the rectified hidden rows times the second weight. -/
theorem final1_g (c : Dev nD) : (dat1 (F := Ideal) V c).arrAt 4 cfg1.N = fun i =>
    gG (cur2 (V c main_arg1)) (cur2 (V c main_v2_0)) (row1 (V c main_v2_1)) (cur2 (V c main_arg4)) (i 0) (i 1) :=
  (dat1 (F := Ideal) V c).arrAt_eq_of_cover 4 _ (fun t _ => flushed1_4_eq V c t) cover1_4

/-! ## The accumulated row -/

/-- The column sums of the product block at point `t` are those of rows 400·t … 400·t + 399 of the whole product. -/
theorem pay1_c_apply (c : Dev nD) (t : Fin cfg1.N) (q : Fin 64) :
    k1_pay4 (F := Ideal) (iblk1 (F := Ideal) V c 0 t) (iblk1 (F := Ideal) V c 1 t) (iblk1 (F := Ideal) V c 2 t) (iblk1 (F := Ideal) V c 3 t) (ix2 (0 : Fin 1) q)
      = gGps (cur2 (V c main_arg1)) (cur2 (V c main_v2_0)) (row1 (V c main_v2_1)) (cur2 (V c main_arg4)) t.val q := by
  refine (k1pay4 (iblk1 (F := Ideal) V c 0 t) (iblk1 (F := Ideal) V c 1 t) (iblk1 (F := Ideal) V c 2 t) (iblk1 (F := Ideal) V c 3 t) q).trans ?_
  unfold gGps
  exact Finset.sum_congr rfl fun p _ => pay1_g_apply V c t p q

/-- The row's buffer after point `n` holds the column sums accumulated over blocks 0 … n. -/
theorem acc1_apply (c : Dev nD) (n : ℕ) : ∀ (hn : n < cfg1.N) (q : Fin 64),
    acc1 (F := Ideal) V c n hn (ix2 (0 : Fin 1) q) = gGsAt (cur2 (V c main_arg1)) (cur2 (V c main_v2_0)) (row1 (V c main_v2_1)) (cur2 (V c main_arg4)) n q := by
  induction n with
  | zero =>
    intro hn q
    show out1_cA (F := Ideal) (iblk1 (F := Ideal) V c 0 ⟨0, hn⟩) (iblk1 (F := Ideal) V c 1 ⟨0, hn⟩) (iblk1 (F := Ideal) V c 2 ⟨0, hn⟩) (iblk1 (F := Ideal) V c 3 ⟨0, hn⟩) (ix2 (0 : Fin 1) q) = gGps (cur2 (V c main_arg1)) (cur2 (V c main_v2_0)) (row1 (V c main_v2_1)) (cur2 (V c main_arg4)) 0 q
    rw [out1_cA_eq]
    exact pay1_c_apply V c ⟨0, hn⟩ q
  | succ n ih =>
    intro hn q
    show out1_cB (F := Ideal) (iblk1 (F := Ideal) V c 0 ⟨n + 1, hn⟩) (iblk1 (F := Ideal) V c 1 ⟨n + 1, hn⟩) (iblk1 (F := Ideal) V c 2 ⟨n + 1, hn⟩) (iblk1 (F := Ideal) V c 3 ⟨n + 1, hn⟩) (acc1 (F := Ideal) V c n (Nat.lt_of_succ_lt hn)) (ix2 (0 : Fin 1) q)
      = gGsAt (cur2 (V c main_arg1)) (cur2 (V c main_v2_0)) (row1 (V c main_v2_1)) (cur2 (V c main_arg4)) n q + gGps (cur2 (V c main_arg1)) (cur2 (V c main_v2_0)) (row1 (V c main_v2_1)) (cur2 (V c main_arg4)) (n + 1) q
    rw [out1_cB_eq]
    refine (k1pay1 _ _ q).trans ?_
    exact congrArg₂ (· + ·) (ih (Nat.lt_of_succ_lt hn) q) (pay1_c_apply V c ⟨n + 1, hn⟩ q)

/-! ## The row's array after the call -/

/-- The row's block is the whole one-row array at every point. -/
theorem emb1_5 (t : Fin cfg1.N) (q : Fin 64) :
    ((cfg1.win 5).blk t).view.emb (ix2 (0 : Fin 1) q) = ix2 (0 : Fin 1) q := by
  obtain ⟨-, -, -, -, -, -, -, -, -, -, e0, e1⟩ := idx_facts1 t
  funext a; apply Fin.ext
  match a with
  | ⟨0, _⟩ => show win1_5.index t (0 : Fin 2) * 1 + 1 * 0 = 0; omega
  | ⟨1, _⟩ => show win1_5.index t (1 : Fin 2) * 64 + 1 * q.val = q.val; omega

/-- The one point that writes the row back, the last, writes the column sums over all 25 blocks. -/
theorem flushed1_5_eq (c : Dev nD) (t : Fin cfg1.N) (hf : (cfg1.win 5).flush t = true) :
    (dat1 (F := Ideal) V c).flushed 5 t = ((cfg1.win 5).blk t).view.read (Elt Ideal)
      (fun i => gGsum (cur2 (V c main_arg1)) (cur2 (V c main_v2_0)) (row1 (V c main_v2_1)) (cur2 (V c main_arg4)) (i 1)) := by
  have h24 : t.val = 24 := by have h := (flush1_5 t).mp hf; have := tlt1 t; omega
  show (cfg1.win 5).cut (grid1.coords t) ((dat1 (F := Ideal) V c).after 5 t) = _
  rw [after1_5]
  funext j
  obtain ⟨p, q, rfl⟩ : ∃ (p : Fin 1) (q : Fin 64), j = ix2 p q := ⟨j 0, j 1, eq_ix2 j⟩
  obtain rfl : p = 0 := Subsingleton.elim _ _
  show acc1 (F := Ideal) V c t.val t.isLt (ix2 (0 : Fin 1) q)
    = (fun i : S1x64.Idx => gGsum (cur2 (V c main_arg1)) (cur2 (V c main_v2_0)) (row1 (V c main_v2_1)) (cur2 (V c main_arg4)) (i 1)) (((cfg1.win 5).blk t).view.emb (ix2 (0 : Fin 1) q))
  rw [emb1_5 t q]
  refine (acc1_apply V c t.val t.isLt q).trans ?_
  rw [h24]; rfl

/-- An entry is in point `t`'s block iff each coordinate is in the block's range. -/
theorem mem_blk1_5 (t : Fin cfg1.N) (i : S1x64.Idx) :
    i ∈ ((cfg1.win 5).blk t).view.set ↔ ∀ a : Fin 2, win1_5.index t a * S1x64.size a ≤ (i a).val
      ∧ (i a).val < win1_5.index t a * S1x64.size a + S1x64.size a := by
  show i ∈ ((View.whole main_v3_1).slice (win1_5.rect t)).set ↔ _
  rw [View.set_slice_whole, Rect.mem_set_unit]
  exact Iff.rfl

/-- The last point's block is the whole row. -/
theorem cover1_5 (i : S1x64.Idx) :
    ∃ t : Fin cfg1.N, (cfg1.win 5).flush t = true ∧ i ∈ ((cfg1.win 5).blk t).view.set := by
  have hi0 : (i 0).val < 1 := (i 0).isLt
  have hi1 : (i 1).val < 64 := (i 1).isLt
  have ht : 24 < cfg1.N := by rw [show cfg1.N = 25 from N_1]; omega
  obtain ⟨-, -, -, -, -, -, -, -, -, -, e0, e1⟩ := idx_facts1 ⟨24, ht⟩
  refine ⟨⟨24, ht⟩, (flush1_5 _).mpr rfl, ?_⟩
  rw [mem_blk1_5]
  intro a
  match a with
  | ⟨0, _⟩ =>
    show win1_5.index ⟨24, ht⟩ (0 : Fin 2) * 1 ≤ (i 0).val ∧ (i 0).val < win1_5.index ⟨24, ht⟩ (0 : Fin 2) * 1 + 1
    rw [e0]; omega
  | ⟨1, _⟩ =>
    show win1_5.index ⟨24, ht⟩ (1 : Fin 2) * 64 ≤ (i 1).val ∧ (i 1).val < win1_5.index ⟨24, ht⟩ (1 : Fin 2) * 64 + 64
    rw [e1]; omega

/-- THE ROW after the call: the column sums of the whole product, accumulated block of rows by block of rows. -/
theorem final1_c (c : Dev nD) : (dat1 (F := Ideal) V c).arrAt 5 cfg1.N = fun i =>
    gGsum (cur2 (V c main_arg1)) (cur2 (V c main_v2_0)) (row1 (V c main_v2_1)) (cur2 (V c main_arg4)) (i 1) :=
  (dat1 (F := Ideal) V c).arrAt_eq_of_cover 5 _ (fun t hf => flushed1_5_eq V c t hf) cover1_5

end Cert.KernelIdeal.HandValue

end
-- ==== Proof.ValueR2.lean ====
/-
  What the third call leaves in the result array, at the exact values: with A the adjacency, G the 10000 × 64
  product array, gs its column-sum row and b the bias row as the call finds them, entry (n, j) of the result is
      logistic ((A − ½)·G at (n, j) + ½ · gs j + b j).
  Each grid point writes one block of 400 rows; row n is written by point n / 400; the 25 blocks tile the array.
-/
import proofs.«173031_g128849019522_cont_9to1_m_876_7_alg».proof.Proof.FrameR2
import proofs.«173031_g128849019522_cont_9to1_m_876_7_alg».proof.Proof.Payloads
import proofs.«173031_g128849019522_cont_9to1_m_876_7_alg».proof.Proof.Spec2
import Idealize.ShloMosaic.Lib.Pipeline.Value

set_option maxRecDepth 16384

noncomputable section

open scoped BigOperators

namespace Cert.KernelIdeal.HandValue

open Cert.KernelIdeal Cert.KernelIdeal.Gen Cert.KernelIdeal.Hand Cert.Gcn Cert.Gcn.Payloads
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-- The one store's canon is the payload of the staged blocks. -/
theorem out2_eq (x0 : Vec Ideal S400x10000 .f32) (x1 : Vec Ideal S10000x64 .bf16) (x2 x3 : Vec Ideal S1x64 .f32) :
    out2 (F := Ideal) x0 x1 x2 x3 = k2_pay1 (F := Ideal) x0 x1 x2 x3 := by
  unfold out2
  rw [View.canon_unit_zero hz2]
  simp only [View.ld_unit_zero (S := S400x10000) hz2, View.ld_unit_zero (S := S10000x64) hz2, View.ld_unit_zero (S := S1x64) hz2]

/-- The printed index maps over the grid: the adjacency's and the result's blocks move down the rows with the
    point; the three whole-array windows stay. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- The result array as one function of the four arrays the call is handed. -/
def G2 (c : Dev nD) : S10000x64.Idx → EReal := fun i =>
  gOut (cur2 (M := 10000) (N := 10000) (V c main_arg1)) (cur2 (M := 10000) (N := 64) (V c main_v3_0))
    (row1 (N := 64) (V c main_v3_1)) (row1 (N := 64) (V c main_v1)) (i 0) (i 1)

/-- WHAT POINT `t` WRITES BACK is block `t` of that function. -/
theorem flushed2_eq (c : Dev nD) (t : Fin cfg2.N) :
    (dat2 (F := Ideal) V c).flushed 4 t = ((cfg2.win 4).blk t).view.read (Elt Ideal) (G2 V c) := by
  show (cfg2.win 4).cut (grid2.coords t) ((dat2 (F := Ideal) V c).after 4 t) = _
  rw [after2_4, out2_eq]
  obtain ⟨e00, e01, e10, e11, e20, e21, e30, e31, e40, e41⟩ := idx_facts2 t
  funext j
  obtain ⟨p, q, rfl⟩ : ∃ (p : Fin 400) (q : Fin 64), j = ix2 p q := ⟨j 0, j 1, eq_ix2 j⟩
  show k2_pay1 (F := Ideal) (iblk2 V c 0 t) (iblk2 V c 1 t) (iblk2 V c 2 t) (iblk2 V c 3 t) (ix2 p q)
    = G2 V c (((cfg2.win 4).blk t).view.emb (ix2 p q))
  rw [k2pay1 (iblk2 V c 0 t) (iblk2 V c 1 t) (iblk2 V c 2 t) (iblk2 V c 3 t) p q]
  have hA : ∀ k : Fin 10000, iblk2 V c 0 t (ix2 p k) = V c main_arg1 (ix2 ((((cfg2.win 4).blk t).view.emb (ix2 p q)) 0) k) := fun k => by
    show V c main_arg1 (((cfg2.win 0).blk t).view.emb (ix2 p k)) = _
    congr 1; funext a; apply Fin.ext
    match a with
    | ⟨0, _⟩ => show win2_0.index t (0 : Fin 2) * 400 + 1 * p.val = win2_4.index t (0 : Fin 2) * 400 + 1 * p.val; omega
    | ⟨1, _⟩ => show win2_0.index t (1 : Fin 2) * 10000 + 1 * k.val = k.val; omega
  have hG : ∀ k : Fin 10000, iblk2 V c 1 t (ix2 k q) = V c main_v3_0 (ix2 k ((((cfg2.win 4).blk t).view.emb (ix2 p q)) 1)) := fun k => by
    show V c main_v3_0 (((cfg2.win 1).blk t).view.emb (ix2 k q)) = _
    congr 1; funext a; apply Fin.ext
    match a with
    | ⟨0, _⟩ => show win2_1.index t (0 : Fin 2) * 10000 + 1 * k.val = k.val; omega
    | ⟨1, _⟩ => show win2_1.index t (1 : Fin 2) * 64 + 1 * q.val = win2_4.index t (1 : Fin 2) * 64 + 1 * q.val; omega
  have hs : iblk2 V c 2 t (ix2 (0 : Fin 1) q) = V c main_v3_1 (ix2 (0 : Fin 1) ((((cfg2.win 4).blk t).view.emb (ix2 p q)) 1)) := by
    show V c main_v3_1 (((cfg2.win 2).blk t).view.emb (ix2 (0 : Fin 1) q)) = _
    congr 1; funext a; apply Fin.ext
    match a with
    | ⟨0, _⟩ => show win2_2.index t (0 : Fin 2) * 1 + 1 * 0 = 0; omega
    | ⟨1, _⟩ => show win2_2.index t (1 : Fin 2) * 64 + 1 * q.val = win2_4.index t (1 : Fin 2) * 64 + 1 * q.val; omega
  have hb : iblk2 V c 3 t (ix2 (0 : Fin 1) q) = V c main_v1 (ix2 (0 : Fin 1) ((((cfg2.win 4).blk t).view.emb (ix2 p q)) 1)) := by
    show V c main_v1 (((cfg2.win 3).blk t).view.emb (ix2 (0 : Fin 1) q)) = _
    congr 1; funext a; apply Fin.ext
    match a with
    | ⟨0, _⟩ => show win2_3.index t (0 : Fin 2) * 1 + 1 * 0 = 0; omega
    | ⟨1, _⟩ => show win2_3.index t (1 : Fin 2) * 64 + 1 * q.val = win2_4.index t (1 : Fin 2) * 64 + 1 * q.val; omega
  rw [hs, hb]
  simp only [hA, hG]
  rfl

/-- An index of the result array is in point `t`'s block iff each coordinate is in the block's range. -/
theorem mem_blk2 (t : Fin cfg2.N) (i : S10000x64.Idx) :
    i ∈ ((cfg2.win 4).blk t).view.set ↔ ∀ a : Fin 2, win2_4.index t a * S400x64.size a ≤ (i a).val ∧ (i a).val < win2_4.index t a * S400x64.size a + S400x64.size a := by
  show i ∈ ((View.whole main_v4).slice (win2_4.rect t)).set ↔ _
  rw [View.set_slice_whole, Rect.mem_set_unit]
  exact Iff.rfl

/-- Row n is written by point n / 400. -/
theorem cover2 (i : S10000x64.Idx) : ∃ t : Fin cfg2.N, (cfg2.win 4).flush t = true ∧ i ∈ ((cfg2.win 4).blk t).view.set := by
  have hi0 : (i 0).val < 10000 := (i 0).isLt
  have hi1 : (i 1).val < 64 := (i 1).isLt
  have hN : cfg2.N = 25 := N_2
  refine ⟨⟨(i 0).val / 400, by rw [hN]; omega⟩, flush2_4 _, ?_⟩
  rw [mem_blk2]
  obtain ⟨e00, e01, e10, e11, e20, e21, e30, e31, e40, e41⟩ := idx_facts2 ⟨(i 0).val / 400, by rw [hN]; omega⟩
  intro a
  match a with
  | ⟨0, _⟩ =>
    show win2_4.index _ (0 : Fin 2) * 400 ≤ (i 0).val ∧ (i 0).val < win2_4.index _ (0 : Fin 2) * 400 + 400
    rw [e40]; show (i 0).val / 400 * 400 ≤ (i 0).val ∧ (i 0).val < (i 0).val / 400 * 400 + 400; omega
  | ⟨1, _⟩ =>
    show win2_4.index _ (1 : Fin 2) * 64 ≤ (i 1).val ∧ (i 1).val < win2_4.index _ (1 : Fin 2) * 64 + 64
    rw [e41]; omega

/-- THE RESULT ARRAY after the call. -/
theorem final2 (c : Dev nD) : (dat2 (F := Ideal) V c).arrAt 4 cfg2.N = G2 V c :=
  (dat2 (F := Ideal) V c).arrAt_eq_of_cover 4 (G2 V c) (fun t _ => flushed2_eq V c t) (cover2)

end Cert.KernelIdeal.HandValue

end
-- ==== Proof.Bridge.lean ====
/-
  The program's result as one function of the six argument arrays, at the exact values.

  The third call's result is `gOut` of what it is handed; what it is handed is the adjacency as launched, the second
  call's two results and the second bias row; the second call's results are `gG` and `gGsum` of the adjacency, the
  first call's two results and the second weight matrix; the first call's are `kS` and `kCorr` of the features, the
  first weight matrix and the first bias row. Substituting, the result array is the blocked network `kOut` of the
  six arrays, entry by entry.
-/
import proofs.«173031_g128849019522_cont_9to1_m_876_7_alg».proof.Proof.Boundary
import proofs.«173031_g128849019522_cont_9to1_m_876_7_alg».proof.Proof.ValueR0
import proofs.«173031_g128849019522_cont_9to1_m_876_7_alg».proof.Proof.ValueR1
import proofs.«173031_g128849019522_cont_9to1_m_876_7_alg».proof.Proof.ValueR2

set_option maxRecDepth 16384

noncomputable section

open scoped BigOperators

namespace Cert.KernelIdeal.HandValue

open Cert.KernelIdeal Cert.KernelIdeal.Gen Cert.KernelIdeal.Hand Cert.Gcn
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- The six argument arrays of core `c`, as launched, as functions of their coordinates. -/
abbrev aX (c : Dev nD) : Fin 10000 → Fin 256 → EReal := cur2 (M := 10000) (N := 256) (m ((c : Thread nD τ).loc main_arg0))
abbrev aA (c : Dev nD) : Fin 10000 → Fin 10000 → EReal := cur2 (M := 10000) (N := 10000) (m ((c : Thread nD τ).loc main_arg1))
abbrev aW1 (c : Dev nD) : Fin 256 → Fin 256 → EReal := cur2 (M := 256) (N := 256) (m ((c : Thread nD τ).loc main_arg2))
abbrev aB1 (c : Dev nD) : Fin 256 → EReal := cur1 (N := 256) (m ((c : Thread nD τ).loc main_arg3))
abbrev aW2 (c : Dev nD) : Fin 256 → Fin 64 → EReal := cur2 (M := 256) (N := 64) (m ((c : Thread nD τ).loc main_arg4))
abbrev aB2 (c : Dev nD) : Fin 64 → EReal := cur1 (N := 64) (m ((c : Thread nD τ).loc main_arg5))

/-- The first call's product array, as the second call finds it. -/
theorem s_eq (c : Dev nD) : cur2 (M := 10000) (N := 256) (Hand.V2 m c main_v2_0) = kS (aX m c) (aW1 m c) := by
  rw [V2_v2_0, R0.final0_s, V1_arg0, V1_arg2]; rfl
/-- The first call's correction row, as the second call finds it. -/
theorem corr_eq (c : Dev nD) : row1 (N := 256) (Hand.V2 m c main_v2_1) = kCorr (aX m c) (aW1 m c) (aB1 m c) := by
  rw [V2_v2_1, R0.final0_c, V1_arg0, V1_arg2, row1_V1_v0]; rfl
/-- The second call's product array, as the third call finds it. -/
theorem g_eq (c : Dev nD) : cur2 (M := 10000) (N := 64) (Hand.V3 m c main_v3_0)
    = gG (aA m c) (kS (aX m c) (aW1 m c)) (kCorr (aX m c) (aW1 m c) (aB1 m c)) (aW2 m c) := by
  rw [V3_v3_0, final1_g, s_eq, corr_eq, V2_arg1, V2_arg4]; rfl
/-- The second call's column sums, as the third call finds them. -/
theorem gs_eq (c : Dev nD) : row1 (N := 64) (Hand.V3 m c main_v3_1)
    = gGsum (aA m c) (kS (aX m c) (aW1 m c)) (kCorr (aX m c) (aW1 m c) (aB1 m c)) (aW2 m c) := by
  rw [V3_v3_1, final1_c, s_eq, corr_eq, V2_arg1, V2_arg4]; rfl

/-- THE RESULT ARRAY after the run: the blocked network of the six argument arrays. -/
theorem result_kOut (c : Dev nD) : (W4 m c (Proc.devRef .tc main_v4) : S10000x64.Idx → EReal)
    = fun i => kOut (aX m c) (aA m c) (aW1 m c) (aB1 m c) (aW2 m c) (aB2 m c) (i 0) (i 1) := by
  rw [W4_v4, final2]
  unfold G2
  rw [g_eq, gs_eq, V3_arg1, V3_v1, row1_V1_v1, kOut_eq_g]
  rfl

end Cert.KernelIdeal.HandValue

end
-- ==== Proof.Algebra.lean ====
/-
  The blocked arrangement of the two-layer graph convolution equals the network as written, when every entry of
  the six argument arrays is a real number.

  The steps: a product taken as three products is the plain product, since x - x = 0 for a real x; a sum over
  10000 rows is the sum over blocks of the sums within each block; the accumulated correction rows are the closed
  forms ½ · colsum + bias and colsum; centring the adjacency by ½ and adding ½ · colsum back changes nothing over
  the reals; and real entries stay real through sums, products, differences and max with 0.
-/
import proofs.«173031_g128849019522_cont_9to1_m_876_7_alg».proof.Proof.Spec
import Mathlib.Data.EReal.Operations
import Mathlib.Algebra.BigOperators.Fin
import Mathlib.Algebra.BigOperators.Ring.Finset
import Mathlib.Logic.Equiv.Fin.Basic
import Mathlib.Tactic.Ring
import Mathlib.Tactic.Linarith
import Mathlib.Tactic.NormNum

noncomputable section

open scoped BigOperators

namespace Cert.Gcn

/-! ## Real entries -/

/-- An extended real that is a real number. -/
def IsRl (x : EReal) : Prop := ∃ r : ℝ, x = (r : EReal)

theorem IsRl.add {x y : EReal} (hx : IsRl x) (hy : IsRl y) : IsRl (x + y) := by
  obtain ⟨r, rfl⟩ := hx; obtain ⟨s, rfl⟩ := hy; exact ⟨r + s, (EReal.coe_add r s).symm⟩

theorem IsRl.sub {x y : EReal} (hx : IsRl x) (hy : IsRl y) : IsRl (x - y) := by
  obtain ⟨r, rfl⟩ := hx; obtain ⟨s, rfl⟩ := hy; exact ⟨r - s, (EReal.coe_sub r s).symm⟩

theorem IsRl.mul {x y : EReal} (hx : IsRl x) (hy : IsRl y) : IsRl (x * y) := by
  obtain ⟨r, rfl⟩ := hx; obtain ⟨s, rfl⟩ := hy; exact ⟨r * s, (EReal.coe_mul r s).symm⟩

theorem isRl_zero : IsRl 0 := ⟨0, EReal.coe_zero.symm⟩

theorem isRl_hlf : IsRl hlf := ⟨1 / 2, rfl⟩

/-- The larger of a real number and 0 is a real number. -/
theorem IsRl.max0 {x : EReal} (hx : IsRl x) : IsRl (max x 0) := by
  rcases le_total x 0 with h | h
  · rw [max_eq_right h]; exact isRl_zero
  · rw [max_eq_left h]; exact hx

theorem IsRl.sum {ι : Type*} (s : Finset ι) (f : ι → EReal) (h : ∀ i ∈ s, IsRl (f i)) : IsRl (∑ i ∈ s, f i) := by
  classical
  induction s using Finset.induction_on with
  | empty => simpa using isRl_zero
  | insert a s ha ih =>
    rw [Finset.sum_insert ha]
    exact (h a (Finset.mem_insert_self a s)).add (ih fun i hi => h i (Finset.mem_insert_of_mem hi))

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsRl.sub_self {x : EReal} (hx : IsRl x) : x - x = 0 := by
  obtain ⟨r, rfl⟩ := hx
  rw [← EReal.coe_sub r r, _root_.sub_self r, EReal.coe_zero]

/-! ## A product taken as three -/

theorem split3_eq {M K N : ℕ} (a : Fin M → Fin K → EReal) (b : Fin K → Fin N → EReal)
    (ha : ∀ p k, IsRl (a p k)) (hb : ∀ k q, IsRl (b k q)) (p : Fin M) (q : Fin N) :
    split3 a b p q = ∑ k : Fin K, a p k * b k q := by
  have h2 : (∑ k : Fin K, (a p k - a p k) * b k q) = 0 :=
    Finset.sum_eq_zero fun k _ => by rw [(ha p k).sub_self, zero_mul]
  have h3 : (∑ k : Fin K, a p k * (b k q - b k q)) = 0 :=
    Finset.sum_eq_zero fun k _ => by rw [(hb k q).sub_self, mul_zero]
  rw [split3, h2, h3, add_zero, add_zero]

/-! ## A sum over 10000 rows, block by block -/

theorem sum_blocks (T B : ℕ) (hTB : T * B = 10000) (f : Fin 10000 → EReal) :
    ∑ n : Fin 10000, f n = ∑ t ∈ Finset.range T, ∑ p : Fin B, f (blockRow B t p) := by
  rw [← Fin.sum_univ_eq_sum_range (fun t => ∑ p : Fin B, f (blockRow B t p)) T]
  rw [← Equiv.sum_comp (finProdFinEquiv.trans (finCongr hTB)) f, Fintype.sum_prod_type]
  refine Finset.sum_congr rfl fun t _ => Finset.sum_congr rfl fun p _ => ?_
  congr 1
  apply Fin.ext
  have h : B * t.val + p.val < 10000 := by
    have h1 : B * t.val + p.val < B * (t.val + 1) := by
      rw [Nat.mul_succ]; exact Nat.add_lt_add_left p.isLt _
    have h2 : B * (t.val + 1) ≤ B * T := Nat.mul_le_mul_left _ t.isLt
    rw [Nat.mul_comm B T, hTB] at h2
    exact lt_of_lt_of_le h1 h2
  simp only [blockRow, Equiv.trans_apply, finCongr_apply, Fin.coe_cast, finProdFinEquiv_apply_val]
  rw [Nat.mod_eq_of_lt h, Nat.add_comm]

/-! ## Pulling a real factor out of a finite sum -/

theorem hlf_mul_sum {ι : Type*} (s : Finset ι) (f : ι → EReal) (h : ∀ i ∈ s, IsRl (f i)) :
    ∑ i ∈ s, hlf * f i = hlf * ∑ i ∈ s, f i := by
  classical
  induction s using Finset.induction_on with
  | empty => simp
  | insert a s ha ih =>
    rw [Finset.sum_insert ha, Finset.sum_insert ha, ih (fun i hi => h i (Finset.mem_insert_of_mem hi))]
    obtain ⟨r, hr⟩ := h a (Finset.mem_insert_self a s)
    obtain ⟨q, hq⟩ := IsRl.sum s f (fun i hi => h i (Finset.mem_insert_of_mem hi))
    rw [hr, hq, hlf, ← EReal.coe_mul, ← EReal.coe_mul, ← EReal.coe_add, ← EReal.coe_add, ← EReal.coe_mul, mul_add]

/-! ## Centring by one half -/

/-- (a − ½) · s + (½ · Σ s + b) = a · s + b over the reals. -/
theorem centre_eq {K : ℕ} (a s : Fin K → EReal) (b : EReal) (ha : ∀ k, IsRl (a k)) (hs : ∀ k, IsRl (s k))
    (hb : IsRl b) :
    (∑ k : Fin K, (a k - hlf) * s k) + (hlf * (∑ k : Fin K, s k) + b) = (∑ k : Fin K, a k * s k) + b := by
  choose ra hra using ha
  choose rs hrs using hs
  obtain ⟨rb, rfl⟩ := hb
  obtain rfl : a = fun k => (ra k : EReal) := funext hra
  obtain rfl : s = fun k => (rs k : EReal) := funext hrs
  simp only [hlf, ← EReal.coe_sub, ← EReal.coe_mul, ← coe_sum, ← EReal.coe_add]
  congr 1
  simp only [sub_mul, Finset.sum_sub_distrib, Finset.mul_sum]
  ring

section

variable (X : Fin 10000 → Fin 256 → EReal) (A : Fin 10000 → Fin 10000 → EReal) (W1 : Fin 256 → Fin 256 → EReal)
  (B1 : Fin 256 → EReal) (W2 : Fin 256 → Fin 64 → EReal) (B2 : Fin 64 → EReal)

/-! ## The accumulated rows in closed form -/

theorem kCorrAt_eq (t : ℕ) (c : Fin 256) :
    kCorrAt X W1 B1 t c = (∑ s ∈ Finset.range (t + 1), kPsum X W1 s c) + B1 c := by
  induction t with
  | zero =>
    show kPsum X W1 0 c + B1 c = _
    rw [zero_add, Finset.sum_range_one]
  | succ t ih =>
    rw [kCorrAt, ih, Finset.sum_range_succ _ (t + 1), add_right_comm]

theorem kGsAt_eq (t : ℕ) (j : Fin 64) :
    kGsAt X A W1 B1 W2 t j = ∑ s ∈ Finset.range (t + 1), kGps X A W1 B1 W2 s j := by
  induction t with
  | zero =>
    show kGps X A W1 B1 W2 0 j = _
    rw [zero_add, Finset.sum_range_one]
  | succ t ih =>
    rw [kGsAt, ih, Finset.sum_range_succ _ (t + 1)]

/-- The correction row is ½ · colsum (X · W1) + B1. -/
theorem kCorr_eq (hS : ∀ n c, IsRl (kS X W1 n c)) (c : Fin 256) :
    kCorr X W1 B1 c = hlf * (∑ n : Fin 10000, kS X W1 n c) + B1 c := by
  rw [kCorr, kCorrAt_eq, sum_blocks 5 2000 (by norm_num) (fun n => kS X W1 n c)]
  congr 1
  exact hlf_mul_sum _ _ (fun t _ => IsRl.sum _ _ (fun p _ => hS _ _))

/-- The accumulated column sums are the column sums over all rows. -/
theorem kGsum_eq (j : Fin 64) :
    kGsum X A W1 B1 W2 j = ∑ n : Fin 10000, kG X A W1 B1 W2 n j := by
  rw [kGsum, kGsAt_eq, sum_blocks 25 400 (by norm_num) (fun n => kG X A W1 B1 W2 n j)]
  rfl

/-! ## The layers, bottom up -/

variable (hX : ∀ n f, IsRl (X n f)) (hA : ∀ n k, IsRl (A n k)) (hW1 : ∀ f c, IsRl (W1 f c))
  (hB1 : ∀ c, IsRl (B1 c)) (hW2 : ∀ l j, IsRl (W2 l j)) (hB2 : ∀ j, IsRl (B2 j))

include hX hW1 in
theorem kS_eq (n : Fin 10000) (c : Fin 256) : kS X W1 n c = refS X W1 n c :=
  split3_eq X W1 hX hW1 n c

include hX hW1 in
theorem isRl_refS (n : Fin 10000) (c : Fin 256) : IsRl (refS X W1 n c) :=
  IsRl.sum _ _ fun f _ => (hX n f).mul (hW1 f c)

include hX hA hW1 hB1 in
theorem isRl_refH (n : Fin 10000) (c : Fin 256) : IsRl (refH X A W1 B1 n c) :=
  ((IsRl.sum _ _ fun k _ => (hA n k).mul (isRl_refS X W1 hX hW1 k c)).add (hB1 c)).max0

include hX hA hW1 hB1 in
theorem kH_eq (n : Fin 10000) (l : Fin 256) : kH X A W1 B1 n l = refH X A W1 B1 n l := by
  have hS : ∀ n c, IsRl (kS X W1 n c) := fun n c => by
    rw [kS_eq X W1 hX hW1]; exact isRl_refS X W1 hX hW1 n c
  rw [kH, refH, kCorr_eq X W1 B1 hS,
    centre_eq (A n) (fun k => kS X W1 k l) (B1 l) (hA n) (fun k => hS k l) (hB1 l)]
  simp only [kS_eq X W1 hX hW1]

include hX hA hW1 hB1 hW2 in
theorem kG_eq (n : Fin 10000) (j : Fin 64) : kG X A W1 B1 W2 n j = refG X A W1 B1 W2 n j := by
  have hH : ∀ n l, IsRl (kH X A W1 B1 n l) := fun n l => by
    rw [kH_eq X A W1 B1 hX hA hW1 hB1]; exact isRl_refH X A W1 B1 hX hA hW1 hB1 n l
  rw [kG, split3_eq (kH X A W1 B1) W2 hH hW2, refG]
  simp only [kH_eq X A W1 B1 hX hA hW1 hB1]

include hX hA hW1 hB1 hW2 in
theorem isRl_refG (n : Fin 10000) (j : Fin 64) : IsRl (refG X A W1 B1 W2 n j) :=
  IsRl.sum _ _ fun l _ => (isRl_refH X A W1 B1 hX hA hW1 hB1 n l).mul (hW2 l j)

include hX hA hW1 hB1 hW2 hB2 in
theorem kOut_eq (n : Fin 10000) (j : Fin 64) : kOut X A W1 B1 W2 B2 n j = refOut X A W1 B1 W2 B2 n j := by
  have hG : ∀ n j, IsRl (kG X A W1 B1 W2 n j) := fun n j => by
    rw [kG_eq X A W1 B1 W2 hX hA hW1 hB1 hW2]; exact isRl_refG X A W1 B1 W2 hX hA hW1 hB1 hW2 n j
  rw [kOut, refOut, kGsum_eq, add_assoc,
    centre_eq (A n) (fun k => kG X A W1 B1 W2 k j) (B2 j) (hA n) (fun k => hG k j) (hB2 j)]
  simp only [kG_eq X A W1 B1 W2 hX hA hW1 hB1 hW2]

end

/-- The blocked arrangement equals the network as written when every entry is a real number. -/
theorem kOut_eq_refOut (X : Fin 10000 → Fin 256 → EReal) (A : Fin 10000 → Fin 10000 → EReal)
    (W1 : Fin 256 → Fin 256 → EReal) (B1 : Fin 256 → EReal) (W2 : Fin 256 → Fin 64 → EReal) (B2 : Fin 64 → EReal)
    (hX : ∀ n f, ∃ r : ℝ, X n f = (r : EReal)) (hA : ∀ n k, ∃ r : ℝ, A n k = (r : EReal))
    (hW1 : ∀ f c, ∃ r : ℝ, W1 f c = (r : EReal)) (hB1 : ∀ c, ∃ r : ℝ, B1 c = (r : EReal))
    (hW2 : ∀ l j, ∃ r : ℝ, W2 l j = (r : EReal)) (hB2 : ∀ j, ∃ r : ℝ, B2 j = (r : EReal)) :
    kOut X A W1 B1 W2 B2 = refOut X A W1 B1 W2 B2 := by
  funext n j
  exact kOut_eq X A W1 B1 W2 B2 hX hA hW1 hB1 hW2 hB2 n j

end Cert.Gcn

end
-- ==== Proof.RefSide.lean ====
/-
  The reference network, stage by stage, is the two-layer graph convolution as written.

  Each stage of the reference is read at an entry (n, c): the four matrix products as sums over the contraction
  position, the two bias rows through their two broadcasts, the rectifier as the maximum with the zero constant,
  and the last four operations, 1 / (1 + exp (−z)), as the logistic function of z.
-/
import proofs.«173031_g128849019522_cont_9to1_m_876_7_alg».proof.Proof.Spec
import proofs.«173031_g128849019522_cont_9to1_m_876_7_alg».proof.Proof.LibPlainDot
import proofs.«173031_g128849019522_cont_9to1_m_876_7_alg».proof.Proof.Gen.ReferenceIdeal.Read
import Idealize.ShloMosaic.Lib.IdealHost

noncomputable section

open scoped BigOperators

namespace Cert.Gcn.RefSide

open Cert.ReferenceIdeal Cert.ReferenceIdeal.Gen Cert.ReferenceIdeal.Read
open Idealize.ShloMosaic Idealize.ShloMosaic.ValueIdx Idealize.ShloMosaic.StableHlo

/-! ## The index functions of the stages at an entry -/

theorem lidx_v0 (n : Fin 10000) (c : Fin 256) (k : Fin 256) : lidx_main_v0 (ix2 n c) k = ix2 n k := by
  funext a; match a with | ⟨0, _⟩ => rfl | ⟨1, _⟩ => rfl
theorem ridx_v0 (n : Fin 10000) (c : Fin 256) (k : Fin 256) : ridx_main_v0 (ix2 n c) k = ix2 k c := by
  funext a; match a with | ⟨0, _⟩ => rfl | ⟨1, _⟩ => rfl
theorem lidx_v1 (n : Fin 10000) (c : Fin 256) (k : Fin 10000) : lidx_main_v1 (ix2 n c) k = ix2 n k := by
  funext a; match a with | ⟨0, _⟩ => rfl | ⟨1, _⟩ => rfl
theorem ridx_v1 (n : Fin 10000) (c : Fin 256) (k : Fin 10000) : ridx_main_v1 (ix2 n c) k = ix2 k c := by
  funext a; match a with | ⟨0, _⟩ => rfl | ⟨1, _⟩ => rfl
theorem lidx_v7 (n : Fin 10000) (j : Fin 64) (k : Fin 256) : lidx_main_v7 (ix2 n j) k = ix2 n k := by
  funext a; match a with | ⟨0, _⟩ => rfl | ⟨1, _⟩ => rfl
theorem ridx_v7 (n : Fin 10000) (j : Fin 64) (k : Fin 256) : ridx_main_v7 (ix2 n j) k = ix2 k j := by
  funext a; match a with | ⟨0, _⟩ => rfl | ⟨1, _⟩ => rfl
theorem lidx_v8 (n : Fin 10000) (j : Fin 64) (k : Fin 10000) : lidx_main_v8 (ix2 n j) k = ix2 n k := by
  funext a; match a with | ⟨0, _⟩ => rfl | ⟨1, _⟩ => rfl
theorem ridx_v8 (n : Fin 10000) (j : Fin 64) (k : Fin 10000) : ridx_main_v8 (ix2 n j) k = ix2 k j := by
  funext a; match a with | ⟨0, _⟩ => rfl | ⟨1, _⟩ => rfl
theorem idx_v3v2 (n : Fin 10000) (c : Fin 256) : idx_main_v2 (idx_main_v3 (ix2 n c)) = ix1 c := by
  funext a; match a with | ⟨0, _⟩ => rfl
theorem idx_v10v9 (n : Fin 10000) (j : Fin 64) : idx_main_v9 (idx_main_v10 (ix2 n j)) = ix1 j := by
  funext a; match a with | ⟨0, _⟩ => rfl

/-! ## The stages -/

variable (a0 : FVec Ideal S10000x256 .f32) (a1 : FVec Ideal S10000x10000 .f32) (a2 : FVec Ideal S256x256 .f32)
  (a3 : FVec Ideal S256 .f32) (a4 : FVec Ideal S256x64 .f32) (a5 : FVec Ideal S64 .f32)

/-- X · W1 at an entry. -/
theorem stage_S (n : Fin 10000) (c : Fin 256) :
    val_main_v0 (F := Ideal) a0 a2 (ix2 n c) = refS (cur2 a0) (cur2 a2) n c := by
  rw [val_main_v0_apply]
  simp only [lidx_v0, ridx_v0]
  rfl

/-- relu (A · (X · W1) + B1) at an entry. -/
theorem stage_H (n : Fin 10000) (c : Fin 256) :
    val_main_v6 (F := Ideal) a0 a1 a2 a3 (ix2 n c) = refH (cur2 a0) (cur2 a1) (cur2 a2) (cur1 a3) n c := by
  rw [val_main_v6_apply, val_main_v4_apply, val_main_v1_apply, val_main_v3_apply, val_main_v2_apply,
    val_main_v5_apply, val_main_cst_apply]
  simp only [lidx_v1, ridx_v1, idx_v3v2, stage_S, Ideal.maximumf_def, Ideal.addf_def, Ideal.ofBits_def,
    Ideal.ofBits_zero_f32]
  rfl

/-- relu (…) · W2 at an entry. -/
theorem stage_G (n : Fin 10000) (j : Fin 64) :
    val_main_v7 (F := Ideal) a0 a1 a2 a3 a4 (ix2 n j)
      = refG (cur2 a0) (cur2 a1) (cur2 a2) (cur1 a3) (cur2 a4) n j := by
  rw [val_main_v7_apply]
  simp only [lidx_v7, ridx_v7, stage_H]
  rfl

/-- A · (…) + B2 at an entry. -/
theorem stage_Z (n : Fin 10000) (j : Fin 64) :
    val_main_v11 (F := Ideal) a0 a1 a2 a3 a4 a5 (ix2 n j)
      = (∑ k : Fin 10000, cur2 a1 n k * refG (cur2 a0) (cur2 a1) (cur2 a2) (cur1 a3) (cur2 a4) k j) + cur1 a5 j := by
  rw [val_main_v11_apply, val_main_v8_apply, val_main_v10_apply, val_main_v9_apply]
  simp only [lidx_v8, ridx_v8, idx_v10v9, stage_G, Ideal.addf_def]
  rfl

/-- The last stage at an entry: 1 / (1 + exp (−z)) is the logistic function of z. -/
theorem stage_Out (n : Fin 10000) (j : Fin 64) :
    val_main_v17 (F := Ideal) a0 a1 a2 a3 a4 a5 (ix2 n j)
      = refOut (cur2 a0) (cur2 a1) (cur2 a2) (cur1 a3) (cur2 a4) (cur1 a5) n j := by
  rw [val_main_v17_apply, val_main_v16_apply, val_main_cst_1_apply, val_main_v15_apply, val_main_v14_apply,
    val_main_cst_0_apply, val_main_v13_apply, val_main_v12_apply, stage_Z]
  simp only [Ideal.ofBits_def, Ideal.ofBits_one_f32]
  rfl

/-- The reference's last stage is the network as written. -/
theorem ref_stage :
    val_main_v17 (F := Ideal) a0 a1 a2 a3 a4 a5
      = fun i => refOut (cur2 a0) (cur2 a1) (cur2 a2) (cur1 a3) (cur2 a4) (cur1 a5) (i 0) (i 1) := by
  funext i
  obtain ⟨n, j, rfl⟩ : ∃ n j, i = ix2 n j := ⟨i 0, i 1, eq_ix2 i⟩
  exact stage_Out a0 a1 a2 a3 a4 a5 n j

/-- The reference run's result term, of the six argument arrays, is the network as written. -/
theorem ref_result :
    Host.divf (broadcastInDim S10000x64 ![] bcast_S_S10000x64 (constant S_ .f32 0x3F800000#32)) (addf (broadcastInDim S10000x64 ![] bcast_S_S10000x64 (constant S_ .f32 0x3F800000#32)) (Host.exp (Host.negf (addf (Host.dotGeneral dot_S10000x10000_S10000x64_S10000x64_1_0_0_1_n_n none (a1) (Host.dotGeneral dot_S10000x256_S256x64_S10000x64_1_0_0_1_n_n none (maximumf (addf (Host.dotGeneral dot_S10000x10000_S10000x256_S10000x256_1_0_0_1_n_n none (a1) (Host.dotGeneral dot_S10000x256_S256x256_S10000x256_1_0_0_1_n_n none (a0) (a2))) (broadcastInDim S10000x256 ![0, 1] bcast_S1x256_S10000x256_0_1 (broadcastInDim S1x256 ![1] bcast_S256_S1x256_1 (a3)))) (broadcastInDim S10000x256 ![] bcast_S_S10000x256 (constant S_ .f32 0x00000000#32))) (a4))) (broadcastInDim S10000x64 ![0, 1] bcast_S1x64_S10000x64_0_1 (broadcastInDim S1x64 ![1] bcast_S64_S1x64_1 (a5)))))))
      = fun i => refOut (cur2 a0) (cur2 a1) (cur2 a2) (cur1 a3) (cur2 a4) (cur1 a5) (i 0) (i 1) :=
  (val_main_v17_eq (F := Ideal) a0 a1 a2 a3 a4 a5).trans (ref_stage a0 a1 a2 a3 a4 a5)

end Cert.Gcn.RefSide

end
-- ==== Proof.Finite.lean ====
/-
  Finiteness of the inputs, read back from the precondition: the predicate that each of the six float arrays
  satisfies "all of |a| < +infinity" being true says that every entry of every array is a real number.
-/
import proofs.«173031_g128849019522_cont_9to1_m_876_7_alg».proof.Pre_finite_inputs
import proofs.«173031_g128849019522_cont_9to1_m_876_7_alg».proof.Proof.Gen.Pre_finite_inputs
import Idealize.ShloMosaic.PureOps.Ideal
import Idealize.ShloMosaic.Lib.ValueIdx
import Idealize.ShloMosaic.Lib.ReduceAll

namespace Cert.Gcn.Finite

open Idealize.ShloMosaic Idealize.ShloMosaic.ValueIdx

/-- An extended real whose absolute value, `max x (-x)`, lies strictly below `⊤` is a real number:
    `x = ⊤` is excluded by `x < ⊤` and `x = ⊥` by `-x < ⊤`. -/
theorem real_of_abs_lt_top (x : EReal) (h : max x (-x) < ⊤) : ∃ r : ℝ, x = (r : EReal) := by
  rw [max_lt_iff] at h
  induction x using EReal.rec with
  | bot => exact absurd h.2 (by simp)
  | coe r => exact ⟨r, rfl⟩
  | top => exact absurd h.1 (by simp)

/-- The word `0x7F800000` is `+∞`, the top extended real. -/
theorem ofBits_inf : Ideal.ofBits .f32 0x7F800000#32 = (⊤ : EReal) := by simp [Ideal.ofBits, Ideal.ieee]

/-- One array, one index: where the comparison "|a| is less than +∞, in order" holds, the entry is a real. -/
theorem real_of_cmp {S : Shape} (hb : (⟨0, ![]⟩ : Shape).BroadcastsInDim S ![]) (a : FVec Ideal S .f32) (i : S.Idx)
    (h : cmpf .olt (Host.absf a) (broadcastInDim S ![] hb (constant (⟨0, ![]⟩ : Shape) .f32 0x7F800000#32)) i = 1#1) :
    ∃ r : ℝ, a i = (r : EReal) := by
  have hc : cmpf .olt (Host.absf a) (broadcastInDim S ![] hb (constant (⟨0, ![]⟩ : Shape) .f32 0x7F800000#32)) i
      = Ideal.cmp .olt (max (a i) (-(a i))) (Ideal.ofBits .f32 0x7F800000#32) := rfl
  rw [hc, ofBits_inf] at h
  refine real_of_abs_lt_top (a i) ?_
  unfold Ideal.cmp at h
  by_contra hn
  simp [hn] at h

/-- The result of the predicate is a scalar array: its index type has one element. -/
instance : Subsingleton Cert.Pre_finite_inputs.S_.Idx := ⟨fun a b => funext fun d => d.elim0⟩

/-- One array: where the conjunction over all indices of "|a| is less than +∞" is true, every entry is a real. -/
theorem real_of_all {S : Shape} {axes : List (Fin S.rank)} (hb : (⟨0, ![]⟩ : Shape).BroadcastsInDim S ![])
    (hr : S.ReducesTo axes Cert.Pre_finite_inputs.S_) (hu : 0 < Cert.Pre_finite_inputs.S_.numel) (a : FVec Ideal S .f32)
    (h : Host.reduce IntOp.andi
        (cmpf .olt (Host.absf a) (broadcastInDim S ![] hb (constant (⟨0, ![]⟩ : Shape) .f32 0x7F800000#32)))
        (constantI Cert.Pre_finite_inputs.S_ 1 1#1) hr hu ix0 = 1#1) (i : S.Idx) :
    ∃ r : ℝ, a i = (r : EReal) :=
  real_of_cmp hb a i (Host.reduce_andi_all _ _ hr hu ix0 h i)

/-- The precondition, true: the six conjuncts are split apart and each, a conjunction over all the
    indices of one array, gives that every entry of that array is a real number. -/
theorem finite_of_pre (a0 : FVec Ideal Cert.Pre_finite_inputs.S10000x256 .f32) (a1 : FVec Ideal Cert.Pre_finite_inputs.S10000x10000 .f32) (a2 : FVec Ideal Cert.Pre_finite_inputs.S256x256 .f32) (a3 : FVec Ideal Cert.Pre_finite_inputs.S256 .f32) (a4 : FVec Ideal Cert.Pre_finite_inputs.S256x64 .f32) (a5 : FVec Ideal Cert.Pre_finite_inputs.S64 .f32)
    (h : Cert.Pre_finite_inputs.fn (F := Ideal) a0 a1 a2 a3 a4 a5 = (fun _ => 1#1)) :
    (∀ i, ∃ r : ℝ, a0 i = (r : EReal)) ∧ (∀ i, ∃ r : ℝ, a1 i = (r : EReal)) ∧ (∀ i, ∃ r : ℝ, a2 i = (r : EReal)) ∧ (∀ i, ∃ r : ℝ, a3 i = (r : EReal)) ∧ (∀ i, ∃ r : ℝ, a4 i = (r : EReal)) ∧ (∀ i, ∃ r : ℝ, a5 i = (r : EReal)) := by
  have h0 := congrFun h ValueIdx.ix0
  dsimp only [Cert.Pre_finite_inputs.fn, Cert.Pre_finite_inputs.fn_part1] at h0
  unfold Idealize.ShloMosaic.andi at h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨real_of_all _ _ _ a0 e0, real_of_all _ _ _ a1 e1, real_of_all _ _ _ a2 e2, real_of_all _ _ _ a3 e3,
    real_of_all _ _ _ a4 e4, real_of_all _ _ _ a5 e5⟩

end Cert.Gcn.Finite
-- ==== Proof.lean ====
/-
  A two-layer graph convolution, out = logistic (A · (relu (A · (X · W1) + B1) · W2) + B2), computed by three blocked
  calls, against the same network written as plain array operations.

  The three frames. The program is a stretch of two host reshapes and three calls; each call's body is run at a
  symbolic grid point on whole staging buffers, its two accumulated rows followed from point to point; the calls
  are launched one after the other from a thread state holding every buffer outside their scratch space. Nothing
  writes an argument array. The same text proves it for the program as printed and for its idealization. The plain
  network's frame is its run with the result dropped.

  The idealization. Four places where the printed program rounds a value to sixteen bits and widens it back are
  the identity at the exact values; each is that rule's statement at its shape.

  The values. At the exact values the blocked program computes every small product as U·V + (U − U)·V + U·(V − V),
  centres the adjacency, A·S = (A − ½)·S + ½·colsum S, and accumulates the column sums block by block. When every
  entry of the six argument arrays is a real number, as the precondition says, U − U = 0, the centring is
  distributivity, and the accumulated sums are the whole sums: the result is the plain network's, entry by entry.
-/
import proofs.«173031_g128849019522_cont_9to1_m_876_7_alg».proof.Defs
import proofs.«173031_g128849019522_cont_9to1_m_876_7_alg».proof.Proof.Gen.Kernel
import proofs.«173031_g128849019522_cont_9to1_m_876_7_alg».proof.Proof.Gen.KernelIdeal
import proofs.«173031_g128849019522_cont_9to1_m_876_7_alg».proof.Proof.Gen.ReferenceIdeal
import proofs.«173031_g128849019522_cont_9to1_m_876_7_alg».proof.Proof.Gen.ReferenceIdeal.Run
import proofs.«173031_g128849019522_cont_9to1_m_876_7_alg».proof.Proof.Gen.ReferenceIdeal.Read
import proofs.«173031_g128849019522_cont_9to1_m_876_7_alg».proof.Proof.Gen.Pre_finite_inputs
import proofs.«173031_g128849019522_cont_9to1_m_876_7_alg».proof.Proof.KRun
import proofs.«173031_g128849019522_cont_9to1_m_876_7_alg».proof.Proof.Bridge
import proofs.«173031_g128849019522_cont_9to1_m_876_7_alg».proof.Proof.Algebra
import proofs.«173031_g128849019522_cont_9to1_m_876_7_alg».proof.Proof.RefSide
import proofs.«173031_g128849019522_cont_9to1_m_876_7_alg».proof.Proof.Finite
import Idealize.ShloMosaic.Adequacy
import Idealize.ShloMosaic.Init

noncomputable section

namespace Cert.Proof

open Idealize.ShloMosaic Idealize.ShloMosaic.TcCoe Idealize.ShloMosaic.ValueIdx Idealize.SL.Sem
open Cert.Gcn

/-- The program as printed runs to the end and leaves its arguments unchanged. -/
theorem frame_k : Cert.frame_Kernel := fun m ρ _ => Cert.Kernel.Hand.frame (F := Bits) m ρ

/-- So does its idealization. -/
theorem frame_ki : Cert.frame_KernelIdeal := fun m ρ _ => Cert.KernelIdeal.Hand.frame (F := Ideal) m ρ

/-- The plain network's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Rounding to sixteen bits and widening back is the identity at the exact values, at each of the four shapes. -/
theorem preserves : Cert.preserves_Kernel_KernelIdeal :=
  ⟨IdealRules.truncf_extf.statement Cert.KernelIdeal.S2000x256 .f32 .bf16,
   IdealRules.truncf_extf.statement Cert.KernelIdeal.S256x256 .f32 .bf16,
   IdealRules.truncf_extf.statement Cert.KernelIdeal.S400x256 .f32 .bf16,
   IdealRules.truncf_extf.statement Cert.KernelIdeal.S256x64 .f32 .bf16⟩

open Cert.KernelIdeal Cert.KernelIdeal.Hand Cert.KernelIdeal.HandValue in
/-- From memories agreeing on the arguments both programs run, the arguments unchanged, and end with the plain
    network of the six argument arrays in their result arrays. -/
theorem algebraic : Cert.algebraic_KernelIdeal_ReferenceIdeal := by
  intro m ρ m' ρ' hpre hagree
  refine ⟨fun c => (fun i => refOut (aX m c) (aA m c) (aW1 m c) (aB1 m c) (aW2 m c) (aB2 m c) (i 0) (i 1) : Cert.KernelIdeal.S10000x64.Idx → EReal), ?_, ?_⟩
  · refine (θ_run Cert.KernelIdeal.defs _ _).mono (fun r h c => ⟨?_,
      (h c _ (mem_uc main_arg0 (by decide))).trans (W4_main_arg0 m c), (h c _ (mem_uc main_arg1 (by decide))).trans (W4_main_arg1 m c),
      (h c _ (mem_uc main_arg2 (by decide))).trans (W4_main_arg2 m c), (h c _ (mem_uc main_arg3 (by decide))).trans (W4_main_arg3 m c),
      (h c _ (mem_uc main_arg4 (by decide))).trans (W4_main_arg4 m c), (h c _ (mem_uc main_arg5 (by decide))).trans (W4_main_arg5 m c)⟩)
      (Cert.KernelIdeal.Hand.run_all (F := Ideal) m ρ)
    obtain ⟨h0, h1, h2, h3, h4, h5⟩ := Cert.Gcn.Finite.finite_of_pre _ _ _ _ _ _ (hpre c)
    refine (h c _ (mem_uc main_v4 (by decide))).trans ((result_kOut m c).trans ?_)
    rw [kOut_eq_refOut (aX m c) (aA m c) (aW1 m c) (aB1 m c) (aW2 m c) (aB2 m c)
      (fun n f => h0 (ix2 n f)) (fun n k => h1 (ix2 n k)) (fun f cc => h2 (ix2 f cc)) (fun cc => h3 (ix1 cc))
      (fun l j => h4 (ix2 l j)) (fun j => h5 (ix1 j))]
    rfl
  · refine (θ_run Cert.ReferenceIdeal.defs _ _).mono (fun _ h c => ⟨?_, (h c).2⟩) (Cert.ReferenceIdeal.Value.run (F := Ideal) m' ρ')
    rw [(h c).1, (hagree c).1, (hagree c).2.1, (hagree c).2.2.1, (hagree c).2.2.2.1, (hagree c).2.2.2.2.1, (hagree c).2.2.2.2.2]
    exact Cert.Gcn.RefSide.ref_result _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
